-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2)) (m ((c.tc : Thread Cert.Kernel.nD Cert.Kernel.τ).loc Cert.Kernel.main_arg3))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)) →
    ∃ (v0 : (c : Dev Cert.KernelIdeal.nD) → Buf (Elt Ideal) ((c.tc : Thread Cert.KernelIdeal.nD Cert.KernelIdeal.τ).loc Cert.KernelIdeal.main_v48)) (v1 : (c : Dev Cert.KernelIdeal.nD) → Buf (Elt Ideal) ((c.tc : Thread Cert.KernelIdeal.nD Cert.KernelIdeal.τ).loc Cert.KernelIdeal.main_v17)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v48) = v0 c
          ∧ r.2.mem ((c.tc : Thread Cert.KernelIdeal.nD Cert.KernelIdeal.τ).loc Cert.KernelIdeal.main_v17) = v1 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v58) = v0 c
          ∧ r.2.mem ((c.tc : Thread Cert.ReferenceIdeal.nD Cert.ReferenceIdeal.τ).loc Cert.ReferenceIdeal.main_v33) = v1 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S8x76725x4 : Shape := ⟨3, ![8, 76725, 4]⟩
abbrev S8x76725x81 : Shape := ⟨3, ![8, 76725, 81]⟩
abbrev S8x76725x5 : Shape := ⟨3, ![8, 76725, 5]⟩
abbrev S81 : Shape := ⟨1, ![81]⟩
abbrev S_ : Shape := ⟨0, ![]⟩
abbrev S8x76725x1 : Shape := ⟨3, ![8, 76725, 1]⟩
abbrev S8x76725 : Shape := ⟨2, ![8, 76725]⟩
abbrev S613800 : Shape := ⟨1, ![613800]⟩

class Facts : Prop where
  bcast_S_S8x76725x4 : S_.BroadcastsInDim S8x76725x4 (![] : Fin 0 → Fin S8x76725x4.rank)
  reducesTo_S8x76725x4_S_d0_1_2 : S8x76725x4.ReducesTo [0, 1, 2] S_
  h_S_ : 0 < S_.numel
  bcast_S_S8x76725x81 : S_.BroadcastsInDim S8x76725x81 (![] : Fin 0 → Fin S8x76725x81.rank)
  reducesTo_S8x76725x81_S_d0_1_2 : S8x76725x81.ReducesTo [0, 1, 2] S_
  bcast_S_S8x76725x5 : S_.BroadcastsInDim S8x76725x5 (![] : Fin 0 → Fin S8x76725x5.rank)
  reducesTo_S8x76725x5_S_d0_1_2 : S8x76725x5.ReducesTo [0, 1, 2] S_
  bcast_S_S81 : S_.BroadcastsInDim S81 (![] : Fin 0 → Fin S81.rank)
  reducesTo_S81_S_d0 : S81.ReducesTo [0] S_
  slices_S8x76725x5_S8x76725x1_0_0_4 : S8x76725x5.Slices ![0, 0, 4] S8x76725x1
  shapeCasts_S8x76725x1_S8x76725 : S8x76725x1.ShapeCasts S8x76725
  shapeCasts_S8x76725_S613800 : S8x76725.ShapeCasts S613800
  reducesTo_S613800_S_d0 : S613800.ReducesTo [0] S_

variable [Facts]

def fn_part1 {F : FTy → Type} [FloatOps F] (main_arg2 : FVec F S8x76725x5 .f32) (main_v13 : IVec S_ 1) (main_v16 : IVec S81 1) : IVec S_ 1 :=
  let main_c_5 : IVec S_ 1 := constantI S_ 1 1#1
  let main_v17 : IVec S_ 1 := (fun x v => Host.reduce IntOp.andi x v reducesTo_S81_S_d0 h_S_) main_v16 main_c_5
  let main_v18 : IVec S_ 1 := andi main_v13 main_v17
  let main_v19 : FVec F S8x76725x1 .f32 := (extractStridedSlice S8x76725x1 ![0, 0, 4] · slices_S8x76725x5_S8x76725x1_0_0_4) main_arg2
  let main_v20 : FVec F S8x76725 .f32 := shapeCast S8x76725 main_v19 shapeCasts_S8x76725x1_S8x76725
  let main_v21 : FVec F S613800 .f32 := shapeCast S613800 main_v20 shapeCasts_S8x76725_S613800
  let main_v22 : IVec S613800 32 := fptosi 32 main_v21
  let main_v23 : FVec F S613800 .f32 := sitofp .f32 main_v22
  let main_v24 : FVec F S8x76725x1 .f32 := (extractStridedSlice S8x76725x1 ![0, 0, 4] · slices_S8x76725x5_S8x76725x1_0_0_4) main_arg2
  let main_v25 : FVec F S8x76725 .f32 := shapeCast S8x76725 main_v24 shapeCasts_S8x76725x1_S8x76725
  let main_v26 : FVec F S613800 .f32 := shapeCast S613800 main_v25 shapeCasts_S8x76725_S613800
  let main_v27 : IVec S613800 1 := cmpf .oeq main_v23 main_v26
  let main_c_6 : IVec S_ 1 := constantI S_ 1 1#1
  let main_v28 : IVec S_ 1 := (fun x v => Host.reduce IntOp.andi x v reducesTo_S613800_S_d0 h_S_) main_v27 main_c_6
  let main_v29 : IVec S_ 1 := andi main_v18 main_v28
  main_v29

def fn {F : FTy → Type} [FloatOps F] (main_arg0 : FVec F S8x76725x4 .f32) (main_arg1 : FVec F S8x76725x81 .f32) (main_arg2 : FVec F S8x76725x5 .f32) (main_arg3 : FVec F S81 .f32) : IVec S_ 1 :=
  let main_v0 : FVec F S8x76725x4 .f32 := Host.absf main_arg0
  let main_cst : FVec F S_ .f32 := constant S_ .f32 0x7F800000#32
  let main_v1 : FVec F S8x76725x4 .f32 := broadcastInDim S8x76725x4 ![] bcast_S_S8x76725x4 main_cst
  let main_v2 : IVec S8x76725x4 1 := cmpf .olt main_v0 main_v1
  let main_c : IVec S_ 1 := constantI S_ 1 1#1
  let main_v3 : IVec S_ 1 := (fun x v => Host.reduce IntOp.andi x v reducesTo_S8x76725x4_S_d0_1_2 h_S_) main_v2 main_c
  let main_v4 : FVec F S8x76725x81 .f32 := Host.absf main_arg1
  let main_cst_0 : FVec F S_ .f32 := constant S_ .f32 0x7F800000#32
  let main_v5 : FVec F S8x76725x81 .f32 := broadcastInDim S8x76725x81 ![] bcast_S_S8x76725x81 main_cst_0
  let main_v6 : IVec S8x76725x81 1 := cmpf .olt main_v4 main_v5
  let main_c_1 : IVec S_ 1 := constantI S_ 1 1#1
  let main_v7 : IVec S_ 1 := (fun x v => Host.reduce IntOp.andi x v reducesTo_S8x76725x81_S_d0_1_2 h_S_) main_v6 main_c_1
  let main_v8 : IVec S_ 1 := andi main_v3 main_v7
  let main_v9 : FVec F S8x76725x5 .f32 := Host.absf main_arg2
  let main_cst_2 : FVec F S_ .f32 := constant S_ .f32 0x7F800000#32
  let main_v10 : FVec F S8x76725x5 .f32 := broadcastInDim S8x76725x5 ![] bcast_S_S8x76725x5 main_cst_2
  let main_v11 : IVec S8x76725x5 1 := cmpf .olt main_v9 main_v10
  let main_c_3 : IVec S_ 1 := constantI S_ 1 1#1
  let main_v12 : IVec S_ 1 := (fun x v => Host.reduce IntOp.andi x v reducesTo_S8x76725x5_S_d0_1_2 h_S_) main_v11 main_c_3
  let main_v13 : IVec S_ 1 := andi main_v8 main_v12
  let main_v14 : FVec F S81 .f32 := Host.absf main_arg3
  let main_cst_4 : FVec F S_ .f32 := constant S_ .f32 0x7F800000#32
  let main_v15 : FVec F S81 .f32 := broadcastInDim S81 ![] bcast_S_S81 main_cst_4
  let main_v16 : IVec S81 1 := cmpf .olt main_v14 main_v15
  fn_part1 (F := F) main_arg2 main_v13 main_v16
-- ==== Kernel.lean ====
abbrev S8x76725x4 : Shape := ⟨3, ![8, 76725, 4]⟩
abbrev S8x76725x81 : Shape := ⟨3, ![8, 76725, 81]⟩
abbrev S8x76725x5 : Shape := ⟨3, ![8, 76725, 5]⟩
abbrev S81 : Shape := ⟨1, ![81]⟩
abbrev S613800x81 : Shape := ⟨2, ![613800, 81]⟩
abbrev S8x76725x1 : Shape := ⟨3, ![8, 76725, 1]⟩
abbrev S8x76725 : Shape := ⟨2, ![8, 76725]⟩
abbrev S613800x1 : Shape := ⟨2, ![613800, 1]⟩
abbrev S613800x82 : Shape := ⟨2, ![613800, 82]⟩
abbrev S_ : Shape := ⟨0, ![]⟩
abbrev S600x81 : Shape := ⟨2, ![600, 81]⟩
abbrev S600x1 : Shape := ⟨2, ![600, 1]⟩
abbrev S600x82 : Shape := ⟨2, ![600, 82]⟩
abbrev S614400x82 : Shape := ⟨2, ![614400, 82]⟩
abbrev S1x81 : Shape := ⟨2, ![1, 81]⟩
abbrev S2x1x81 : Shape := ⟨3, ![2, 1, 81]⟩
abbrev S4096x82 : Shape := ⟨2, ![4096, 82]⟩
abbrev S1x1x81 : Shape := ⟨3, ![1, 1, 81]⟩
abbrev S4096x81 : Shape := ⟨2, ![4096, 81]⟩
abbrev S4096x1 : Shape := ⟨2, ![4096, 1]⟩
abbrev S4096 : Shape := ⟨1, ![4096]⟩
abbrev S613800x4 : Shape := ⟨2, ![613800, 4]⟩
abbrev S613800 : Shape := ⟨1, ![613800]⟩

abbrev nBuf : Space → Nat
  | .hbm => 72
  | .vmem => 9
  | .smem => 0
  | _ => 0

abbrev bufTy : (tb : Table) → Fin (tcTables nBuf tb) → BufTy
  | .hbm, ⟨0, _⟩ => ⟨S8x76725x4, .f32⟩
  | .hbm, ⟨1, _⟩ => ⟨S8x76725x81, .f32⟩
  | .hbm, ⟨2, _⟩ => ⟨S8x76725x5, .f32⟩
  | .hbm, ⟨3, _⟩ => ⟨S81, .f32⟩
  | .hbm, ⟨4, _⟩ => ⟨S613800x81, .f32⟩
  | .hbm, ⟨5, _⟩ => ⟨S8x76725x1, .f32⟩
  | .hbm, ⟨6, _⟩ => ⟨S8x76725, .f32⟩
  | .hbm, ⟨7, _⟩ => ⟨S613800x1, .f32⟩
  | .hbm, ⟨8, _⟩ => ⟨S613800x82, .f32⟩
  | .hbm, ⟨9, _⟩ => ⟨S_, .f32⟩
  | .hbm, ⟨10, _⟩ => ⟨S600x81, .f32⟩
  | .hbm, ⟨11, _⟩ => ⟨S_, .f32⟩
  | .hbm, ⟨12, _⟩ => ⟨S600x1, .f32⟩
  | .hbm, ⟨13, _⟩ => ⟨S600x82, .f32⟩
  | .hbm, ⟨14, _⟩ => ⟨S614400x82, .f32⟩
  | .hbm, ⟨15, _⟩ => ⟨S1x81, .f32⟩
  | .hbm, ⟨16, _⟩ => ⟨S2x1x81, .f32⟩
  | .hbm, ⟨17, _⟩ => ⟨S2x1x81, .f32⟩
  | .hbm, ⟨18, _⟩ => ⟨S_, .f32⟩
  | .hbm, ⟨19, _⟩ => ⟨S1x81, .f32⟩
  | .hbm, ⟨20, _⟩ => ⟨S81, .f32⟩
  | .hbm, ⟨21, _⟩ => ⟨S_, .f32⟩
  | .hbm, ⟨22, _⟩ => ⟨S1x81, .f32⟩
  | .hbm, ⟨23, _⟩ => ⟨S81, .f32⟩
  | .hbm, ⟨24, _⟩ => ⟨S_, .f32⟩
  | .hbm, ⟨25, _⟩ => ⟨S_, .f32⟩
  | .hbm, ⟨26, _⟩ => ⟨S81, .f32⟩
  | .hbm, ⟨27, _⟩ => ⟨S81, .f32⟩
  | .hbm, ⟨28, _⟩ => ⟨S81, .f32⟩
  | .hbm, ⟨29, _⟩ => ⟨S_, .f32⟩
  | .hbm, ⟨30, _⟩ => ⟨S_, .f32⟩
  | .hbm, ⟨31, _⟩ => ⟨S613800x4, .f32⟩
  | .hbm, ⟨32, _⟩ => ⟨S8x76725x4, .f32⟩
  | .hbm, ⟨33, _⟩ => ⟨S613800x4, .f32⟩
  | .hbm, ⟨34, _⟩ => ⟨S8x76725x1, .f32⟩
  | .hbm, ⟨35, _⟩ => ⟨S8x76725, .f32⟩
  | .hbm, ⟨36, _⟩ => ⟨S613800, .f32⟩
  | .hbm, ⟨37, _⟩ => ⟨S_, .f32⟩
  | .hbm, ⟨38, _⟩ => ⟨S613800, .f32⟩
  | .hbm, ⟨39, _⟩ => ⟨S613800, .i1⟩
  | .hbm, ⟨40, _⟩ => ⟨S613800x4, .f32⟩
  | .hbm, ⟨41, _⟩ => ⟨S613800x4, .f32⟩
  | .hbm, ⟨42, _⟩ => ⟨S_, .f32⟩
  | .hbm, ⟨43, _⟩ => ⟨S613800x4, .f32⟩
  | .hbm, ⟨44, _⟩ => ⟨S613800x4, .i1⟩
  | .hbm, ⟨45, _⟩ => ⟨S_, .f32⟩
  | .hbm, ⟨46, _⟩ => ⟨S613800x4, .f32⟩
  | .hbm, ⟨47, _⟩ => ⟨S613800x4, .f32⟩
  | .hbm, ⟨48, _⟩ => ⟨S613800x4, .f32⟩
  | .hbm, ⟨49, _⟩ => ⟨S_, .f32⟩
  | .hbm, ⟨50, _⟩ => ⟨S613800x4, .f32⟩
  | .hbm, ⟨51, _⟩ => ⟨S613800x4, .f32⟩
  | .hbm, ⟨52, _⟩ => ⟨S613800x4, .f32⟩
  | .hbm, ⟨53, _⟩ => ⟨S613800, .i32⟩
  | .hbm, ⟨54, _⟩ => ⟨S_, .i32⟩
  | .hbm, ⟨55, _⟩ => ⟨S_, .i32⟩
  | .hbm, ⟨56, _⟩ => ⟨S613800x1, .i1⟩
  | .hbm, ⟨57, _⟩ => ⟨S613800x1, .f32⟩
  | .hbm, ⟨58, _⟩ => ⟨S_, .i32⟩
  | .hbm, ⟨59, _⟩ => ⟨S_, .i32⟩
  | .hbm, ⟨60, _⟩ => ⟨S_, .i32⟩
  | .hbm, ⟨61, _⟩ => ⟨S_, .i32⟩
  | .hbm, ⟨62, _⟩ => ⟨S_, .f32⟩
  | .hbm, ⟨63, _⟩ => ⟨S613800x4, .f32⟩
  | .hbm, ⟨64, _⟩ => ⟨S613800x4, .f32⟩
  | .hbm, ⟨65, _⟩ => ⟨S_, .f32⟩
  | .hbm, ⟨66, _⟩ => ⟨S_, .f32⟩
  | .hbm, ⟨67, _⟩ => ⟨S_, .f32⟩
  | .hbm, ⟨68, _⟩ => ⟨S_, .i32⟩
  | .hbm, ⟨69, _⟩ => ⟨S_, .i1⟩
  | .hbm, ⟨70, _⟩ => ⟨S_, .f32⟩
  | .hbm, ⟨71, _⟩ => ⟨S_, .f32⟩
  | .local _ .vmem, ⟨0, _⟩ => ⟨S4096x82, .f32⟩
  | .local _ .vmem, ⟨1, _⟩ => ⟨S4096x82, .f32⟩
  | .local _ .vmem, ⟨2, _⟩ => ⟨S1x81, .f32⟩
  | .local _ .vmem, ⟨3, _⟩ => ⟨S1x1x81, .f32⟩
  | .local _ .vmem, ⟨4, _⟩ => ⟨S1x1x81, .f32⟩
  | .local _ .vmem, ⟨5, _⟩ => ⟨S1x1x81, .f32⟩
  | .local _ .vmem, ⟨6, _⟩ => ⟨S1x1x81, .f32⟩
  | .local _ .vmem, ⟨7, _⟩ => ⟨S1x81, .f32⟩
  | .local _ .vmem, ⟨8, _⟩ => ⟨S1x81, .f32⟩
  | _, _ => ⟨S8x76725x4, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | _, _ => false

abbrev semScoped : Fin 0 → Bool
  | ⟨_, h⟩ => absurd h (Nat.not_lt_zero _)

abbrev dmaSemScoped : Fin 7 → Bool
  | ⟨0, _⟩ => true
  | ⟨1, _⟩ => true
  | ⟨2, _⟩ => true
  | ⟨3, _⟩ => true
  | ⟨4, _⟩ => true
  | ⟨5, _⟩ => true
  | ⟨6, _⟩ => true
  | _ => false

abbrev sig : RefSig :=
  ofTc nBuf bufTy 0 7 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev main_v1 : Ref sig .tc := ⟨.hbm, 5, rfl⟩
abbrev main_v2 : Ref sig .tc := ⟨.hbm, 6, rfl⟩
abbrev main_v3 : Ref sig .tc := ⟨.hbm, 7, rfl⟩
abbrev main_v4 : Ref sig .tc := ⟨.hbm, 8, rfl⟩
abbrev main_cst : Ref sig .tc := ⟨.hbm, 9, rfl⟩
abbrev main_v5 : Ref sig .tc := ⟨.hbm, 10, rfl⟩
abbrev main_cst_0 : Ref sig .tc := ⟨.hbm, 11, rfl⟩
abbrev main_v6 : Ref sig .tc := ⟨.hbm, 12, rfl⟩
abbrev main_v7 : Ref sig .tc := ⟨.hbm, 13, rfl⟩
abbrev main_v8 : Ref sig .tc := ⟨.hbm, 14, rfl⟩
abbrev main_v9 : Ref sig .tc := ⟨.hbm, 15, rfl⟩
abbrev main_v10_0 : Ref sig .tc := ⟨.hbm, 16, rfl⟩
abbrev main_v10_1 : Ref sig .tc := ⟨.hbm, 17, rfl⟩
abbrev main_cst_1 : Ref sig .tc := ⟨.hbm, 18, rfl⟩
abbrev main_v11 : Ref sig .tc := ⟨.hbm, 19, rfl⟩
abbrev main_v12 : Ref sig .tc := ⟨.hbm, 20, rfl⟩
abbrev main_cst_2 : Ref sig .tc := ⟨.hbm, 21, rfl⟩
abbrev main_v13 : Ref sig .tc := ⟨.hbm, 22, rfl⟩
abbrev main_v14 : Ref sig .tc := ⟨.hbm, 23, rfl⟩
abbrev main_cst_3 : Ref sig .tc := ⟨.hbm, 24, rfl⟩
abbrev main_call0_v0 : Ref sig .tc := ⟨.hbm, 25, rfl⟩
abbrev main_call0_v1 : Ref sig .tc := ⟨.hbm, 26, rfl⟩
abbrev main_v15 : Ref sig .tc := ⟨.hbm, 27, rfl⟩
abbrev main_v16 : Ref sig .tc := ⟨.hbm, 28, rfl⟩
abbrev main_cst_4 : Ref sig .tc := ⟨.hbm, 29, rfl⟩
abbrev main_v17 : Ref sig .tc := ⟨.hbm, 30, rfl⟩
abbrev main_v18 : Ref sig .tc := ⟨.hbm, 31, rfl⟩
abbrev main_v19 : Ref sig .tc := ⟨.hbm, 32, rfl⟩
abbrev main_v20 : Ref sig .tc := ⟨.hbm, 33, rfl⟩
abbrev main_v21 : Ref sig .tc := ⟨.hbm, 34, rfl⟩
abbrev main_v22 : Ref sig .tc := ⟨.hbm, 35, rfl⟩
abbrev main_v23 : Ref sig .tc := ⟨.hbm, 36, rfl⟩
abbrev main_cst_5 : Ref sig .tc := ⟨.hbm, 37, rfl⟩
abbrev main_v24 : Ref sig .tc := ⟨.hbm, 38, rfl⟩
abbrev main_v25 : Ref sig .tc := ⟨.hbm, 39, rfl⟩
abbrev main_v26 : Ref sig .tc := ⟨.hbm, 40, rfl⟩
abbrev main_v27 : Ref sig .tc := ⟨.hbm, 41, rfl⟩
abbrev main_cst_6 : Ref sig .tc := ⟨.hbm, 42, rfl⟩
abbrev main_v28 : Ref sig .tc := ⟨.hbm, 43, rfl⟩
abbrev main_v29 : Ref sig .tc := ⟨.hbm, 44, rfl⟩
abbrev main_cst_7 : Ref sig .tc := ⟨.hbm, 45, rfl⟩
abbrev main_v30 : Ref sig .tc := ⟨.hbm, 46, rfl⟩
abbrev main_v31 : Ref sig .tc := ⟨.hbm, 47, rfl⟩
abbrev main_v32 : Ref sig .tc := ⟨.hbm, 48, rfl⟩
abbrev main_cst_8 : Ref sig .tc := ⟨.hbm, 49, rfl⟩
abbrev main_v33 : Ref sig .tc := ⟨.hbm, 50, rfl⟩
abbrev main_v34 : Ref sig .tc := ⟨.hbm, 51, rfl⟩
abbrev main_v35 : Ref sig .tc := ⟨.hbm, 52, rfl⟩
abbrev main_v36 : Ref sig .tc := ⟨.hbm, 53, rfl⟩
abbrev main_c : Ref sig .tc := ⟨.hbm, 54, rfl⟩
abbrev main_v37 : Ref sig .tc := ⟨.hbm, 55, rfl⟩
abbrev main_v38 : Ref sig .tc := ⟨.hbm, 56, rfl⟩
abbrev main_v39 : Ref sig .tc := ⟨.hbm, 57, rfl⟩
abbrev main_c_9 : Ref sig .tc := ⟨.hbm, 58, rfl⟩
abbrev main_v40 : Ref sig .tc := ⟨.hbm, 59, rfl⟩
abbrev main_c_10 : Ref sig .tc := ⟨.hbm, 60, rfl⟩
abbrev main_v41 : Ref sig .tc := ⟨.hbm, 61, rfl⟩
abbrev main_v42 : Ref sig .tc := ⟨.hbm, 62, rfl⟩
abbrev main_v43 : Ref sig .tc := ⟨.hbm, 63, rfl⟩
abbrev main_v44 : Ref sig .tc := ⟨.hbm, 64, rfl⟩
abbrev main_cst_11 : Ref sig .tc := ⟨.hbm, 65, rfl⟩
abbrev main_v45 : Ref sig .tc := ⟨.hbm, 66, rfl⟩
abbrev main_v46 : Ref sig .tc := ⟨.hbm, 67, rfl⟩
abbrev main_c_12 : Ref sig .tc := ⟨.hbm, 68, rfl⟩
abbrev main_v47 : Ref sig .tc := ⟨.hbm, 69, rfl⟩
abbrev main_cst_13 : Ref sig .tc := ⟨.hbm, 70, rfl⟩
abbrev main_v48 : Ref sig .tc := ⟨.hbm, 71, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg2_1 : Ref sig .tc := ⟨.vmem, 4, rfl⟩
abbrev cc0_stg3_0 : Ref sig .tc := ⟨.vmem, 5, rfl⟩
abbrev cc0_stg3_1 : Ref sig .tc := ⟨.vmem, 6, rfl⟩
abbrev cc0_scratch0 : Ref sig .tc := ⟨.vmem, 7, rfl⟩
abbrev cc0_scratch1 : Ref sig .tc := ⟨.vmem, 8, rfl⟩
abbrev cc0_sem0_0 : DmaSem sig := 0
abbrev cc0_sem0_1 : DmaSem sig := 1
abbrev cc0_sem1_0 : DmaSem sig := 2
abbrev cc0_sem2_0 : DmaSem sig := 3
abbrev cc0_sem2_1 : DmaSem sig := 4
abbrev cc0_sem3_0 : DmaSem sig := 5
abbrev cc0_sem3_1 : DmaSem sig := 6

abbrev nD : Nat := 1
abbrev τ : Topo := Topo.v7x

variable {F : FTy → Type} [FloatOps F]

abbrev grid0 : Pipeline.Grid := ⟨2, ![2, 75], ![false, false]⟩

def k0_cond2 (i : grid0.Coords) : BitVec 1 :=
  let arg1 : BitVec 32 := BitVec.ofNat 32 (i 1).val
  let c74_i32 : BitVec 32 := 74#32
  let v64 : BitVec 1 := Scalar.cmpi .eq arg1 c74_i32
  let v65 : BitVec 32 := Scalar.extui v64
  let c0_i32_21 : BitVec 32 := 0#32
  let v66 : BitVec 1 := Scalar.cmpi .ne v65 c0_i32_21
  v66

def cc0_transform_0 (i : grid0.Coords) : Fin 2 → Nat :=
  let arg0 : BitVec 32 := BitVec.ofNat 32 (i 0).val
  let arg1 : BitVec 32 := BitVec.ofNat 32 (i 1).val
  let c75_i32 : BitVec 32 := 75#32
  let v0 : BitVec 32 := Scalar.muli arg0 c75_i32
  let v1 : BitVec 32 := Scalar.addi v0 arg1
  let c0_i32 : BitVec 32 := 0#32
  let c0_i32_0 : BitVec 32 := 0#32
  ![v1.toNat, c0_i32.toNat]

def cc0_transform_1 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![arg0.toNat, c0_i32.toNat, c0_i32_0.toNat]

def cc0_transform_3 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![arg0.toNat, c0_i32.toNat, c0_i32_0.toNat]

abbrev stage0_0 : Fin 2 → Memref sig .tc .vmem S4096x82 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, true]

abbrev stage0_1 : Fin 1 → Memref sig .tc .vmem S1x81 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false, false]

abbrev stage0_2 : Fin 2 → Memref sig .tc .vmem S1x1x81 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, false]

abbrev stage0_3 : Fin 2 → Memref sig .tc .vmem S1x1x81 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true, false]

class Facts₀ : Prop where
  shapeCasts_S8x76725x81_S613800x81 : S8x76725x81.ShapeCasts S613800x81
  slices_S8x76725x5_S8x76725x1_0_0_4 : S8x76725x5.Slices ![0, 0, 4] S8x76725x1
  shapeCasts_S8x76725x1_S8x76725 : S8x76725x1.ShapeCasts S8x76725
  shapeCasts_S8x76725_S613800x1 : S8x76725.ShapeCasts S613800x1
  concatenates_S613800x81_S613800x1_S613800x82_d1 : Shape.Concatenates [S613800x81, S613800x1] S613800x82 1
  bcast_S_S600x81 : S_.BroadcastsInDim S600x81 (![] : Fin 0 → Fin S600x81.rank)
  bcast_S_S600x1 : S_.BroadcastsInDim S600x1 (![] : Fin 0 → Fin S600x1.rank)
  concatenates_S600x81_S600x1_S600x82_d1 : Shape.Concatenates [S600x81, S600x1] S600x82 1
  concatenates_S613800x82_S600x82_S614400x82_d0 : Shape.Concatenates [S613800x82, S600x82] S614400x82 0
  shapeCasts_S81_S1x81 : S81.ShapeCasts S1x81
  inb_S1x81_S1x81_0_0 : ∀ a, (![0, 0] : Fin 2 → Nat) a + S1x81.size a ≤ S1x81.size a
  h_S1x81 : 0 < S1x81.numel
  shapeCasts_S1x81_S1x81 : S1x81.ShapeCasts S1x81
  inb_S4096x82_S4096x82_0_0 : ∀ a, (![0, 0] : Fin 2 → Nat) a + S4096x82.size a ≤ S4096x82.size a
  h_S4096x82 : 0 < S4096x82.numel
  shapeCasts_S4096x82_S4096x82 : S4096x82.ShapeCasts S4096x82
  slices_S4096x82_o0_0_S4096x81 : S4096x82.Slices ![0, 0] S4096x81
  slices_S4096x82_o0_81_S4096x1 : S4096x82.Slices ![0, 81] S4096x1
  iota_S4096x81_d1_w32 : S4096x81.Iotas .tc 32 [1]
  broadcasts_S4096x1_S4096x81 : S4096x1.Broadcasts S4096x81
  natLt_1_32 : 1 < 32
  reduces_S4096x81_S4096 : S4096x81.Reduces [1] S4096
  shapeCasts_S4096_S4096x1 : S4096.ShapeCasts S4096x1
  broadcasts_S1x81_S4096x81 : S1x81.Broadcasts S4096x81
  reduces_S4096x81_S81 : S4096x81.Reduces [0] S81
  shapeCasts_S1x81_S1x1x81 : S1x81.ShapeCasts S1x1x81
  inb_S1x1x81_S1x1x81_0_0_0 : ∀ a, (![0, 0, 0] : Fin 3 → Nat) a + S1x1x81.size a ≤ S1x1x81.size a
  h_S1x1x81 : 0 < S1x1x81.numel
  reducesTo_S2x1x81_S1x81_d0 : S2x1x81.ReducesTo [0] S1x81
  h_S_ : 0 < S_.numel
  shapeCasts_S1x81_S81 : S1x81.ShapeCasts S81
  bcast_S_S81 : S_.BroadcastsInDim S81 (![] : Fin 0 → Fin S81.rank)
  reducesTo_S81_S_d0 : S81.ReducesTo [0] S_
  shapeCasts_S8x76725x4_S613800x4 : S8x76725x4.ShapeCasts S613800x4
  slices_S8x76725x5_S8x76725x4_0_0_0 : S8x76725x5.Slices ![0, 0, 0] S8x76725x4
  shapeCasts_S8x76725_S613800 : S8x76725.ShapeCasts S613800
  bcast_S_S613800 : S_.BroadcastsInDim S613800 (![] : Fin 0 → Fin S613800.rank)
  bcast_S_S613800x4 : S_.BroadcastsInDim S613800x4 (![] : Fin 0 → Fin S613800x4.rank)
  reducesTo_S613800_S_d0 : S613800.ReducesTo [0] S_
  bcast_S613800_S613800x1_0 : S613800.BroadcastsInDim S613800x1 (![0] : Fin 1 → Fin S613800x1.rank)
  bcast_S613800x1_S613800x4_0_1 : S613800x1.BroadcastsInDim S613800x4 (![0, 1] : Fin 2 → Fin S613800x4.rank)
  reducesTo_S613800x4_S_d0_1 : S613800x4.ReducesTo [0, 1] S_
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S4096x82.size a ≤ S614400x82.size a
  hwx0_0 : ∀ i : grid0.Coords, EltTy.bits .f32 = 32 ∨ (Rect.block (s := S614400x82) S4096x82.size (cc0_transform_0 i) (hinb0_0 i)).WholeWords (EltTy.packing .f32)
  hstage0_1 : ∀ j, (stage0_1 j).IsWhole
  nbuf0_1 : grid0.bufCount reads0_1 true = 1
  hreads0_1 : ∀ i i' : grid0.Coords, (∀ a, reads0_1 a = true → i a = i' a) → cc0_transform_1 i = cc0_transform_1 i'
  hinb0_1 : ∀ (i : grid0.Coords) a, (cc0_transform_1 i a + 1) * S1x81.size a ≤ S1x81.size a
  hwx0_1 : ∀ i : grid0.Coords, EltTy.bits .f32 = 32 ∨ (Rect.block (s := S1x81) S1x81.size (cc0_transform_1 i) (hinb0_1 i)).WholeWords (EltTy.packing .f32)
  hstage0_2 : ∀ j, (stage0_2 j).IsWhole
  nbuf0_2 : grid0.bufCount reads0_2 false = 2
  hreads0_2 : ∀ i i' : grid0.Coords, (∀ a, reads0_2 a = true → i a = i' a) → cc0_transform_2 i = cc0_transform_2 i'
  hinb0_2 : ∀ (i : grid0.Coords) a, (cc0_transform_2 i a + 1) * S1x1x81.size a ≤ S2x1x81.size a
  hwx0_2 : ∀ i : grid0.Coords, EltTy.bits .f32 = 32 ∨ (Rect.block (s := S2x1x81) S1x1x81.size (cc0_transform_2 i) (hinb0_2 i)).WholeWords (EltTy.packing .f32)
  hstage0_3 : ∀ j, (stage0_3 j).IsWhole
  nbuf0_3 : grid0.bufCount reads0_3 false = 2
  hreads0_3 : ∀ i i' : grid0.Coords, (∀ a, reads0_3 a = true → i a = i' a) → cc0_transform_3 i = cc0_transform_3 i'
  hinb0_3 : ∀ (i : grid0.Coords) a, (cc0_transform_3 i a + 1) * S1x1x81.size a ≤ S2x1x81.size a
  hwx0_3 : ∀ i : grid0.Coords, EltTy.bits .f32 = 32 ∨ (Rect.block (s := S2x1x81) S1x1x81.size (cc0_transform_3 i) (hinb0_3 i)).WholeWords (EltTy.packing .f32)

variable [Facts₀]

abbrev win0_0 : Pipeline.Window sig grid0 :=
  Pipeline.Window.ofSpec (Memref.whole main_v8) S4096x82.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_v9) S1x81.size cc0_transform_1 reads0_1 false true 1 stage0_1 sem0_1
    hrank0 hreads0_1 hinb0_1 nbuf0_1 (Memref.isWhole_whole _) hwx0_1 hstage0_1

abbrev win0_2 : Pipeline.Window sig grid0 :=
  Pipeline.Window.ofSpec (Memref.whole main_v10_0) S1x1x81.size cc0_transform_2 reads0_2 true false 2 stage0_2 sem0_2
    hrank0 hreads0_2 hinb0_2 nbuf0_2 (Memref.isWhole_whole _) hwx0_2 hstage0_2

abbrev win0_3 : Pipeline.Window sig grid0 :=
  Pipeline.Window.ofSpec (Memref.whole main_v10_1) S1x1x81.size cc0_transform_3 reads0_3 true false 2 stage0_3 sem0_3
    hrank0 hreads0_3 hinb0_3 nbuf0_3 (Memref.isWhole_whole _) hwx0_3 hstage0_3

abbrev win0 : Fin 4 → Pipeline.Window sig grid0 := fun | 0 => win0_0 | 1 => win0_1 | 2 => win0_2 | 3 => win0_3 | ⟨_ + 4, h⟩ => absurd h (Nat.not_lt.2 (Nat.le_add_left _ _))
abbrev spec0 : Fin 4 → Pipeline.WinSpec sig grid0.rank := fun w => (win0 w).toWinSpec

abbrev idle0 : Fin 4 → grid0.Coords → Bool := fun | 0 => fun _ => false | 1 => fun _ => false | 2 => fun i => !(k0_cond2 i == 1#1) | 3 => fun i => !(k0_cond2 i == 1#1) | ⟨_ + 4, h⟩ => absurd h (Nat.not_lt.2 (Nat.le_add_left _ _))

class Facts : Prop extends Facts₀ where

variable [Facts]
-- ==== ReferenceIdeal.lean ====
abbrev S8x76725x4 : Shape := ⟨3, ![8, 76725, 4]⟩
abbrev S8x76725x81 : Shape := ⟨3, ![8, 76725, 81]⟩
abbrev S8x76725x5 : Shape := ⟨3, ![8, 76725, 5]⟩
abbrev S81 : Shape := ⟨1, ![81]⟩
abbrev S613800x81 : Shape := ⟨2, ![613800, 81]⟩
abbrev S613800x4 : Shape := ⟨2, ![613800, 4]⟩
abbrev S8x76725x1 : Shape := ⟨3, ![8, 76725, 1]⟩
abbrev S8x76725 : Shape := ⟨2, ![8, 76725]⟩
abbrev S613800 : Shape := ⟨1, ![613800]⟩
abbrev S_ : Shape := ⟨0, ![]⟩
abbrev S613800x1 : Shape := ⟨2, ![613800, 1]⟩
abbrev S1x81 : Shape := ⟨2, ![1, 81]⟩

abbrev nBuf : Space → Nat
  | .hbm => 102
  | .vmem => 0
  | .smem => 0
  | _ => 0

abbrev bufTy : (tb : Table) → Fin (tcTables nBuf tb) → BufTy
  | .hbm, ⟨0, _⟩ => ⟨S8x76725x4, .f32⟩
  | .hbm, ⟨1, _⟩ => ⟨S8x76725x81, .f32⟩
  | .hbm, ⟨2, _⟩ => ⟨S8x76725x5, .f32⟩
  | .hbm, ⟨3, _⟩ => ⟨S81, .f32⟩
  | .hbm, ⟨4, _⟩ => ⟨S613800x81, .f32⟩
  | .hbm, ⟨5, _⟩ => ⟨S613800x4, .f32⟩
  | .hbm, ⟨6, _⟩ => ⟨S8x76725x4, .f32⟩
  | .hbm, ⟨7, _⟩ => ⟨S613800x4, .f32⟩
  | .hbm, ⟨8, _⟩ => ⟨S8x76725x1, .f32⟩
  | .hbm, ⟨9, _⟩ => ⟨S8x76725, .f32⟩
  | .hbm, ⟨10, _⟩ => ⟨S613800, .f32⟩
  | .hbm, ⟨11, _⟩ => ⟨S613800, .i32⟩
  | .hbm, ⟨12, _⟩ => ⟨S_, .i32⟩
  | .hbm, ⟨13, _⟩ => ⟨S613800, .i32⟩
  | .hbm, ⟨14, _⟩ => ⟨S613800, .i1⟩
  | .hbm, ⟨15, _⟩ => ⟨S_, .i32⟩
  | .hbm, ⟨16, _⟩ => ⟨S613800, .i32⟩
  | .hbm, ⟨17, _⟩ => ⟨S613800, .i32⟩
  | .hbm, ⟨18, _⟩ => ⟨S613800x1, .i32⟩
  | .hbm, ⟨19, _⟩ => ⟨S1x81, .i32⟩
  | .hbm, ⟨20, _⟩ => ⟨S613800x81, .i32⟩
  | .hbm, ⟨21, _⟩ => ⟨S613800x81, .i32⟩
  | .hbm, ⟨22, _⟩ => ⟨S613800x81, .i1⟩
  | .hbm, ⟨23, _⟩ => ⟨S613800x81, .f32⟩
  | .hbm, ⟨24, _⟩ => ⟨S1x81, .f32⟩
  | .hbm, ⟨25, _⟩ => ⟨S613800x81, .f32⟩
  | .hbm, ⟨26, _⟩ => ⟨S613800x81, .f32⟩
  | .hbm, ⟨27, _⟩ => ⟨S613800x1, .i1⟩
  | .hbm, ⟨28, _⟩ => ⟨S613800x1, .f32⟩
  | .hbm, ⟨29, _⟩ => ⟨S613800x81, .f32⟩
  | .hbm, ⟨30, _⟩ => ⟨S613800x81, .f32⟩
  | .hbm, ⟨31, _⟩ => ⟨S_, .f32⟩
  | .hbm, ⟨32, _⟩ => ⟨S613800, .f32⟩
  | .hbm, ⟨33, _⟩ => ⟨S_, .f32⟩
  | .hbm, ⟨34, _⟩ => ⟨S613800, .f32⟩
  | .hbm, ⟨35, _⟩ => ⟨S613800, .f32⟩
  | .hbm, ⟨36, _⟩ => ⟨S613800x1, .f32⟩
  | .hbm, ⟨37, _⟩ => ⟨S613800x81, .f32⟩
  | .hbm, ⟨38, _⟩ => ⟨S613800x81, .f32⟩
  | .hbm, ⟨39, _⟩ => ⟨S613800x81, .f32⟩
  | .hbm, ⟨40, _⟩ => ⟨S_, .f32⟩
  | .hbm, ⟨41, _⟩ => ⟨S613800, .f32⟩
  | .hbm, ⟨42, _⟩ => ⟨S613800x1, .f32⟩
  | .hbm, ⟨43, _⟩ => ⟨S613800x1, .f32⟩
  | .hbm, ⟨44, _⟩ => ⟨S613800x81, .f32⟩
  | .hbm, ⟨45, _⟩ => ⟨S613800x81, .f32⟩
  | .hbm, ⟨46, _⟩ => ⟨S613800x81, .f32⟩
  | .hbm, ⟨47, _⟩ => ⟨S_, .f32⟩
  | .hbm, ⟨48, _⟩ => ⟨S613800x81, .f32⟩
  | .hbm, ⟨49, _⟩ => ⟨S613800x81, .f32⟩
  | .hbm, ⟨50, _⟩ => ⟨S_, .f32⟩
  | .hbm, ⟨51, _⟩ => ⟨S613800x81, .f32⟩
  | .hbm, ⟨52, _⟩ => ⟨S613800x81, .f32⟩
  | .hbm, ⟨53, _⟩ => ⟨S613800x81, .f32⟩
  | .hbm, ⟨54, _⟩ => ⟨S613800x81, .f32⟩
  | .hbm, ⟨55, _⟩ => ⟨S613800x81, .f32⟩
  | .hbm, ⟨56, _⟩ => ⟨S_, .f32⟩
  | .hbm, ⟨57, _⟩ => ⟨S81, .f32⟩
  | .hbm, ⟨58, _⟩ => ⟨S_, .f32⟩
  | .hbm, ⟨59, _⟩ => ⟨S_, .f32⟩
  | .hbm, ⟨60, _⟩ => ⟨S81, .f32⟩
  | .hbm, ⟨61, _⟩ => ⟨S81, .f32⟩
  | .hbm, ⟨62, _⟩ => ⟨S_, .f32⟩
  | .hbm, ⟨63, _⟩ => ⟨S81, .f32⟩
  | .hbm, ⟨64, _⟩ => ⟨S81, .f32⟩
  | .hbm, ⟨65, _⟩ => ⟨S_, .f32⟩
  | .hbm, ⟨66, _⟩ => ⟨S_, .f32⟩
  | .hbm, ⟨67, _⟩ => ⟨S_, .i32⟩
  | .hbm, ⟨68, _⟩ => ⟨S613800, .i32⟩
  | .hbm, ⟨69, _⟩ => ⟨S613800, .i1⟩
  | .hbm, ⟨70, _⟩ => ⟨S613800x4, .f32⟩
  | .hbm, ⟨71, _⟩ => ⟨S613800x4, .f32⟩
  | .hbm, ⟨72, _⟩ => ⟨S_, .f32⟩
  | .hbm, ⟨73, _⟩ => ⟨S613800x4, .f32⟩
  | .hbm, ⟨74, _⟩ => ⟨S613800x4, .i1⟩
  | .hbm, ⟨75, _⟩ => ⟨S_, .f32⟩
  | .hbm, ⟨76, _⟩ => ⟨S613800x4, .f32⟩
  | .hbm, ⟨77, _⟩ => ⟨S613800x4, .f32⟩
  | .hbm, ⟨78, _⟩ => ⟨S613800x4, .f32⟩
  | .hbm, ⟨79, _⟩ => ⟨S_, .f32⟩
  | .hbm, ⟨80, _⟩ => ⟨S613800x4, .f32⟩
  | .hbm, ⟨81, _⟩ => ⟨S613800x4, .f32⟩
  | .hbm, ⟨82, _⟩ => ⟨S613800x4, .f32⟩
  | .hbm, ⟨83, _⟩ => ⟨S613800, .i32⟩
  | .hbm, ⟨84, _⟩ => ⟨S_, .i32⟩
  | .hbm, ⟨85, _⟩ => ⟨S_, .i32⟩
  | .hbm, ⟨86, _⟩ => ⟨S613800x1, .i1⟩
  | .hbm, ⟨87, _⟩ => ⟨S613800x1, .f32⟩
  | .hbm, ⟨88, _⟩ => ⟨S_, .i32⟩
  | .hbm, ⟨89, _⟩ => ⟨S_, .i32⟩
  | .hbm, ⟨90, _⟩ => ⟨S_, .i32⟩
  | .hbm, ⟨91, _⟩ => ⟨S_, .i32⟩
  | .hbm, ⟨92, _⟩ => ⟨S_, .f32⟩
  | .hbm, ⟨93, _⟩ => ⟨S613800x4, .f32⟩
  | .hbm, ⟨94, _⟩ => ⟨S613800x4, .f32⟩
  | .hbm, ⟨95, _⟩ => ⟨S_, .f32⟩
  | .hbm, ⟨96, _⟩ => ⟨S_, .f32⟩
  | .hbm, ⟨97, _⟩ => ⟨S_, .f32⟩
  | .hbm, ⟨98, _⟩ => ⟨S_, .i32⟩
  | .hbm, ⟨99, _⟩ => ⟨S_, .i1⟩
  | .hbm, ⟨100, _⟩ => ⟨S_, .f32⟩
  | .hbm, ⟨101, _⟩ => ⟨S_, .f32⟩
  | _, _ => ⟨S8x76725x4, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev main_v1 : Ref sig .tc := ⟨.hbm, 5, rfl⟩
abbrev main_v2 : Ref sig .tc := ⟨.hbm, 6, rfl⟩
abbrev main_v3 : Ref sig .tc := ⟨.hbm, 7, rfl⟩
abbrev main_v4 : Ref sig .tc := ⟨.hbm, 8, rfl⟩
abbrev main_v5 : Ref sig .tc := ⟨.hbm, 9, rfl⟩
abbrev main_v6 : Ref sig .tc := ⟨.hbm, 10, rfl⟩
abbrev main_v7 : Ref sig .tc := ⟨.hbm, 11, rfl⟩
abbrev main_c : Ref sig .tc := ⟨.hbm, 12, rfl⟩
abbrev main_v8 : Ref sig .tc := ⟨.hbm, 13, rfl⟩
abbrev main_v9 : Ref sig .tc := ⟨.hbm, 14, rfl⟩
abbrev main_c_0 : Ref sig .tc := ⟨.hbm, 15, rfl⟩
abbrev main_v10 : Ref sig .tc := ⟨.hbm, 16, rfl⟩
abbrev main_v11 : Ref sig .tc := ⟨.hbm, 17, rfl⟩
abbrev main_call0_v0 : Ref sig .tc := ⟨.hbm, 18, rfl⟩
abbrev main_call0_v1 : Ref sig .tc := ⟨.hbm, 19, rfl⟩
abbrev main_call0_v2 : Ref sig .tc := ⟨.hbm, 20, rfl⟩
abbrev main_call0_v3 : Ref sig .tc := ⟨.hbm, 21, rfl⟩
abbrev main_call0_v4 : Ref sig .tc := ⟨.hbm, 22, rfl⟩
abbrev main_v12 : Ref sig .tc := ⟨.hbm, 23, rfl⟩
abbrev main_v13 : Ref sig .tc := ⟨.hbm, 24, rfl⟩
abbrev main_v14 : Ref sig .tc := ⟨.hbm, 25, rfl⟩
abbrev main_v15 : Ref sig .tc := ⟨.hbm, 26, rfl⟩
abbrev main_v16 : Ref sig .tc := ⟨.hbm, 27, rfl⟩
abbrev main_v17 : Ref sig .tc := ⟨.hbm, 28, rfl⟩
abbrev main_v18 : Ref sig .tc := ⟨.hbm, 29, rfl⟩
abbrev main_v19 : Ref sig .tc := ⟨.hbm, 30, rfl⟩
abbrev main_call1_cst : Ref sig .tc := ⟨.hbm, 31, rfl⟩
abbrev main_call1_v0 : Ref sig .tc := ⟨.hbm, 32, rfl⟩
abbrev main_call1_cst_0 : Ref sig .tc := ⟨.hbm, 33, rfl⟩
abbrev main_call1_v1 : Ref sig .tc := ⟨.hbm, 34, rfl⟩
abbrev main_call1_v2 : Ref sig .tc := ⟨.hbm, 35, rfl⟩
abbrev main_call1_v3 : Ref sig .tc := ⟨.hbm, 36, rfl⟩
abbrev main_call1_v4 : Ref sig .tc := ⟨.hbm, 37, rfl⟩
abbrev main_call1_v5 : Ref sig .tc := ⟨.hbm, 38, rfl⟩
abbrev main_call1_v6 : Ref sig .tc := ⟨.hbm, 39, rfl⟩
abbrev main_call1_cst_1 : Ref sig .tc := ⟨.hbm, 40, rfl⟩
abbrev main_call1_v7 : Ref sig .tc := ⟨.hbm, 41, rfl⟩
abbrev main_call1_v8 : Ref sig .tc := ⟨.hbm, 42, rfl⟩
abbrev main_call1_v9 : Ref sig .tc := ⟨.hbm, 43, rfl⟩
abbrev main_call1_v10 : Ref sig .tc := ⟨.hbm, 44, rfl⟩
abbrev main_v20 : Ref sig .tc := ⟨.hbm, 45, rfl⟩
abbrev main_v21 : Ref sig .tc := ⟨.hbm, 46, rfl⟩
abbrev main_cst : Ref sig .tc := ⟨.hbm, 47, rfl⟩
abbrev main_v22 : Ref sig .tc := ⟨.hbm, 48, rfl⟩
abbrev main_v23 : Ref sig .tc := ⟨.hbm, 49, rfl⟩
abbrev main_cst_1 : Ref sig .tc := ⟨.hbm, 50, rfl⟩
abbrev main_v24 : Ref sig .tc := ⟨.hbm, 51, rfl⟩
abbrev main_v25 : Ref sig .tc := ⟨.hbm, 52, rfl⟩
abbrev main_v26 : Ref sig .tc := ⟨.hbm, 53, rfl⟩
abbrev main_v27 : Ref sig .tc := ⟨.hbm, 54, rfl⟩
abbrev main_v28 : Ref sig .tc := ⟨.hbm, 55, rfl⟩
abbrev main_cst_2 : Ref sig .tc := ⟨.hbm, 56, rfl⟩
abbrev main_v29 : Ref sig .tc := ⟨.hbm, 57, rfl⟩
abbrev main_cst_3 : Ref sig .tc := ⟨.hbm, 58, rfl⟩
abbrev main_call2_v0 : Ref sig .tc := ⟨.hbm, 59, rfl⟩
abbrev main_call2_v1 : Ref sig .tc := ⟨.hbm, 60, rfl⟩
abbrev main_v30 : Ref sig .tc := ⟨.hbm, 61, rfl⟩
abbrev main_cst_4 : Ref sig .tc := ⟨.hbm, 62, rfl⟩
abbrev main_v31 : Ref sig .tc := ⟨.hbm, 63, rfl⟩
abbrev main_v32 : Ref sig .tc := ⟨.hbm, 64, rfl⟩
abbrev main_cst_5 : Ref sig .tc := ⟨.hbm, 65, rfl⟩
abbrev main_v33 : Ref sig .tc := ⟨.hbm, 66, rfl⟩
abbrev main_c_6 : Ref sig .tc := ⟨.hbm, 67, rfl⟩
abbrev main_v34 : Ref sig .tc := ⟨.hbm, 68, rfl⟩
abbrev main_v35 : Ref sig .tc := ⟨.hbm, 69, rfl⟩
abbrev main_v36 : Ref sig .tc := ⟨.hbm, 70, rfl⟩
abbrev main_v37 : Ref sig .tc := ⟨.hbm, 71, rfl⟩
abbrev main_cst_7 : Ref sig .tc := ⟨.hbm, 72, rfl⟩
abbrev main_v38 : Ref sig .tc := ⟨.hbm, 73, rfl⟩
abbrev main_v39 : Ref sig .tc := ⟨.hbm, 74, rfl⟩
abbrev main_cst_8 : Ref sig .tc := ⟨.hbm, 75, rfl⟩
abbrev main_v40 : Ref sig .tc := ⟨.hbm, 76, rfl⟩
abbrev main_v41 : Ref sig .tc := ⟨.hbm, 77, rfl⟩
abbrev main_v42 : Ref sig .tc := ⟨.hbm, 78, rfl⟩
abbrev main_cst_9 : Ref sig .tc := ⟨.hbm, 79, rfl⟩
abbrev main_v43 : Ref sig .tc := ⟨.hbm, 80, rfl⟩
abbrev main_v44 : Ref sig .tc := ⟨.hbm, 81, rfl⟩
abbrev main_v45 : Ref sig .tc := ⟨.hbm, 82, rfl⟩
abbrev main_v46 : Ref sig .tc := ⟨.hbm, 83, rfl⟩
abbrev main_c_10 : Ref sig .tc := ⟨.hbm, 84, rfl⟩
abbrev main_v47 : Ref sig .tc := ⟨.hbm, 85, rfl⟩
abbrev main_v48 : Ref sig .tc := ⟨.hbm, 86, rfl⟩
abbrev main_v49 : Ref sig .tc := ⟨.hbm, 87, rfl⟩
abbrev main_c_11 : Ref sig .tc := ⟨.hbm, 88, rfl⟩
abbrev main_v50 : Ref sig .tc := ⟨.hbm, 89, rfl⟩
abbrev main_c_12 : Ref sig .tc := ⟨.hbm, 90, rfl⟩
abbrev main_v51 : Ref sig .tc := ⟨.hbm, 91, rfl⟩
abbrev main_v52 : Ref sig .tc := ⟨.hbm, 92, rfl⟩
abbrev main_v53 : Ref sig .tc := ⟨.hbm, 93, rfl⟩
abbrev main_v54 : Ref sig .tc := ⟨.hbm, 94, rfl⟩
abbrev main_cst_13 : Ref sig .tc := ⟨.hbm, 95, rfl⟩
abbrev main_v55 : Ref sig .tc := ⟨.hbm, 96, rfl⟩
abbrev main_v56 : Ref sig .tc := ⟨.hbm, 97, rfl⟩
abbrev main_c_14 : Ref sig .tc := ⟨.hbm, 98, rfl⟩
abbrev main_v57 : Ref sig .tc := ⟨.hbm, 99, rfl⟩
abbrev main_cst_15 : Ref sig .tc := ⟨.hbm, 100, rfl⟩
abbrev main_v58 : Ref sig .tc := ⟨.hbm, 101, rfl⟩

abbrev nD : Nat := 1
abbrev τ : Topo := Topo.v7x

variable {F : FTy → Type} [FloatOps F]

class Facts₀ : Prop where
  shapeCasts_S8x76725x81_S613800x81 : S8x76725x81.ShapeCasts S613800x81
  shapeCasts_S8x76725x4_S613800x4 : S8x76725x4.ShapeCasts S613800x4
  slices_S8x76725x5_S8x76725x4_0_0_0 : S8x76725x5.Slices ![0, 0, 0] S8x76725x4
  slices_S8x76725x5_S8x76725x1_0_0_4 : S8x76725x5.Slices ![0, 0, 4] S8x76725x1
  shapeCasts_S8x76725x1_S8x76725 : S8x76725x1.ShapeCasts S8x76725
  shapeCasts_S8x76725_S613800 : S8x76725.ShapeCasts S613800
  bcast_S_S613800 : S_.BroadcastsInDim S613800 (![] : Fin 0 → Fin S613800.rank)
  bcast_S613800_S613800x1_0 : S613800.BroadcastsInDim S613800x1 (![0] : Fin 1 → Fin S613800x1.rank)
  bcast_S613800x1_S613800x81_0_1 : S613800x1.BroadcastsInDim S613800x81 (![0, 1] : Fin 2 → Fin S613800x81.rank)
  bcast_S1x81_S613800x81_0_1 : S1x81.BroadcastsInDim S613800x81 (![0, 1] : Fin 2 → Fin S613800x81.rank)
  bcast_S81_S1x81_1 : S81.BroadcastsInDim S1x81 (![1] : Fin 1 → Fin S1x81.rank)
  reducesTo_S613800x81_S613800_d1 : S613800x81.ReducesTo [1] S613800
  h_S_ : 0 < S_.numel
  bcast_S_S613800x81 : S_.BroadcastsInDim S613800x81 (![] : Fin 0 → Fin S613800x81.rank)
  reducesTo_S613800x81_S81_d0 : S613800x81.ReducesTo [0] S81
  bcast_S_S81 : S_.BroadcastsInDim S81 (![] : Fin 0 → Fin S81.rank)
  reducesTo_S81_S_d0 : S81.ReducesTo [0] S_
  bcast_S_S613800x4 : S_.BroadcastsInDim S613800x4 (![] : Fin 0 → Fin S613800x4.rank)
  natLt_1_32 : 1 < 32
  reducesTo_S613800_S_d0 : S613800.ReducesTo [0] S_
  bcast_S613800x1_S613800x4_0_1 : S613800x1.BroadcastsInDim S613800x4 (![0, 1] : Fin 2 → Fin S613800x4.rank)
  reducesTo_S613800x4_S_d0_1 : S613800x4.ReducesTo [0, 1] S_

variable [Facts₀]

class Facts : Prop extends Facts₀ where

variable [Facts]
-- ==== Proof.RowSpec.lean ====
/-
  The per-row mathematics of the focal classification loss, over the extended reals.

  A row is 81 class scores x, one label l (a class id stored as a float; negative = ignored) and the
  per-class weights a.  With  lsm x j = (x j - M) - log (∑ₖ exp (x k - M)),  M the row's greatest score,
  the loss puts  -(1 - exp (lsm x c))² · a c · lsm x c  in the label's column c and 0 elsewhere, and
  counts  a c  in column c, both only for rows with l ≥ 0.

  Two spellings of this are defined here, scalar operation by scalar operation: one that decides
  validity and the class on the FLOAT label and collapses the row to its label column by sums against
  the indicator (`kHot`, `kValid`, `kOnehot`, `kElem`), and one that first truncates the label to a
  32-bit integer and works entry by entry (`rHot`, `rValid`, `rOnehot`, `rElem`).  They agree on a row
  whose label is an integer value and whose scores are finite; a padding row (zero scores, label -1)
  contributes 0 to both totals.
-/
import Idealize.ShloMosaic.PureOps.Ideal
import Idealize.ShloMosaic.PureOps.Ideal.Laws
import Idealize.ShloMosaic.Lib.ValueIdx

noncomputable section

namespace Cert.Focal

open Idealize.ShloMosaic

/-- The f32 words 0.0, 1.0, 2.0, -1.0 and -∞ read as extended reals. -/
abbrev zeroW : EReal := Ideal.ofBits .f32 0x00000000#32
abbrev oneW : EReal := Ideal.ofBits .f32 0x3F800000#32
abbrev twoW : EReal := Ideal.ofBits .f32 0x40000000#32
abbrev negOneW : EReal := Ideal.ofBits .f32 0xBF800000#32
abbrev ninfW : EReal := Ideal.ofBits .f32 0xFF800000#32

/-- A row's greatest score: the fold of max from -∞ over its 81 entries. -/
def rowMax (x : Fin 81 → EReal) : EReal := (Finset.univ : Finset (Fin 81)).fold max ninfW x

/-- log-softmax of a row at class j, shifted by the row's greatest score. -/
def lsm (x : Fin 81 → EReal) (j : Fin 81) : EReal :=
  (x j - rowMax x) - Ideal.log (∑ k : Fin 81, Ideal.exp (x k - rowMax x))

/-- The label truncated to a 32-bit integer. -/
def labW (l : EReal) : BitVec 32 := Ideal.fptosi 32 l

/-- The label is an integer value (in 32-bit range): truncating and converting back returns it. -/
def IntLabel (l : EReal) : Prop := (((labW l).toInt : ℝ) : EReal) = l

/-! ### Decided on the float label, collapsed to the label column by sums -/

/-- 1 in the column of the class  trunc (max l 0), else 0. -/
def kHot (l : EReal) (j : Fin 81) : EReal :=
  (((IntOp.cmpi .eq (BitVec.ofNat 32 j.val) (Ideal.fptosi 32 (max l zeroW))).setWidth 32).toInt : ℝ)

/-- 1 if l ≥ 0, else 0. -/
def kValid (l : EReal) : EReal := ((((Ideal.cmp .oge l zeroW).setWidth 32).toInt : ℝ) : EReal)

def kOnehot (l : EReal) (a : Fin 81 → EReal) (j : Fin 81) : EReal := (kHot l j * a j) * kValid l

/-- The row's log-probability at its label: ∑ₖ indicator · lsm. -/
def kLogptLab (x : Fin 81 → EReal) (l : EReal) : EReal := ∑ k : Fin 81, kHot l k * lsm x k

/-- The row's weight at its label (0 for an ignored row): ∑ₖ of `kOnehot`. -/
def kAlphaLab (l : EReal) (a : Fin 81 → EReal) : EReal := ∑ k : Fin 81, kOnehot l a k

def kElem (x : Fin 81 → EReal) (l : EReal) (a : Fin 81 → EReal) (j : Fin 81) : EReal :=
  kHot l j * (zeroW - (((oneW - Ideal.exp (kLogptLab x l)) * (oneW - Ideal.exp (kLogptLab x l))) * kAlphaLab l a) * kLogptLab x l)

/-- l > 0, as a bit. -/
def kPos (l : EReal) : BitVec 1 := Ideal.cmp .ogt l zeroW

/-! ### Decided on the truncated label, entry by entry -/

def rHot (l : EReal) (j : Fin 81) : EReal :=
  (((IntOp.cmpi .eq (IntOp.maxsi (labW l) 0#32) (BitVec.ofNat 32 j.val)).toNat : ℝ) : EReal)

def rValid (l : EReal) : EReal := (((IntOp.cmpi .sge (labW l) 0#32).toNat : ℝ) : EReal)

def rOnehot (l : EReal) (a : Fin 81 → EReal) (j : Fin 81) : EReal := (rHot l j * a j) * rValid l

def rElem (x : Fin 81 → EReal) (l : EReal) (a : Fin 81 → EReal) (j : Fin 81) : EReal :=
  -((Ideal.pow (oneW - Ideal.exp (lsm x j)) twoW * rOnehot l a j) * lsm x j)

def rPos (l : EReal) : BitVec 1 := IntOp.cmpi .sgt (labW l) 0#32

/-! ### The literal words -/

private theorem zeroW_eq : zeroW = 0 := by simp [Ideal.ofBits, Ideal.ieee]
private theorem oneW_eq : oneW = 1 := by
  simp [Ideal.ofBits, Ideal.ieee]
  exact_mod_cast (by norm_num : (8388608 : ℝ) * (2 ^ 23)⁻¹ = 1)
private theorem twoW_eq : twoW = ((2 : ℝ) : EReal) := by
  have h2 : ((8388608 : ℝ) * (((2 ^ 22 : ℕ)) : ℝ)⁻¹) = 2 := by norm_num
  rw [← h2]
  simp [Ideal.ofBits, Ideal.ieee]
  norm_num
private theorem negOneW_eq : negOneW = -1 := by
  simp [Ideal.ofBits, Ideal.ieee]
  exact_mod_cast (by norm_num : (8388608 : ℝ) * (2 ^ 23)⁻¹ = 1)
private theorem ninfW_eq : ninfW = ⊥ := by simp [Ideal.ofBits, Ideal.ieee]

private theorem bit_toInt (b : BitVec 1) : (b.setWidth 32).toInt = (b.toNat : ℤ) := by
  rcases BitVec.eq_zero_or_eq_one b with rfl | rfl <;> decide

private theorem fptosi_toInt (w : BitVec 32) : Ideal.fptosi 32 (((w.toInt : ℝ)) : EReal) = w := by
  have h1 := BitVec.le_toInt w
  have h2 := @BitVec.toInt_lt 32 w
  unfold Ideal.fptosi
  rw [Ideal.toIntClamped_coe]
  simp only [Int.floor_intCast, Int.ceil_intCast, ite_self]
  have : max (-((2 ^ (32 - 1) : ℕ) : ℤ)) (min (((2 ^ (32 - 1) : ℕ) : ℤ) - 1) w.toInt) = w.toInt := by
    norm_num at h1 h2 ⊢
    omega
  rw [this, BitVec.ofInt_toInt]

private theorem fptosi_zero : Ideal.fptosi 32 (0 : EReal) = 0#32 := by
  have := fptosi_toInt 0#32
  simpa using this

/-- Truncating  max l 0  is the signed maximum of the truncated label and 0. -/
private theorem fptosi_max (w : BitVec 32) :
    Ideal.fptosi 32 (max (((w.toInt : ℝ)) : EReal) zeroW) = IntOp.maxsi w 0#32 := by
  rw [zeroW_eq]
  unfold IntOp.maxsi
  by_cases hp : 0 < w.toInt
  · have hs : (0#32).slt w = true := by simp [BitVec.slt, hp]
    have hle : (0 : EReal) ≤ ((w.toInt : ℝ) : EReal) := by exact_mod_cast hp.le
    rw [if_pos hs, max_eq_left hle, fptosi_toInt]
  · have hs : ¬ (0#32).slt w = true := by simp [BitVec.slt, hp]
    have hle : ((w.toInt : ℝ) : EReal) ≤ 0 := by exact_mod_cast (not_lt.mp hp)
    rw [if_neg hs, max_eq_right hle, fptosi_zero]

private theorem kHot_eq (w : BitVec 32) (j : Fin 81) :
    kHot (((w.toInt : ℝ)) : EReal) j
      = (((IntOp.cmpi .eq (IntOp.maxsi w 0#32) (BitVec.ofNat 32 j.val)).toNat : ℝ) : EReal) := by
  unfold kHot
  rw [fptosi_max, bit_toInt]
  have : IntOp.cmpi .eq (BitVec.ofNat 32 j.val) (IntOp.maxsi w 0#32)
      = IntOp.cmpi .eq (IntOp.maxsi w 0#32) (BitVec.ofNat 32 j.val) := by
    unfold IntOp.cmpi
    simp only [Bool.beq_comm]
  rw [this]
  simp

private theorem kValid_eq (w : BitVec 32) :
    kValid (((w.toInt : ℝ)) : EReal) = (((IntOp.cmpi .sge w 0#32).toNat : ℝ) : EReal) := by
  unfold kValid
  rw [bit_toInt, zeroW_eq]
  have : Ideal.cmp .oge (((w.toInt : ℝ)) : EReal) 0 = IntOp.cmpi .sge w 0#32 := by
    unfold Ideal.cmp IntOp.cmpi
    simp only [BitVec.sle]
    congr 1
    simp
  rw [this]
  simp

private theorem kPos_eq' (w : BitVec 32) :
    kPos (((w.toInt : ℝ)) : EReal) = IntOp.cmpi .sgt w 0#32 := by
  unfold kPos
  rw [zeroW_eq]
  unfold Ideal.cmp IntOp.cmpi
  simp only [BitVec.slt]
  congr 1
  simp

/-! ### The two spellings agree -/

theorem kOnehot_eq {l : EReal} (h : IntLabel l) (a : Fin 81 → EReal) (j : Fin 81) :
    kOnehot l a j = rOnehot l a j := by
  unfold IntLabel at h
  unfold kOnehot rOnehot rHot rValid
  generalize labW l = w at h ⊢
  subst h
  rw [kHot_eq, kValid_eq]

theorem kPos_eq {l : EReal} (h : IntLabel l) : kPos l = rPos l := by
  unfold IntLabel at h
  unfold rPos
  generalize labW l = w at h ⊢
  subst h
  rw [kPos_eq']

/-- A padding row (label -1) counts nothing. -/
theorem kOnehot_pad (a : Fin 81 → EReal) (j : Fin 81) : kOnehot negOneW a j = 0 := by
  have hv : kValid negOneW = 0 := by
    unfold kValid
    rw [negOneW_eq, zeroW_eq]
    have : Ideal.cmp .oge (-1 : EReal) 0 = 0#1 := by
      unfold Ideal.cmp
      have : ¬ ((0 : EReal) ≤ -1) := by
        rw [not_le]
        first
          | exact (by simp : (-1 : EReal) < 0)
          | exact (by norm_num : (-1 : EReal) < 0)
          | (rw [← EReal.coe_one, ← EReal.coe_neg, ← EReal.coe_zero, EReal.coe_lt_coe_iff]; norm_num)
      simp [this]
    rw [this]
    simp
  unfold kOnehot
  rw [hv, mul_zero]

/-- A padding row (zero scores, label -1) loses nothing. -/
theorem kElem_pad (a : Fin 81 → EReal) (j : Fin 81) : kElem (fun _ => zeroW) negOneW a j = 0 := by
  have hA : kAlphaLab negOneW a = 0 := by
    unfold kAlphaLab
    simp only [kOnehot_pad, Finset.sum_const_zero]
  unfold kElem
  rw [hA, mul_zero, zero_mul, zeroW_eq, sub_zero, mul_zero]

/-! ### Finiteness of the log-softmax of a finite row -/

private theorem coe_sum {ι : Type*} (s : Finset ι) (g : ι → ℝ) :
    ∑ k ∈ s, ((g k : ℝ) : EReal) = ((∑ k ∈ s, g k : ℝ) : EReal) := by
  classical
  induction s using Finset.induction_on with
  | empty => simp
  | insert b s hb ih => rw [Finset.sum_insert hb, Finset.sum_insert hb, ih, EReal.coe_add]

private theorem fold_max_real {ι : Type*} (s : Finset ι) (f : ι → EReal) (hf : ∀ k, ∃ r : ℝ, f k = (r : EReal))
    (hs : s.Nonempty) : ∃ r : ℝ, s.fold max ⊥ f = (r : EReal) := by
  classical
  induction s using Finset.induction_on with
  | empty => exact absurd hs (by simp)
  | insert b s hb ih =>
    obtain ⟨rb, hrb⟩ := hf b
    rw [Finset.fold_insert hb, hrb]
    rcases Finset.eq_empty_or_nonempty s with he | hne
    · subst he
      exact ⟨rb, by simp⟩
    · obtain ⟨r, hr⟩ := ih hne
      refine ⟨max rb r, ?_⟩
      rw [hr]
      exact (EReal.coe_strictMono.monotone.map_max).symm

private theorem lsm_real {x : Fin 81 → EReal} (hx : ∀ k, ∃ r : ℝ, x k = (r : EReal)) (j : Fin 81) :
    ∃ r : ℝ, lsm x j = (r : EReal) := by
  obtain ⟨M, hM⟩ : ∃ M : ℝ, rowMax x = (M : EReal) := by
    unfold rowMax
    rw [ninfW_eq]
    exact fold_max_real _ x hx Finset.univ_nonempty
  choose g hg using hx
  have hZ : ∑ k : Fin 81, Ideal.exp (x k - rowMax x)
      = ((∑ k : Fin 81, Real.exp (g k - M) : ℝ) : EReal) := by
    rw [← coe_sum]
    refine Finset.sum_congr rfl fun k _ => ?_
    rw [hg k, hM, ← EReal.coe_sub, Ideal.exp_coe]
  have hpos : 0 < ∑ k : Fin 81, Real.exp (g k - M) :=
    Finset.sum_pos (fun k _ => Real.exp_pos _) Finset.univ_nonempty
  refine ⟨g j - M - Real.log (∑ k : Fin 81, Real.exp (g k - M)), ?_⟩
  unfold lsm
  rw [hZ, Ideal.log_coe, if_neg (not_le.mpr hpos), hg j, hM, ← EReal.coe_sub, ← EReal.coe_sub]

private theorem one_sub_exp_real (r : ℝ) : oneW - Ideal.exp (r : EReal) = ((1 - Real.exp r : ℝ) : EReal) := by
  rw [oneW_eq, Ideal.exp_coe, ← EReal.coe_one, ← EReal.coe_sub]

private theorem pow_two_real (y : ℝ) : Ideal.pow (y : EReal) twoW = (y : EReal) * (y : EReal) := by
  rw [twoW_eq, Ideal.pow_coe_coe]
  show ((y ^ (2 : ℝ) : ℝ) : EReal) = _
  rw [Real.rpow_two, sq, EReal.coe_mul]

private theorem hot_ite (m b : BitVec 32) :
    (((IntOp.cmpi .eq m b).toNat : ℝ) : EReal) = if m = b then 1 else 0 := by
  unfold IntOp.cmpi
  by_cases h : m = b <;> simp [h]

private theorem ofNat_inj81 (k j : Fin 81) : BitVec.ofNat 32 j.val = BitVec.ofNat 32 k.val ↔ k = j := by
  constructor
  · intro h
    have := congrArg BitVec.toNat h
    simp only [BitVec.toNat_ofNat] at this
    have hk := k.isLt
    have hj := j.isLt
    apply Fin.ext
    omega
  · rintro rfl; rfl

theorem kElem_eq {l : EReal} (h : IntLabel l) {x : Fin 81 → EReal} (hx : ∀ k, ∃ r : ℝ, x k = (r : EReal))
    (a : Fin 81 → EReal) (j : Fin 81) : kElem x l a j = rElem x l a j := by
  unfold IntLabel at h
  have hL : ∀ k, ∃ r : ℝ, lsm x k = (r : EReal) := lsm_real hx
  unfold kElem rElem kLogptLab kAlphaLab kOnehot rOnehot rHot rValid
  generalize labW l = w at h ⊢
  subst h
  simp only [kHot_eq, kValid_eq, hot_ite]
  generalize IntOp.maxsi w 0#32 = m
  generalize (((IntOp.cmpi .sge w 0#32).toNat : ℝ) : EReal) = v
  by_cases hj : m = BitVec.ofNat 32 j.val
  · subst hj
    simp only [ofNat_inj81]
    have hS : ∑ k : Fin 81, (if k = j then (1 : EReal) else 0) * lsm x k = lsm x j := by
      rw [Finset.sum_eq_single j]
      · simp
      · intro b _ hb; simp [hb]
      · intro hn; exact absurd (Finset.mem_univ j) hn
    have hA : ∑ k : Fin 81, ((if k = j then (1 : EReal) else 0) * a k) * v = a j * v := by
      rw [Finset.sum_eq_single j]
      · simp
      · intro b _ hb; simp [hb]
      · intro hn; exact absurd (Finset.mem_univ j) hn
    rw [hS, hA]
    obtain ⟨r, hr⟩ := hL j
    rw [hr, one_sub_exp_real, pow_two_real, zeroW_eq]
    simp only [if_true, one_mul, zero_sub]
  · simp [hj]

end Cert.Focal

end
-- ==== Proof.Rows.lean ====
/-
  The rows of the problem read off the argument arrays, and the totals both programs compute.

  The N = 8·76725 = 613800 rows are the (batch, anchor) pairs in row-major order: row n is batch n / 76725,
  anchor n % 76725.  Its 81 scores are conf_pred[b, a, :], its label is targets[b, a, 4], the class weights
  are alpha.  The tiled program works on the rows padded to 614400 = 2·75·4096 with zero scores and label -1.
-/
import proofs.«110382_j58110907515691_2_alg».proof.Proof.RowSpec

noncomputable section

namespace Cert.Focal

open Idealize.ShloMosaic Idealize.ShloMosaic.ValueIdx

/-- Row n's batch and anchor. -/
def rowB (n : Fin 613800) : Fin 8 := ⟨n.val / 76725, by have := n.isLt; omega⟩
def rowA (n : Fin 613800) : Fin 76725 := ⟨n.val % 76725, Nat.mod_lt _ (by decide)⟩

/-- Row n's label, its score for class k, and class k's weight. -/
def lab (x2 : FVec Ideal ⟨3, ![8, 76725, 5]⟩ .f32) (n : Fin 613800) : EReal := x2 (ix3 (rowB n) (rowA n) (4 : Fin 5))
def conf (x1 : FVec Ideal ⟨3, ![8, 76725, 81]⟩ .f32) (n : Fin 613800) (k : Fin 81) : EReal := x1 (ix3 (rowB n) (rowA n) k)
def alpha (x3 : FVec Ideal ⟨1, ![81]⟩ .f32) (k : Fin 81) : EReal := x3 (ix1 k)

/-- The padded rows: the 613800 real ones, then 600 rows of zero scores and label -1. -/
def padLab (x2 : FVec Ideal ⟨3, ![8, 76725, 5]⟩ .f32) (n : Fin 614400) : EReal :=
  if h : n.val < 613800 then lab x2 ⟨n.val, h⟩ else negOneW
def padConf (x1 : FVec Ideal ⟨3, ![8, 76725, 81]⟩ .f32) (n : Fin 614400) (k : Fin 81) : EReal :=
  if h : n.val < 613800 then conf x1 ⟨n.val, h⟩ k else zeroW

/-- Row r of tile t of core c among the padded rows: (c·75 + t)·4096 + r. -/
def tileRow (c : Fin 2) (t : Fin 75) (r : Fin 4096) : Fin 614400 :=
  ⟨(c.val * 75 + t.val) * 4096 + r.val, by have := c.isLt; have := t.isLt; have := r.isLt; omega⟩

/-! ### Per-class totals -/

/-- Over the real rows, entry by entry (the truncated-label spelling). -/
def totOnehot (x2 : FVec Ideal ⟨3, ![8, 76725, 5]⟩ .f32) (x3 : FVec Ideal ⟨1, ![81]⟩ .f32) (j : Fin 81) : EReal :=
  ∑ n : Fin 613800, rOnehot (lab x2 n) (alpha x3) j
def totLoss (x1 : FVec Ideal ⟨3, ![8, 76725, 81]⟩ .f32) (x2 : FVec Ideal ⟨3, ![8, 76725, 5]⟩ .f32)
    (x3 : FVec Ideal ⟨1, ![81]⟩ .f32) (j : Fin 81) : EReal :=
  ∑ n : Fin 613800, rElem (conf x1 n) (lab x2 n) (alpha x3) j

/-- Over the padded rows, core by core, tile by tile, row by row (the float-label spelling). -/
def tileOnehot (x2 : FVec Ideal ⟨3, ![8, 76725, 5]⟩ .f32) (x3 : FVec Ideal ⟨1, ![81]⟩ .f32) (c : Fin 2) (t : Fin 75) (j : Fin 81) : EReal :=
  ∑ r : Fin 4096, kOnehot (padLab x2 (tileRow c t r)) (alpha x3) j
def tileLoss (x1 : FVec Ideal ⟨3, ![8, 76725, 81]⟩ .f32) (x2 : FVec Ideal ⟨3, ![8, 76725, 5]⟩ .f32)
    (x3 : FVec Ideal ⟨1, ![81]⟩ .f32) (c : Fin 2) (t : Fin 75) (j : Fin 81) : EReal :=
  ∑ r : Fin 4096, kElem (padConf x1 (tileRow c t r)) (padLab x2 (tileRow c t r)) (alpha x3) j
def kTotOnehot (x2 : FVec Ideal ⟨3, ![8, 76725, 5]⟩ .f32) (x3 : FVec Ideal ⟨1, ![81]⟩ .f32) (j : Fin 81) : EReal :=
  ∑ c : Fin 2, ∑ t : Fin 75, tileOnehot x2 x3 c t j
def kTotLoss (x1 : FVec Ideal ⟨3, ![8, 76725, 81]⟩ .f32) (x2 : FVec Ideal ⟨3, ![8, 76725, 5]⟩ .f32)
    (x3 : FVec Ideal ⟨1, ![81]⟩ .f32) (j : Fin 81) : EReal :=
  ∑ c : Fin 2, ∑ t : Fin 75, tileLoss x1 x2 x3 c t j

/-- The classification loss from the per-class totals: ∑ⱼ loss j / max 1 (count j). -/
def confLoss (count loss : Fin 81 → EReal) : EReal := ∑ j : Fin 81, Ideal.div (loss j) (max oneW (count j))

end Cert.Focal

end
-- ==== Proof.Bridge.lean ====
/-
  The tiled totals are the row-by-row totals.

  (c, t, r) ↦ (c·75 + t)·4096 + r is a bijection from core × tile × row-in-tile onto the 614400 padded rows, so a
  sum core by core, tile by tile, row by row is the sum over the padded rows.  The last 600 padded rows carry
  zero scores and label -1 and contribute 0; on the first 613800 the padded row is the real row, where the
  float-label spelling of a summand equals the truncated-label spelling (integer label, finite scores).
-/
import proofs.«110382_j58110907515691_2_alg».proof.Proof.Rows

noncomputable section

namespace Cert.Focal

open Idealize.ShloMosaic Idealize.ShloMosaic.ValueIdx

/-- (core, tile, row in tile) ↔ padded row; the inverse is by quotient and remainder. -/
def tileEquiv : Fin 2 × Fin 75 × Fin 4096 ≃ Fin 614400 where
  toFun p := tileRow p.1 p.2.1 p.2.2
  invFun n :=
    (⟨n.val / 307200, by have := n.isLt; omega⟩,
     ⟨n.val / 4096 % 75, Nat.mod_lt _ (by omega)⟩,
     ⟨n.val % 4096, Nat.mod_lt _ (by omega)⟩)
  left_inv := by
    rintro ⟨c, t, r⟩
    have hc := c.isLt
    have ht := t.isLt
    have hr := r.isLt
    refine Prod.ext (Fin.ext ?_) (Prod.ext (Fin.ext ?_) (Fin.ext ?_))
    · show ((c.val * 75 + t.val) * 4096 + r.val) / 307200 = c.val
      omega
    · show ((c.val * 75 + t.val) * 4096 + r.val) / 4096 % 75 = t.val
      omega
    · show ((c.val * 75 + t.val) * 4096 + r.val) % 4096 = r.val
      omega
  right_inv := by
    intro n
    have hn := n.isLt
    refine Fin.ext ?_
    show (n.val / 307200 * 75 + n.val / 4096 % 75) * 4096 + n.val % 4096 = n.val
    omega

/-- A sum core by core, tile by tile, row by row is the sum over the padded rows. -/
theorem sum_tileRow {M : Type*} [AddCommMonoid M] (f : Fin 614400 → M) :
    ∑ c : Fin 2, ∑ t : Fin 75, ∑ r : Fin 4096, f (tileRow c t r) = ∑ n : Fin 614400, f n := by
  rw [← tileEquiv.sum_comp f, Fintype.sum_prod_type]
  refine Finset.sum_congr rfl fun c _ => ?_
  rw [Fintype.sum_prod_type]
  rfl

/-- A sum over the padded rows whose summand vanishes on the padding is the sum over the real rows. -/
theorem sum_pad {M : Type*} [AddCommMonoid M] (f : Fin 614400 → M)
    (hz : ∀ n : Fin 614400, 613800 ≤ n.val → f n = 0) :
    ∑ n : Fin 614400, f n
      = ∑ n : Fin 613800, f ⟨n.val, by have := n.isLt; omega⟩ := by
  symm
  refine Fintype.sum_of_injective
    (fun n : Fin 613800 => (⟨n.val, by have := n.isLt; omega⟩ : Fin 614400)) ?_ _ _ ?_ ?_
  · intro a b h
    have hv := congrArg Fin.val h
    exact Fin.ext hv
  · intro i hi
    refine hz i ?_
    by_contra hlt
    exact hi ⟨⟨i.val, by omega⟩, Fin.ext rfl⟩
  · intro i
    rfl

section
variable (x1 : FVec Ideal ⟨3, ![8, 76725, 81]⟩ .f32) (x2 : FVec Ideal ⟨3, ![8, 76725, 5]⟩ .f32)

/-- On a real row the padded label is the row's label. -/
theorem padLab_real (n : Fin 613800) (h : n.val < 614400) : padLab x2 ⟨n.val, h⟩ = lab x2 n := by
  unfold padLab
  exact dif_pos n.isLt

/-- On a real row the padded scores are the row's scores. -/
theorem padConf_real (n : Fin 613800) (h : n.val < 614400) : padConf x1 ⟨n.val, h⟩ = conf x1 n := by
  funext k
  unfold padConf
  exact dif_pos n.isLt

/-- A padding row's label is -1. -/
theorem padLab_pad (n : Fin 614400) (h : 613800 ≤ n.val) : padLab x2 n = negOneW := by
  unfold padLab
  exact dif_neg (by omega)

/-- A padding row's scores are 0. -/
theorem padConf_pad (n : Fin 614400) (h : 613800 ≤ n.val) : padConf x1 n = fun _ => zeroW := by
  funext k
  unfold padConf
  exact dif_neg (by omega)

end

variable (x1 : FVec Ideal ⟨3, ![8, 76725, 81]⟩ .f32) (x2 : FVec Ideal ⟨3, ![8, 76725, 5]⟩ .f32)
  (x3 : FVec Ideal ⟨1, ![81]⟩ .f32) (j : Fin 81)

/-- The tiled per-class count is the row-by-row count. -/
theorem kTotOnehot_eq (hint : ∀ n : Fin 613800, IntLabel (lab x2 n)) :
    kTotOnehot x2 x3 j = totOnehot x2 x3 j := by
  unfold kTotOnehot tileOnehot totOnehot
  refine (sum_tileRow (fun n => kOnehot (padLab x2 n) (alpha x3) j)).trans ?_
  refine (sum_pad (fun n => kOnehot (padLab x2 n) (alpha x3) j) ?_).trans ?_
  · intro n hn
    show kOnehot (padLab x2 n) (alpha x3) j = 0
    rw [padLab_pad x2 n hn]
    exact kOnehot_pad (alpha x3) j
  · refine Finset.sum_congr rfl fun n _ => ?_
    show kOnehot (padLab x2 ⟨n.val, _⟩) (alpha x3) j = rOnehot (lab x2 n) (alpha x3) j
    rw [padLab_real x2 n]
    exact kOnehot_eq (hint n) (alpha x3) j

/-- The tiled per-class loss is the row-by-row loss. -/
theorem kTotLoss_eq (hint : ∀ n : Fin 613800, IntLabel (lab x2 n))
    (hfin : ∀ (n : Fin 613800) (k : Fin 81), ∃ r : ℝ, conf x1 n k = (r : EReal)) :
    kTotLoss x1 x2 x3 j = totLoss x1 x2 x3 j := by
  unfold kTotLoss tileLoss totLoss
  refine (sum_tileRow (fun n => kElem (padConf x1 n) (padLab x2 n) (alpha x3) j)).trans ?_
  refine (sum_pad (fun n => kElem (padConf x1 n) (padLab x2 n) (alpha x3) j) ?_).trans ?_
  · intro n hn
    show kElem (padConf x1 n) (padLab x2 n) (alpha x3) j = 0
    rw [padLab_pad x2 n hn, padConf_pad x1 n hn]
    exact kElem_pad (alpha x3) j
  · refine Finset.sum_congr rfl fun n _ => ?_
    show kElem (padConf x1 ⟨n.val, _⟩) (padLab x2 ⟨n.val, _⟩) (alpha x3) j
      = rElem (conf x1 n) (lab x2 n) (alpha x3) j
    rw [padLab_real x2 n, padConf_real x1 n]
    exact kElem_eq (hint n) (hfin n) (alpha x3) j

end Cert.Focal

end
-- ==== Proof.PreFacts.lean ====
/-
  What the precondition says of the rows: every score is finite and every label is an integer value.

  The precondition is a conjunction of five "all elements" bits.  The second says |conf_pred| < +∞ at every
  index, which on the extended reals leaves only the real numbers.  The last says that the label column,
  truncated to a 32-bit integer and converted back, equals itself at every row.
-/
import proofs.«110382_j58110907515691_2_alg».proof.Pre_finite_inputs
import proofs.«110382_j58110907515691_2_alg».proof.Proof.Rows
import Idealize.ShloMosaic.Lib.ReduceAll
import Idealize.ShloMosaic.Lib.Pipeline.Value

noncomputable section

namespace Cert.Focal

open Idealize.ShloMosaic Idealize.ShloMosaic.ValueIdx Cert.Pre_finite_inputs Cert.Pre_finite_inputs.Facts

/-- The scalar shape has one index. -/
instance : Subsingleton Cert.Pre_finite_inputs.S_.Idx := ⟨fun _ _ => funext fun d => d.elim0⟩

/-- The f32 word of +∞ is ⊤. -/
theorem ofBits_inf : Ideal.ofBits .f32 0x7F800000#32 = (⊤ : EReal) := by simp [Ideal.ofBits, Ideal.ieee]

/-- An extended real whose absolute value is below +∞ is a real number. -/
theorem real_of_abs_lt_inf (x : EReal)
    (h : Ideal.cmp .olt (max x (-x)) (Ideal.ofBits .f32 0x7F800000#32) = 1#1) : ∃ r : ℝ, x = (r : EReal) := by
  rw [ofBits_inf] at h
  unfold Ideal.cmp at h
  induction x using EReal.rec with
  | bot => simp at h
  | top => simp at h
  | coe r => exact ⟨r, rfl⟩

/-- "Truncate to a 32-bit integer, convert back, compare equal" is the statement that the value is an integer. -/
theorem intLabel_of_bit (l : EReal)
    (h : Ideal.cmp .oeq (((Ideal.fptosi 32 l).toInt : ℝ) : EReal) l = 1#1) : IntLabel l := by
  unfold Ideal.cmp at h
  unfold IntLabel labW
  by_contra hne
  simp [hne] at h

variable [Cert.Pre_finite_inputs.Facts]

/-- The label column flattened to the rows, read at row n, is row n's label. -/
theorem label_read (x2 : FVec Ideal S8x76725x5 .f32) (n : Fin 613800) :
    shapeCast S613800
        (shapeCast S8x76725
          ((extractStridedSlice S8x76725x1 ![0, 0, 4] · slices_S8x76725x5_S8x76725x1_0_0_4) x2)
          shapeCasts_S8x76725x1_S8x76725)
        shapeCasts_S8x76725_S613800 (ix1 n)
      = lab x2 n := by
  have hn := n.isLt
  refine (shapeCast_apply _ shapeCasts_S8x76725_S613800 (ix1 n) (ix2 (rowB n) (rowA n)) ?_).trans ?_
  · rw [Shape.rowMajor_val_two, Shape.rowMajor_val_one]
    show n.val / 76725 * 76725 + n.val % 76725 = n.val
    omega
  refine (shapeCast_apply _ shapeCasts_S8x76725x1_S8x76725 (ix2 (rowB n) (rowA n))
    (ix3 (rowB n) (rowA n) (0 : Fin 1)) ?_).trans ?_
  · rw [Shape.rowMajor_val_three, Shape.rowMajor_val_two]
    show (n.val / 76725 * 76725 + n.val % 76725) * 1 + 0 = n.val / 76725 * 76725 + n.val % 76725
    omega
  exact extractStridedSlice_apply ![0, 0, 4] x2 slices_S8x76725x5_S8x76725x1_0_0_4
    (ix3 (rowB n) (rowA n) (0 : Fin 1)) (ix3 (rowB n) (rowA n) (4 : Fin 5)) (fun a => match a with
    | ⟨0, _⟩ => by show n.val / 76725 = 0 + n.val / 76725; omega
    | ⟨1, _⟩ => by show n.val % 76725 = 0 + n.val % 76725; omega
    | ⟨2, _⟩ => by show 4 = 4 + 0; omega)

variable (x0 : FVec Ideal S8x76725x4 .f32) (x1 : FVec Ideal S8x76725x81 .f32)
  (x2 : FVec Ideal S8x76725x5 .f32) (x3 : FVec Ideal S81 .f32)

/-- Under the precondition every score is a real number. -/
theorem pre_finite_conf (hpre : Cert.Pre_finite_inputs.fn (F := Ideal) x0 x1 x2 x3 = fun _ => 1#1) :
    ∀ (n : Fin 613800) (k : Fin 81), ∃ r : ℝ, conf x1 n k = (r : EReal) := by
  intro n k
  have h : Cert.Pre_finite_inputs.fn (F := Ideal) x0 x1 x2 x3 ix0 = 1#1 := congrFun hpre ix0
  obtain ⟨h18, -⟩ := IntOp.andi_eq_one.1 h
  obtain ⟨h13, -⟩ := IntOp.andi_eq_one.1 h18
  obtain ⟨h8, -⟩ := IntOp.andi_eq_one.1 h13
  obtain ⟨-, h7⟩ := IntOp.andi_eq_one.1 h8
  have hb := Host.reduce_andi_all _ _ _ _ _ h7 (ix3 (rowB n) (rowA n) k)
  exact real_of_abs_lt_inf (x1 (ix3 (rowB n) (rowA n) k)) hb

/-- Under the precondition every label is an integer value. -/
theorem pre_int_label (hpre : Cert.Pre_finite_inputs.fn (F := Ideal) x0 x1 x2 x3 = fun _ => 1#1) :
    ∀ n : Fin 613800, IntLabel (lab x2 n) := by
  intro n
  have h : Cert.Pre_finite_inputs.fn (F := Ideal) x0 x1 x2 x3 ix0 = 1#1 := congrFun hpre ix0
  obtain ⟨-, h28⟩ := IntOp.andi_eq_one.1 h
  have hb := Host.reduce_andi_all _ _ _ _ _ h28 (ix1 n)
  rw [← label_read x2 n]
  exact intLabel_of_bit _ hb

end Cert.Focal

end
-- ==== Proof.RefSide.lean ====
/-
  The reference program's classification results, and its box-loss result, as functions of the argument arrays.

  The reference lays the scores out as [613800, 81] and the label column as [613800] (row n = batch n / 76725,
  anchor n % 76725), truncates the label to a 32-bit integer, and works entry by entry: the indicator of the
  (clamped) label's class times the class weight times the validity bit is summed over the rows (the per-class
  count); minus (1 - p)² times that entry times log p, with log p the row's log-softmax, is summed over the rows
  (the per-class loss); the classification loss is the sum over classes of loss / max 1 count.
-/
import proofs.«110382_j58110907515691_2_alg».proof.Proof.RefRead
import proofs.«110382_j58110907515691_2_alg».proof.Proof.Rows
import Idealize.ShloMosaic.Lib.Pipeline.Value
import Idealize.ShloMosaic.Lib.ValueIdx
import Idealize.ShloMosaic.PureOps.Ideal.Laws

noncomputable section

namespace Cert.ReferenceIdeal.Side

open Cert.ReferenceIdeal Cert.ReferenceIdeal.ReadP Cert.Focal Idealize.ShloMosaic Idealize.ShloMosaic.ValueIdx

variable [Cert.ReferenceIdeal.Facts]
open Cert.ReferenceIdeal.Facts₀ Cert.ReferenceIdeal.Facts

variable (x0 : (⟨S8x76725x4, .f32⟩ : BufTy).Contents (Elt Ideal)) (x1 : (⟨S8x76725x81, .f32⟩ : BufTy).Contents (Elt Ideal))
  (x2 : (⟨S8x76725x5, .f32⟩ : BufTy).Contents (Elt Ideal)) (x3 : (⟨S81, .f32⟩ : BufTy).Contents (Elt Ideal))

/-! ### The layout operations, row by row -/

/-- Entry (n, k) of the scores laid out as [613800, 81] is row n's score for class k. -/
theorem v0_at (n : Fin 613800) (k : Fin 81) : val_main_v0 (F := Ideal) x1 (ix2 n k) = conf x1 n k := by
  unfold val_main_v0 conf
  have hn := n.isLt
  exact shapeCast_apply x1 shapeCasts_S8x76725x81_S613800x81 (ix2 n k) (ix3 (rowB n) (rowA n) k)
    (by rewrite [Shape.rowMajor_val_three, Shape.rowMajor_val_two]
        show ((n.val / 76725) * 76725 + n.val % 76725) * 81 + k.val = n.val * 81 + k.val
        omega)

/-- Entry n of the label column laid out as [613800] is row n's label. -/
theorem v6_at (n : Fin 613800) : val_main_v6 (F := Ideal) x2 (ix1 n) = lab x2 n := by
  unfold val_main_v6 val_main_v5 val_main_v4 lab
  have hn := n.isLt
  refine (shapeCast_apply _ shapeCasts_S8x76725_S613800 (ix1 n) (ix2 (rowB n) (rowA n)) ?_).trans ?_
  · rewrite [Shape.rowMajor_val_two, Shape.rowMajor_val_one]
    show (n.val / 76725) * 76725 + n.val % 76725 = n.val
    omega
  refine (shapeCast_apply _ shapeCasts_S8x76725x1_S8x76725 (ix2 (rowB n) (rowA n)) (ix3 (rowB n) (rowA n) (0 : Fin 1)) ?_).trans ?_
  · rewrite [Shape.rowMajor_val_three, Shape.rowMajor_val_two]
    show ((n.val / 76725) * 76725 + n.val % 76725) * 1 + 0 = (n.val / 76725) * 76725 + n.val % 76725
    omega
  exact extractStridedSlice_apply ![0, 0, 4] x2 slices_S8x76725x5_S8x76725x1_0_0_4
    (ix3 (rowB n) (rowA n) (0 : Fin 1)) (ix3 (rowB n) (rowA n) (4 : Fin 5)) (fun a => match a with
      | ⟨0, _⟩ => by show n.val / 76725 = 0 + n.val / 76725; omega
      | ⟨1, _⟩ => by show n.val % 76725 = 0 + n.val % 76725; omega
      | ⟨2, _⟩ => rfl)

/-- The truncated label of row n. -/
theorem v7_at (n : Fin 613800) : val_main_v7 (F := Ideal) x2 (ix1 n) = labW (lab x2 n) := by
  rw [val_main_v7_apply, v6_at]; rfl

/-! ### The positivity mask -/

theorem ref_pos (n : Fin 613800) : val_main_v35 (F := Ideal) x2 (ix1 n) = rPos (lab x2 n) := by
  rw [val_main_v35_apply, v7_at, val_main_v34_apply]; rfl

/-! ### The per-class count -/

/-- The indicator of row n's (clamped) class at column j. -/
theorem v12_at (n : Fin 613800) (j : Fin 81) : val_main_v12 (F := Ideal) x2 (ix2 n j) = rHot (lab x2 n) j := by
  have e : idx_main_call0_v0 (idx_main_call0_v2 (ix2 n j : S613800x81.Idx)) = ix1 n :=
    funext fun a => match a with | ⟨0, _⟩ => rfl
  rw [val_main_v12_apply, val_main_call0_v4_apply, val_main_call0_v2_apply, val_main_call0_v0_apply, e,
    val_main_v11_apply, v7_at, val_main_v10_apply, val_main_call0_v3_apply, val_main_call0_v1_apply]
  rfl

/-- The class weight at column j, whatever the row. -/
theorem v14_at (n : Fin 613800) (j : Fin 81) : val_main_v14 (F := Ideal) x3 (ix2 n j) = alpha x3 j := by
  rw [val_main_v14_apply, val_main_v13_apply]
  unfold alpha
  exact congrArg x3 (funext fun a => match a with | ⟨0, _⟩ => rfl)

/-- Row n's validity, whatever the column. -/
theorem v18_at (n : Fin 613800) (j : Fin 81) : val_main_v18 (F := Ideal) x2 (ix2 n j) = rValid (lab x2 n) := by
  have e : idx_main_v16 (idx_main_v18 (ix2 n j : S613800x81.Idx)) = ix1 n :=
    funext fun a => match a with | ⟨0, _⟩ => rfl
  rw [val_main_v18_apply, val_main_v17_apply, val_main_v16_apply, e, val_main_v9_apply, v7_at, val_main_v8_apply]
  rfl

theorem v19_at (n : Fin 613800) (j : Fin 81) :
    val_main_v19 (F := Ideal) x2 x3 (ix2 n j) = rOnehot (lab x2 n) (alpha x3) j := by
  rw [val_main_v19_apply, val_main_v15_apply, v12_at, v14_at, v18_at]; rfl

theorem ref_count (j : Fin 81) : val_main_v29 (F := Ideal) x2 x3 (ix1 j) = totOnehot x2 x3 j := by
  rw [val_main_v29_apply, val_main_cst_2_apply]
  unfold totOnehot
  rw [Ideal.ofBits_def, Ideal.ofBits_zero_f32, zero_add]
  refine Finset.sum_congr rfl fun n _ => ?_
  have e : idx_main_v29 (ix1 j) n = ix2 n j := funext fun a => match a with | ⟨0, _⟩ => rfl | ⟨1, _⟩ => rfl
  rw [e, v19_at]

/-! ### The row's log-softmax -/

/-- Row n with column k put back. -/
theorem lift_row (h : S613800x81.Reduces [1] S613800) (n : Fin 613800) (k : Fin (S613800x81.size 1)) :
    h.lift (ix1 n) k = ix2 n (⟨k.val, k.isLt⟩ : Fin 81) :=
  funext fun c => match c with | ⟨0, _⟩ => Fin.ext rfl | ⟨1, _⟩ => Fin.ext rfl

/-- The fold of max from -∞ over row n's 81 scores is the row's greatest score. -/
theorem rowMax_at (n : Fin 613800) : val_main_call1_v0 (F := Ideal) x1 (ix1 n) = rowMax (conf x1 n) := by
  have h : S613800x81.Reduces [1] S613800 := by decide
  unfold val_main_call1_v0
  rw [Host.reduce_eq_fold_single (FloatOps.maximumf (F := Ideal) (φ := .f32)) _ _ reducesTo_S613800x81_S613800_d1 h h_S_]
  unfold rowMax
  have hf : (val_main_v0 (F := Ideal) x1 ∘ h.lift (ix1 n)) = fun k : Fin 81 => conf x1 n k := funext fun k => by
    show val_main_v0 (F := Ideal) x1 (h.lift (ix1 n) k) = _
    rw [lift_row h n k]; exact v0_at x1 n _
  exact congrArg (fun f => Finset.fold max ninfW f (Finset.univ : Finset (Fin 81))) hf

/-- The word 0xFF800000 is -∞, the least extended real. -/
theorem ninfW_eq_bot : ninfW = ⊥ := by simp [Ideal.ofBits, Ideal.ieee]

theorem v2max_at (n : Fin 613800) : val_main_call1_v2 (F := Ideal) x1 (ix1 n) = rowMax (conf x1 n) := by
  rw [val_main_call1_v2_apply, val_main_call1_v1_apply, val_main_call1_cst_0_apply, rowMax_at]
  show max ninfW (rowMax (conf x1 n)) = rowMax (conf x1 n)
  rw [ninfW_eq_bot]; exact max_eq_right bot_le

theorem v5s_at (n : Fin 613800) (k : Fin 81) :
    val_main_call1_v5 (F := Ideal) x1 (ix2 n k) = conf x1 n k - rowMax (conf x1 n) := by
  have e : idx_main_call1_v3 (idx_main_call1_v4 (ix2 n k : S613800x81.Idx)) = ix1 n :=
    funext fun a => match a with | ⟨0, _⟩ => rfl
  rw [val_main_call1_v5_apply, v0_at, val_main_call1_v4_apply, val_main_call1_v3_apply, e, v2max_at]; rfl

theorem v7s_at (n : Fin 613800) :
    val_main_call1_v7 (F := Ideal) x1 (ix1 n) = ∑ k : Fin 81, Ideal.exp (conf x1 n k - rowMax (conf x1 n)) := by
  rw [val_main_call1_v7_apply, val_main_call1_cst_1_apply, Ideal.ofBits_def, Ideal.ofBits_zero_f32, zero_add]
  refine Finset.sum_congr rfl fun k _ => ?_
  have e : idx_main_call1_v7 (ix1 n) k = ix2 n k := funext fun a => match a with | ⟨0, _⟩ => rfl | ⟨1, _⟩ => rfl
  rw [e, val_main_call1_v6_apply, v5s_at]; rfl

theorem v20_at (n : Fin 613800) (j : Fin 81) : val_main_v20 (F := Ideal) x1 (ix2 n j) = lsm (conf x1 n) j := by
  have e : idx_main_call1_v8 (idx_main_call1_v10 (ix2 n j : S613800x81.Idx)) = ix1 n :=
    funext fun a => match a with | ⟨0, _⟩ => rfl
  rw [val_main_v20_apply, v5s_at, val_main_call1_v10_apply, val_main_call1_v9_apply, val_main_call1_v8_apply, e, v7s_at]; rfl

/-! ### The per-class loss -/

theorem v28_at (n : Fin 613800) (j : Fin 81) :
    val_main_v28 (F := Ideal) x1 x2 x3 (ix2 n j) = rElem (conf x1 n) (lab x2 n) (alpha x3) j := by
  rw [val_main_v28_apply, val_main_v27_apply, val_main_v26_apply, val_main_v25_apply, val_main_v23_apply, val_main_v22_apply,
    val_main_v21_apply, v20_at, val_main_v24_apply, v19_at]; rfl

theorem ref_loss (j : Fin 81) : val_main_v31 (F := Ideal) x1 x2 x3 (ix1 j) = totLoss x1 x2 x3 j := by
  rw [val_main_v31_apply, val_main_cst_4_apply, Ideal.ofBits_def, Ideal.ofBits_zero_f32, zero_add]
  unfold totLoss
  refine Finset.sum_congr rfl fun n _ => ?_
  have e : idx_main_v31 (ix1 j) n = ix2 n j := funext fun a => match a with | ⟨0, _⟩ => rfl | ⟨1, _⟩ => rfl
  rw [e, v28_at]

/-! ### The classification loss from the two totals -/

/-- A sum over a one-axis index set is the sum over its coordinate. -/
theorem sum_idx1 {M : Type*} [AddCommMonoid M] {n : Nat} (f : (⟨1, ![n]⟩ : Shape).Idx → M) :
    ∑ i, f i = ∑ a : Fin n, f (ix1 a) := by
  let e : (⟨1, ![n]⟩ : Shape).Idx ≃ Fin n :=
    { toFun := fun i => i 0, invFun := ix1, left_inv := fun i => (eq_ix1 i).symm, right_inv := fun _ => rfl }
  exact (Equiv.sum_comp e.symm f).symm

theorem v30_at (j : Fin 81) : val_main_v30 (F := Ideal) x2 x3 (ix1 j) = max oneW (totOnehot x2 x3 j) := by
  rw [val_main_v30_apply, val_main_call2_v1_apply, ref_count]; rfl

theorem ref_conf : val_main_v33 (F := Ideal) x1 x2 x3 = fun _ => confLoss (totOnehot x2 x3) (totLoss x1 x2 x3) := by
  funext i
  rw [val_main_v33_apply, val_main_cst_5_apply, Ideal.ofBits_def, Ideal.ofBits_zero_f32, zero_add, sum_idx1]
  unfold confLoss
  refine Finset.sum_congr rfl fun j _ => ?_
  rw [val_main_v32_apply, ref_loss, v30_at]; rfl

/-! ### The box loss, with the positivity mask as a variable -/

/-- The reference's box loss as a function of the positivity mask and the two argument arrays: with c the number
    of positive rows, (∑ over rows and the 4 coordinates of smooth-L1 (loc - box) times the mask) / max (4·c) 1 if
    c > 0, else 0, operation by operation. -/
def rLocTerm (pos : IVec S613800 1) (x0 : (⟨S8x76725x4, .f32⟩ : BufTy).Contents (Elt Ideal))
    (x2 : (⟨S8x76725x5, .f32⟩ : BufTy).Contents (Elt Ideal)) : (⟨S_, .f32⟩ : BufTy).Contents (Elt Ideal) :=
  select (cmpi .sgt (Host.reduce IntOp.addi (extui 32 pos natLt_1_32) (constantI S_ 32 0#32) reducesTo_S613800_S_d0 h_S_) (constantI S_ 32 0#32))
    (Host.divf (F := Ideal)
      (Host.reduceAdd (F := Ideal)
        (mulf (F := Ideal)
          (select (cmpf (F := Ideal) .olt (Host.absf (F := Ideal) (subf (F := Ideal) (shapeCast _ x0 shapeCasts_S8x76725x4_S613800x4) (shapeCast _ (extractStridedSlice S8x76725x4 ![0, 0, 0] x2 slices_S8x76725x5_S8x76725x4_0_0_0) shapeCasts_S8x76725x4_S613800x4))) (broadcastInDim S613800x4 ![] bcast_S_S613800x4 (constant (F := Ideal) S_ .f32 0x3F800000#32)))
            (mulf (F := Ideal) (mulf (F := Ideal) (broadcastInDim S613800x4 ![] bcast_S_S613800x4 (constant (F := Ideal) S_ .f32 0x3F000000#32)) (Host.absf (F := Ideal) (subf (F := Ideal) (shapeCast _ x0 shapeCasts_S8x76725x4_S613800x4) (shapeCast _ (extractStridedSlice S8x76725x4 ![0, 0, 0] x2 slices_S8x76725x5_S8x76725x4_0_0_0) shapeCasts_S8x76725x4_S613800x4)))) (Host.absf (F := Ideal) (subf (F := Ideal) (shapeCast _ x0 shapeCasts_S8x76725x4_S613800x4) (shapeCast _ (extractStridedSlice S8x76725x4 ![0, 0, 0] x2 slices_S8x76725x5_S8x76725x4_0_0_0) shapeCasts_S8x76725x4_S613800x4))))
            (subf (F := Ideal) (Host.absf (F := Ideal) (subf (F := Ideal) (shapeCast _ x0 shapeCasts_S8x76725x4_S613800x4) (shapeCast _ (extractStridedSlice S8x76725x4 ![0, 0, 0] x2 slices_S8x76725x5_S8x76725x4_0_0_0) shapeCasts_S8x76725x4_S613800x4))) (broadcastInDim S613800x4 ![] bcast_S_S613800x4 (constant (F := Ideal) S_ .f32 0x3F000000#32))))
          (broadcastInDim S613800x4 ![0, 1] bcast_S613800x1_S613800x4_0_1
            (uitofp (F := Ideal) .f32 (broadcastInDim S613800x1 ![0] bcast_S613800_S613800x1_0 pos))))
        (constant (F := Ideal) S_ .f32 0x00000000#32) reducesTo_S613800x4_S_d0_1 h_S_)
      (sitofp (F := Ideal) .f32 (maxsi (muli (Host.reduce IntOp.addi (extui 32 pos natLt_1_32) (constantI S_ 32 0#32) reducesTo_S613800_S_d0 h_S_) (constantI S_ 32 4#32)) (constantI S_ 32 1#32))))
    (constant (F := Ideal) S_ .f32 0x00000000#32)

theorem ref_loc : val_main_v58 (F := Ideal) x0 x2 = rLocTerm (val_main_v35 (F := Ideal) x2) x0 x2 := rfl

end Cert.ReferenceIdeal.Side

end
-- ==== Proof.KRun.lean ====
/-
  The tiled program's run, read at its two results and its four arguments: every weakly fair execution terminates; each
  result buffer ends at what the host operations after the kernel launch compute from the kernel's two output arrays and
  the arguments; the arguments end unchanged.
-/
import proofs.«110382_j58110907515691_2_alg».proof.Proof.Gen.KernelIdeal.Frame
import Idealize.ShloMosaic.PureOps.Ideal

noncomputable section

open Idealize.ShloMosaic Idealize.ShloMosaic.TcCoe Idealize.SL.Sem
open Idealize.ShloMosaic.Pipeline (Dat)

namespace Cert.KernelIdeal.Region

open Cert.KernelIdeal Cert.KernelIdeal.Gen

/-- What buffer `b` of core `c` holds after the host operations that follow the kernel launch. -/
abbrev TL (m : (ℓ : Loc nD τ sig) → Buf (Elt Ideal) ℓ) (c : Dev nD) (b : Ref sig .tc) : Buf (Elt Ideal) ((c.tc : Thread nD τ).loc b) :=
  Pipeline.afterTail₀ cfgs (dats (F := Ideal) m) 0 (V0 m) [hostOps1, hostOps1_1, hostOps1_2, hostOps1_3, hostOps1_4, hostOps1_5] c b

theorem kernel_run (m : (ℓ : Loc nD τ sig) → Buf (Elt Ideal) ℓ) (ρ : Dev nD → PrngReg) :
    θ_run defs (onTc (τ := τ) (main (F := Ideal))) ⟨m, fun _ => 0, ρ⟩ fun r => ∀ c : Dev nD,
      r.2.mem ((c.tc : Thread nD τ).loc main_v48) = TL m c main_v48
      ∧ r.2.mem ((c.tc : Thread nD τ).loc main_v17) = TL m c main_v17
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3) :=
  (θ_run defs _ _).mono (fun _ h c =>
    ⟨(h c).2 main_v48 (Pipeline.mem_restRefs_of main_v48 (by decide) (by decide)),
      (h c).2 main_v17 (Pipeline.mem_restRefs_of main_v17 (by decide) (by decide)),
      ((h c).2 main_arg0 (Pipeline.mem_restRefs_of main_arg0 (by decide) (by decide))).trans (W_main_arg0 m (dats m) c),
      ((h c).2 main_arg1 (Pipeline.mem_restRefs_of main_arg1 (by decide) (by decide))).trans (W_main_arg1 m (dats m) c),
      ((h c).2 main_arg2 (Pipeline.mem_restRefs_of main_arg2 (by decide) (by decide))).trans (W_main_arg2 m (dats m) c),
      ((h c).2 main_arg3 (Pipeline.mem_restRefs_of main_arg3 (by decide) (by decide))).trans (W_main_arg3 m (dats m) c)⟩)
    (run_main m ρ)

end Cert.KernelIdeal.Region
end
-- ==== Proof.KTail.lean ====
/-
  The host operations after the kernel launch of the tiled program, over the extended reals.

  The launch leaves two [2,1,81] arrays: per core, the per-class counts and the per-class losses.  The tail sums
  each over the two cores, clips the counts below at 1, divides and sums over the 81 classes: this is
  confLoss of the two column sums.  The box loss is computed from the box predictions and the targets alone;
  it is stated as one function of the positivity mask and the two arguments.
-/
import proofs.«110382_j58110907515691_2_alg».proof.Proof.Gen.KernelIdeal.Frame
import proofs.«110382_j58110907515691_2_alg».proof.Proof.Rows
import Idealize.ShloMosaic.Lib.Pipeline.Value
import Idealize.ShloMosaic.PureOps.Ideal.Laws
import Idealize.ShloMosaic.Lib.Tactic

noncomputable section

open Idealize.ShloMosaic Idealize.ShloMosaic.TcCoe Idealize.SL.Sem
open Idealize.ShloMosaic.Pipeline (Dat)

namespace Cert.KernelIdeal.Tail

open Cert.KernelIdeal Cert.KernelIdeal.Gen Cert.Focal Idealize.ShloMosaic Idealize.ShloMosaic.ValueIdx Idealize.ShloMosaic.Pipeline

variable (m : (ℓ : Loc nD τ sig) → Buf (Elt Ideal) ℓ) (c : Dev nD)

/-- A sum over a rank-1 index set is the sum over its coordinate. -/
theorem sum_idx1 {M : Type*} [AddCommMonoid M] {n : Nat} (f : (⟨1, ![n]⟩ : Shape).Idx → M) :
    ∑ i, f i = ∑ a : Fin n, f (ix1 a) :=
  (Equiv.sum_comp (⟨fun a => ix1 a, fun i => i 0, fun _ => rfl, fun i => (eq_ix1 i).symm⟩ :
    Fin n ≃ (⟨1, ![n]⟩ : Shape).Idx) f).symm

/-- The sum of a [2,1,81] array over its first axis, from 0, read at column j. -/
theorem reduce2_apply (A : FVec Ideal S2x1x81 .f32) (j : Fin 81) :
    Host.reduceAdd A (constant (F := Ideal) S_ .f32 0x00000000#32) reducesTo_S2x1x81_S1x81_d0 h_S_ (ix2 (0 : Fin 1) j)
      = A (ix3 (0 : Fin 2) (0 : Fin 1) j) + A (ix3 (1 : Fin 2) (0 : Fin 1) j) := by
  simp only [Host.reduceAdd, Ideal.hostReduceAdd_def]
  rw [Ideal.hostReduceAdd_single reducesTo_S2x1x81_S1x81_d0 (by decide)]
  trans (0 : EReal) + ∑ k : Fin 2, A (ix3 k (0 : Fin 1) j)
  · refine congrArg₂ (· + ·) ?_ (Finset.sum_congr rfl fun k _ => ?_)
    · exact Ideal.ofBits_zero_f32
    · exact congrArg A (funext fun a => Fin.ext (by match a with | ⟨0, _⟩ => rfl | ⟨1, _⟩ => rfl | ⟨2, _⟩ => rfl))
  · rw [zero_add, Fin.sum_univ_two]

/-- The per-class totals: each output array summed over the two cores and flattened to [81]. -/
def colSum (A : FVec Ideal S2x1x81 .f32) : FVec Ideal S81 .f32 :=
  fun i => shapeCast S81 (Host.reduceAdd A (constant (F := Ideal) S_ .f32 0x00000000#32) reducesTo_S2x1x81_S1x81_d0 h_S_) shapeCasts_S1x81_S81 i

theorem colSum_apply (A : FVec Ideal S2x1x81 .f32) (j : Fin 81) :
    colSum A (ix1 j) = A (ix3 (0 : Fin 2) (0 : Fin 1) j) + A (ix3 (1 : Fin 2) (0 : Fin 1) j) := by
  unfold colSum
  refine (shapeCast_apply _ shapeCasts_S1x81_S81 (ix1 j) (ix2 (0 : Fin 1) j) ?_).trans (reduce2_apply A j)
  rw [Shape.rowMajor_val_two, Shape.rowMajor_val_one]
  show 0 * 81 + j.val = j.val
  omega

/-- The classification loss as the tail computes it from the two output arrays. -/
def confTail (A2 A3 : FVec Ideal S2x1x81 .f32) : FVec Ideal S_ .f32 :=
  Host.reduceAdd
    (Host.divf (colSum A3)
      (maximumf (broadcastInDim S81 ![] bcast_S_S81 (id (constant (F := Ideal) S_ .f32 0x3F800000#32))) (colSum A2)))
    (constant (F := Ideal) S_ .f32 0x00000000#32) reducesTo_S81_S_d0 h_S_

theorem confTail_eq (A2 A3 : FVec Ideal S2x1x81 .f32) :
    confTail A2 A3 = fun _ => confLoss
      (fun j => A2 (ix3 (0 : Fin 2) (0 : Fin 1) j) + A2 (ix3 (1 : Fin 2) (0 : Fin 1) j))
      (fun j => A3 (ix3 (0 : Fin 2) (0 : Fin 1) j) + A3 (ix3 (1 : Fin 2) (0 : Fin 1) j)) := by
  funext i
  unfold confTail confLoss
  generalize hy : Host.divf (colSum A3)
      (maximumf (broadcastInDim S81 ![] bcast_S_S81 (id (constant (F := Ideal) S_ .f32 0x3F800000#32))) (colSum A2)) = y0
  simp only [Host.reduceAdd, Ideal.hostReduceAdd_def]
  rw [Ideal.hostReduceAdd_total reducesTo_S81_S_d0 (fun b => b.elim0) y0 _ i, sum_idx1]
  trans (0 : EReal) + ∑ a : Fin 81, y0 (ix1 a)
  · exact congrArg (· + _) Ideal.ofBits_zero_f32
  rw [zero_add]
  refine Finset.sum_congr rfl fun j _ => ?_
  subst hy
  show Ideal.div (colSum A3 (ix1 j)) (max oneW (colSum A2 (ix1 j))) = _
  rw [colSum_apply, colSum_apply]

/-- After the region the two output arrays are the pipeline's final arrays (its array state after the last grid point). -/
theorem out2_eq :
    Pipeline.withArrays (cfgs 0).spec c (V0 m c) (fun w => (dats (F := Ideal) m 0 c).arrAt w (cfgs 0).N) (Proc.devRef .tc main_v10_0)
      = (dats (F := Ideal) m 0 c).arrAt 2 cfg0.N :=
  Pipeline.withArrays_arr spec0 launch0.win.arr_inj c _ _ 2
theorem out3_eq :
    Pipeline.withArrays (cfgs 0).spec c (V0 m c) (fun w => (dats (F := Ideal) m 0 c).arrAt w (cfgs 0).N) (Proc.devRef .tc main_v10_1)
      = (dats (F := Ideal) m 0 c).arrAt 3 cfg0.N :=
  Pipeline.withArrays_arr spec0 launch0.win.arr_inj c _ _ 3

/-- The classification loss the tail leaves in main_v17, as a function of the two output arrays. -/
theorem tail_conf_raw :
    Pipeline.afterTail₀ cfgs (dats (F := Ideal) m) 0 (V0 m) [hostOps1, hostOps1_1, hostOps1_2, hostOps1_3, hostOps1_4, hostOps1_5] c main_v17
      = confTail ((dats (F := Ideal) m 0 c).arrAt 2 cfg0.N) ((dats (F := Ideal) m 0 c).arrAt 3 cfg0.N) := by
  unfold Pipeline.afterTail₀
  simp only [hostOps1, hostOps1_1, hostOps1_2, hostOps1_3, hostOps1_4, hostOps1_5, List.flatten_cons, List.flatten_nil, List.append_nil, List.cons_append, List.nil_append]
  after_results_simp
  simp only [cast_eq]
  rw [out2_eq m c, out3_eq m c]
  rfl

/-- The two output arrays after the region, as [2,1,81] arrays of extended reals. -/
abbrev out2 : FVec Ideal S2x1x81 .f32 := (dats (F := Ideal) m 0 c).arrAt 2 cfg0.N
abbrev out3 : FVec Ideal S2x1x81 .f32 := (dats (F := Ideal) m 0 c).arrAt 3 cfg0.N

theorem tail_conf :
    Pipeline.afterTail₀ cfgs (dats (F := Ideal) m) 0 (V0 m) [hostOps1, hostOps1_1, hostOps1_2, hostOps1_3, hostOps1_4, hostOps1_5] c main_v17
      = fun _ => confLoss
          (fun j => out2 m c (ix3 (0 : Fin 2) (0 : Fin 1) j) + out2 m c (ix3 (1 : Fin 2) (0 : Fin 1) j))
          (fun j => out3 m c (ix3 (0 : Fin 2) (0 : Fin 1) j) + out3 m c (ix3 (1 : Fin 2) (0 : Fin 1) j)) :=
  (tail_conf_raw m c).trans (confTail_eq (out2 m c) (out3 m c))

/-! ### The box loss -/

/-- |prediction − target box|, on the rows flattened to [613800, 4]. -/
def absDiff (x0 : FVec Ideal S8x76725x4 .f32) (x2 : FVec Ideal S8x76725x5 .f32) : FVec Ideal S613800x4 .f32 :=
  Host.absf
    (subf (shapeCast S613800x4 x0 shapeCasts_S8x76725x4_S613800x4)
      (shapeCast S613800x4 (extractStridedSlice S8x76725x4 ![0, 0, 0] x2 slices_S8x76725x5_S8x76725x4_0_0_0) shapeCasts_S8x76725x4_S613800x4))

/-- From the positivity mask, the "small difference" mask and the two smooth-L1 branches to the box loss: the selected
    branch masked by the positive rows, summed, divided by max 1 (4 · number of positive rows); 0 when no row is positive. -/
def locTail (pos : IVec S613800 1) (small : IVec S613800x4 1) (quad lin : FVec Ideal S613800x4 .f32) : FVec Ideal S_ .f32 :=
  select
    (cmpi .sgt
      (Host.reduce IntOp.addi (extui 32 pos natLt_1_32) (constantI S_ 32 0#32) reducesTo_S613800_S_d0 h_S_)
      (constantI S_ 32 0#32))
    (Host.divf
      (Host.reduceAdd
        (mulf (select small quad lin)
          (broadcastInDim S613800x4 ![0, 1] bcast_S613800x1_S613800x4_0_1
            (uitofp .f32 (broadcastInDim S613800x1 ![0] bcast_S613800_S613800x1_0 pos))))
        (constant (F := Ideal) S_ .f32 0x00000000#32) reducesTo_S613800x4_S_d0_1 h_S_)
      (sitofp .f32
        (maxsi
          (muli
            (Host.reduce IntOp.addi (extui 32 pos natLt_1_32) (constantI S_ 32 0#32) reducesTo_S613800_S_d0 h_S_)
            (constantI S_ 32 4#32))
          (constantI S_ 32 1#32))))
    (constant (F := Ideal) S_ .f32 0x00000000#32)

/-- The box loss of the tail as one function of the positivity mask, the box predictions and the targets. -/
def locTerm (pos : IVec S613800 1) (x0 : FVec Ideal S8x76725x4 .f32) (x2 : FVec Ideal S8x76725x5 .f32) : FVec Ideal S_ .f32 :=
  locTail pos
    (cmpf .olt (absDiff x0 x2) (broadcastInDim S613800x4 ![] bcast_S_S613800x4 (constant (F := Ideal) S_ .f32 0x3F800000#32)))
    (mulf (mulf (broadcastInDim S613800x4 ![] bcast_S_S613800x4 (constant (F := Ideal) S_ .f32 0x3F000000#32)) (absDiff x0 x2)) (absDiff x0 x2))
    (subf (absDiff x0 x2) (broadcastInDim S613800x4 ![] bcast_S_S613800x4 (constant (F := Ideal) S_ .f32 0x3F000000#32)))

/-- The positivity mask of the tail: label > 0 on the label column flattened to the rows. -/
abbrev posMask (x2 : FVec Ideal S8x76725x5 .f32) : IVec S613800 1 :=
  cmpf .ogt
    (shapeCast S613800
      (shapeCast S8x76725 (extractStridedSlice S8x76725x1 ![0, 0, 4] x2 slices_S8x76725x5_S8x76725x1_0_0_4) shapeCasts_S8x76725x1_S8x76725)
      shapeCasts_S8x76725_S613800)
    (broadcastInDim S613800 ![] bcast_S_S613800 (constant (F := Ideal) S_ .f32 0x00000000#32))

/-- Running two stretches of host operations one after the other is running their concatenation. -/
theorem after_append (l₁ l₂ : List (HloOp τ sig (Elt Ideal))) (B : Valuation τ sig (Elt Ideal)) :
    StableHlo.after (l₁ ++ l₂) B = StableHlo.after l₂ (StableHlo.after l₁ B) := by
  induction l₁ generalizing B with
  | nil => rfl
  | cons op l ih => exact ih (op.result B)

section Stretches
variable (B : Valuation τ sig (Elt Ideal))

/-- What the first three stretches leave in the positivity mask, … -/
theorem head_v25 :
    StableHlo.after ((hostOps1 (F := Ideal)) ++ (hostOps1_1 ++ hostOps1_2)) B (Proc.devRef .tc main_v25)
      = posMask (B (Proc.devRef .tc main_arg2)) := by
  simp only [hostOps1, hostOps1_1, hostOps1_2, List.cons_append, List.nil_append, List.append_nil]
  after_results_simp
  rfl

/-- … in the "small difference" mask, … -/
theorem head_v29 :
    StableHlo.after ((hostOps1 (F := Ideal)) ++ (hostOps1_1 ++ hostOps1_2)) B (Proc.devRef .tc main_v29)
      = cmpf .olt (absDiff (B (Proc.devRef .tc main_arg0)) (B (Proc.devRef .tc main_arg2)))
          (broadcastInDim S613800x4 ![] bcast_S_S613800x4 (constant (F := Ideal) S_ .f32 0x3F800000#32)) := by
  simp only [hostOps1, hostOps1_1, hostOps1_2, List.cons_append, List.nil_append, List.append_nil]
  after_results_simp
  rfl

/-- … in the quadratic branch … -/
theorem head_v32 :
    StableHlo.after ((hostOps1 (F := Ideal)) ++ (hostOps1_1 ++ hostOps1_2)) B (Proc.devRef .tc main_v32)
      = mulf (mulf (broadcastInDim S613800x4 ![] bcast_S_S613800x4 (constant (F := Ideal) S_ .f32 0x3F000000#32))
            (absDiff (B (Proc.devRef .tc main_arg0)) (B (Proc.devRef .tc main_arg2))))
          (absDiff (B (Proc.devRef .tc main_arg0)) (B (Proc.devRef .tc main_arg2))) := by
  simp only [hostOps1, hostOps1_1, hostOps1_2, List.cons_append, List.nil_append, List.append_nil]
  after_results_simp
  rfl

/-- … and in the linear branch. -/
theorem head_v34 :
    StableHlo.after ((hostOps1 (F := Ideal)) ++ (hostOps1_1 ++ hostOps1_2)) B (Proc.devRef .tc main_v34)
      = subf (absDiff (B (Proc.devRef .tc main_arg0)) (B (Proc.devRef .tc main_arg2)))
          (broadcastInDim S613800x4 ![] bcast_S_S613800x4 (constant (F := Ideal) S_ .f32 0x3F000000#32)) := by
  simp only [hostOps1, hostOps1_1, hostOps1_2, List.cons_append, List.nil_append, List.append_nil]
  after_results_simp
  rfl

/-- The fourth stretch selects between the two branches and leaves the positivity mask alone. -/
theorem sel_v35 :
    StableHlo.after (hostOps1_3 (F := Ideal)) B (Proc.devRef .tc main_v35)
      = select (B (Proc.devRef .tc main_v29)) (B (Proc.devRef .tc main_v32)) (B (Proc.devRef .tc main_v34)) := by
  simp only [hostOps1_3]
  after_results_simp
  rfl
theorem sel_v25 :
    StableHlo.after (hostOps1_3 (F := Ideal)) B (Proc.devRef .tc main_v25) = B (Proc.devRef .tc main_v25) := by
  simp only [hostOps1_3]
  after_results_simp

/-- The fifth stretch: the masked sum over the mean's denominator, the "some row is positive" bit, and a zero. -/
theorem mean_v46 :
    StableHlo.after (hostOps1_4 (F := Ideal)) B (Proc.devRef .tc main_v46)
      = Host.divf
          (Host.reduceAdd
            (mulf (B (Proc.devRef .tc main_v35))
              (broadcastInDim S613800x4 ![0, 1] bcast_S613800x1_S613800x4_0_1
                (uitofp .f32 (broadcastInDim S613800x1 ![0] bcast_S613800_S613800x1_0 (B (Proc.devRef .tc main_v25))))))
            (constant (F := Ideal) S_ .f32 0x00000000#32) reducesTo_S613800x4_S_d0_1 h_S_)
          (sitofp .f32
            (maxsi
              (muli
                (Host.reduce IntOp.addi (extui 32 (B (Proc.devRef .tc main_v25)) natLt_1_32) (constantI S_ 32 0#32) reducesTo_S613800_S_d0 h_S_)
                (constantI S_ 32 4#32))
              (constantI S_ 32 1#32))) := by
  simp only [hostOps1_4]
  after_results_simp
theorem any_v47 :
    StableHlo.after (hostOps1_4 (F := Ideal)) B (Proc.devRef .tc main_v47)
      = cmpi .sgt
          (Host.reduce IntOp.addi (extui 32 (B (Proc.devRef .tc main_v25)) natLt_1_32) (constantI S_ 32 0#32) reducesTo_S613800_S_d0 h_S_)
          (constantI S_ 32 0#32) := by
  simp only [hostOps1_4]
  after_results_simp
theorem zero_cst13 :
    StableHlo.after (hostOps1_4 (F := Ideal)) B (Proc.devRef .tc main_cst_13) = constant (F := Ideal) S_ .f32 0x00000000#32 := by
  simp only [hostOps1_4]
  after_results_simp

/-- The last stretch selects the mean where some row is positive, else zero. -/
theorem sel_v48 :
    StableHlo.after (hostOps1_5 (F := Ideal)) B (Proc.devRef .tc main_v48)
      = select (B (Proc.devRef .tc main_v47)) (B (Proc.devRef .tc main_v46)) (B (Proc.devRef .tc main_cst_13)) := by
  simp only [hostOps1_5]
  after_results_simp
  rfl

/-- What the last three stretches make of the four. -/
theorem last_v48 :
    StableHlo.after ((hostOps1_3 (F := Ideal)) ++ (hostOps1_4 ++ hostOps1_5)) B (Proc.devRef .tc main_v48)
      = locTail (B (Proc.devRef .tc main_v25)) (B (Proc.devRef .tc main_v29)) (B (Proc.devRef .tc main_v32)) (B (Proc.devRef .tc main_v34)) := by
  rw [after_append, after_append, sel_v48, mean_v46, any_v47, zero_cst13, sel_v35, sel_v25]
  rfl

end Stretches

/-- The box loss the tail leaves in main_v48, over the buffer contents the region was entered with. -/
theorem tail_loc_raw :
    Pipeline.afterTail₀ cfgs (dats (F := Ideal) m) 0 (V0 m) [hostOps1, hostOps1_1, hostOps1_2, hostOps1_3, hostOps1_4, hostOps1_5] c main_v48
      = locTerm (posMask (V0 m c (Proc.devRef .tc main_arg2))) (V0 m c (Proc.devRef .tc main_arg0)) (V0 m c (Proc.devRef .tc main_arg2)) := by
  unfold Pipeline.afterTail₀
  have hflat : ([hostOps1, hostOps1_1, hostOps1_2, hostOps1_3, hostOps1_4, hostOps1_5] : List (List (HloOp τ sig (Elt Ideal)))).flatten
      = (hostOps1 ++ (hostOps1_1 ++ hostOps1_2)) ++ (hostOps1_3 ++ (hostOps1_4 ++ hostOps1_5)) := by
    simp only [List.flatten_cons, List.flatten_nil, List.append_nil, List.append_assoc]
  rw [hflat, after_append, last_v48, head_v25, head_v29, head_v32, head_v34,
    Pipeline.withArrays_of_ne _ c (V0 m c) _ main_arg0 (by exact (by decide : ∀ w, Pipeline.arrRef spec0 w ≠ main_arg0)),
    Pipeline.withArrays_of_ne _ c (V0 m c) _ main_arg2 (by exact (by decide : ∀ w, Pipeline.arrRef spec0 w ≠ main_arg2))]
  rfl

/-- The box loss the tail leaves in main_v48, over the arguments of @main. -/
theorem tail_loc :
    Pipeline.afterTail₀ cfgs (dats (F := Ideal) m) 0 (V0 m) [hostOps1, hostOps1_1, hostOps1_2, hostOps1_3, hostOps1_4, hostOps1_5] c main_v48
      = locTerm (posMask (m ((c.tc : Thread nD τ).loc main_arg2))) (m ((c.tc : Thread nD τ).loc main_arg0)) (m ((c.tc : Thread nD τ).loc main_arg2)) := by
  rw [tail_loc_raw,
    show V0 m c (Proc.devRef .tc main_arg0) = m ((c.tc : Thread nD τ).loc main_arg0) from V_main_arg0 m c,
    show V0 m c (Proc.devRef .tc main_arg2) = m ((c.tc : Thread nD τ).loc main_arg2) from V_main_arg2 m c]

/-- The label column flattened to the rows, read at row n, is row n's label. -/
theorem labelCol_read (x2 : FVec Ideal S8x76725x5 .f32) (n : Fin 613800) :
    shapeCast S613800
        (shapeCast S8x76725 (extractStridedSlice S8x76725x1 ![0, 0, 4] x2 slices_S8x76725x5_S8x76725x1_0_0_4) shapeCasts_S8x76725x1_S8x76725)
        shapeCasts_S8x76725_S613800 (ix1 n)
      = lab x2 n := by
  have hn := n.isLt
  refine (shapeCast_apply _ shapeCasts_S8x76725_S613800 (ix1 n) (ix2 (rowB n) (rowA n)) ?_).trans ?_
  · rw [Shape.rowMajor_val_two, Shape.rowMajor_val_one]
    show n.val / 76725 * 76725 + n.val % 76725 = n.val
    omega
  refine (shapeCast_apply _ shapeCasts_S8x76725x1_S8x76725 (ix2 (rowB n) (rowA n))
    (ix3 (rowB n) (rowA n) (0 : Fin 1)) ?_).trans ?_
  · rw [Shape.rowMajor_val_three, Shape.rowMajor_val_two]
    show (n.val / 76725 * 76725 + n.val % 76725) * 1 + 0 = n.val / 76725 * 76725 + n.val % 76725
    omega
  exact extractStridedSlice_apply ![0, 0, 4] x2 slices_S8x76725x5_S8x76725x1_0_0_4
    (ix3 (rowB n) (rowA n) (0 : Fin 1)) (ix3 (rowB n) (rowA n) (4 : Fin 5)) (fun a => match a with
    | ⟨0, _⟩ => by show n.val / 76725 = 0 + n.val / 76725; omega
    | ⟨1, _⟩ => by show n.val % 76725 = 0 + n.val % 76725; omega
    | ⟨2, _⟩ => by show 4 = 4 + 0; omega)

/-- The positivity mask at row n is "label > 0" of row n's label. -/
theorem posMask_apply (x2 : FVec Ideal S8x76725x5 .f32) (n : Fin 613800) :
    posMask x2 (ix1 n) = kPos (lab x2 n) := by
  unfold kPos
  exact congrArg (fun l : EReal => Ideal.cmp .ogt l zeroW) (labelCol_read x2 n)

/-- The tail's positivity mask at row n, over the arguments of @main. -/
theorem pos_apply (n : Fin 613800) :
    posMask (m ((c.tc : Thread nD τ).loc main_arg2)) (ix1 n) = kPos (lab (m ((c.tc : Thread nD τ).loc main_arg2)) n) :=
  posMask_apply _ n

end Cert.KernelIdeal.Tail

end
-- ==== Proof.KPieces.lean ====
import proofs.«110382_j58110907515691_2_alg».proof.Proof.Gen.KernelIdeal.Frame
import Idealize.ShloMosaic.Lib.Pipeline.Value
import Idealize.ShloMosaic.Lib.Tactic

noncomputable section

open Idealize.ShloMosaic Idealize.ShloMosaic.TcCoe Idealize.SL.Sem
open Idealize.ShloMosaic.Pipeline (Dat)

/-! What each control case of the body leaves in the two carried accumulators and, at a core's last tile, in the two
    output blocks — as the body's own arithmetic of the tile block `x0`, the class-weight row `x1` and what the accumulators
    held before (`xs0`, `xs1`).  First tile: the accumulator is zeroed, then the tile's column sums are added.  Later tiles:
    the column sums are added to what the tile before left.  Last tile: the same, and the accumulators are copied out. -/

namespace Cert.KernelIdeal.Region

open Cert.KernelIdeal Cert.KernelIdeal.Gen

variable {F : FTy → Type} [FloatOps F]

theorem hz2 : (![0, 0] : Fin 2 → Nat) = fun _ => 0 := funext fun a => by fin_cases a <;> rfl
theorem hz3 : (![0, 0, 0] : Fin 3 → Nat) = fun _ => 0 := funext fun a => by fin_cases a <;> rfl

theorem sout_A_0 (c : Dev nD) (i : grid0.Coords) (arg2 : Memref sig .tc .vmem S4096x82 .f32) (harg2 : arg2.IsWhole) (arg3 : Memref sig .tc .vmem S1x81 .f32) (harg3 : arg3.IsWhole) (arg4 : Memref sig .tc .vmem S1x1x81 .f32) (harg4 : arg4.IsWhole) (arg5 : Memref sig .tc .vmem S1x1x81 .f32) (harg5 : arg5.IsWhole) (arg6 : Memref sig .tc .vmem S1x81 .f32) (harg6 : arg6.IsWhole) (arg7 : Memref sig .tc .vmem S1x81 .f32) (harg7 : arg7.IsWhole) (hc0 : cond0_0 i) (hc1 : ¬cond0_1 i)
    (x0 : Vec F S4096x82 .f32) (x1 : Vec F S1x81 .f32) :
    sout0_A_0 c i arg2 harg2 arg3 harg3 arg4 harg4 arg5 harg5 arg6 harg6 arg7 harg7 hc0 hc1 x0 x1 = k0_pay1 (k0_pay10 x0 x1) (k0_pay5 (F := F)) := by
  unfold sout0_A_0
  rw [View.read_writes_eq_canon _ _ _ (scover0_A_0 c i arg2 harg2 arg3 harg3 arg4 harg4 arg5 harg5 arg6 harg6 arg7 harg7 hc0 hc1 x0 x1)]
  unfold kernelRun0_A
  dsimp only
  sl_unfold_words
  rw [View.canon_cons_unit_zero (S := S1x81) hz2, View.readCov_unit_zero (S := S1x81) _ hz2]
  simp only [View.readAt_eq_ld, harg2.read_unread, harg3.read_unread, harg6.read_unread, harg7.read_unread,
    View.ld_unit_zero (S := S1x81) hz2, View.ld_unit_zero (S := S4096x82) hz2]

theorem sout_A_1 (c : Dev nD) (i : grid0.Coords) (arg2 : Memref sig .tc .vmem S4096x82 .f32) (harg2 : arg2.IsWhole) (arg3 : Memref sig .tc .vmem S1x81 .f32) (harg3 : arg3.IsWhole) (arg4 : Memref sig .tc .vmem S1x1x81 .f32) (harg4 : arg4.IsWhole) (arg5 : Memref sig .tc .vmem S1x1x81 .f32) (harg5 : arg5.IsWhole) (arg6 : Memref sig .tc .vmem S1x81 .f32) (harg6 : arg6.IsWhole) (arg7 : Memref sig .tc .vmem S1x81 .f32) (harg7 : arg7.IsWhole) (hc0 : cond0_0 i) (hc1 : ¬cond0_1 i)
    (x0 : Vec F S4096x82 .f32) (x1 : Vec F S1x81 .f32) :
    sout0_A_1 c i arg2 harg2 arg3 harg3 arg4 harg4 arg5 harg5 arg6 harg6 arg7 harg7 hc0 hc1 x0 x1 = k0_pay2 (k0_pay9 x0) (k0_pay11 x0 x1) (k0_pay12 x0) (k0_pay13 x0) (k0_pay6 (F := F)) := by
  unfold sout0_A_1
  rw [View.read_writes_eq_canon _ _ _ (scover0_A_1 c i arg2 harg2 arg3 harg3 arg4 harg4 arg5 harg5 arg6 harg6 arg7 harg7 hc0 hc1 x0 x1)]
  unfold kernelRun0_A
  dsimp only
  sl_unfold_words
  rw [View.canon_cons_unit_zero (S := S1x81) hz2, View.readCov_unit_zero (S := S1x81) _ hz2]
  simp only [View.readAt_eq_ld, harg2.read_unread, harg3.read_unread, harg6.read_unread, harg7.read_unread,
    View.ld_unit_zero (S := S1x81) hz2, View.ld_unit_zero (S := S4096x82) hz2]

theorem sout_B_0 (c : Dev nD) (i : grid0.Coords) (arg2 : Memref sig .tc .vmem S4096x82 .f32) (harg2 : arg2.IsWhole) (arg3 : Memref sig .tc .vmem S1x81 .f32) (harg3 : arg3.IsWhole) (arg4 : Memref sig .tc .vmem S1x1x81 .f32) (harg4 : arg4.IsWhole) (arg5 : Memref sig .tc .vmem S1x1x81 .f32) (harg5 : arg5.IsWhole) (arg6 : Memref sig .tc .vmem S1x81 .f32) (harg6 : arg6.IsWhole) (arg7 : Memref sig .tc .vmem S1x81 .f32) (harg7 : arg7.IsWhole) (hc0 : ¬cond0_0 i) (hc1 : ¬cond0_1 i)
    (x0 : Vec F S4096x82 .f32) (x1 : Vec F S1x81 .f32) (xs0 xs1 : Vec F S1x81 .f32) :
    sout0_B_0 c i arg2 harg2 arg3 harg3 arg4 harg4 arg5 harg5 arg6 harg6 arg7 harg7 hc0 hc1 x0 x1 xs0 xs1 = k0_pay1 (k0_pay10 x0 x1) xs0 := by
  unfold sout0_B_0
  rw [View.read_writes_eq_canon _ _ _ (scover0_B_0 c i arg2 harg2 arg3 harg3 arg4 harg4 arg5 harg5 arg6 harg6 arg7 harg7 hc0 hc1 x0 x1 xs0 xs1)]
  unfold kernelRun0_B
  dsimp only
  sl_unfold_words
  rw [View.canon_unit_zero hz2]
  simp only [View.readAt_eq_ld, harg2.read_unread, harg3.read_unread, harg6.read_unread, harg7.read_unread,
    View.ld_unit_zero (S := S1x81) hz2, View.ld_unit_zero (S := S4096x82) hz2]

theorem sout_B_1 (c : Dev nD) (i : grid0.Coords) (arg2 : Memref sig .tc .vmem S4096x82 .f32) (harg2 : arg2.IsWhole) (arg3 : Memref sig .tc .vmem S1x81 .f32) (harg3 : arg3.IsWhole) (arg4 : Memref sig .tc .vmem S1x1x81 .f32) (harg4 : arg4.IsWhole) (arg5 : Memref sig .tc .vmem S1x1x81 .f32) (harg5 : arg5.IsWhole) (arg6 : Memref sig .tc .vmem S1x81 .f32) (harg6 : arg6.IsWhole) (arg7 : Memref sig .tc .vmem S1x81 .f32) (harg7 : arg7.IsWhole) (hc0 : ¬cond0_0 i) (hc1 : ¬cond0_1 i)
    (x0 : Vec F S4096x82 .f32) (x1 : Vec F S1x81 .f32) (xs0 xs1 : Vec F S1x81 .f32) :
    sout0_B_1 c i arg2 harg2 arg3 harg3 arg4 harg4 arg5 harg5 arg6 harg6 arg7 harg7 hc0 hc1 x0 x1 xs0 xs1 = k0_pay2 (k0_pay9 x0) (k0_pay11 x0 x1) (k0_pay12 x0) (k0_pay13 x0) xs1 := by
  unfold sout0_B_1
  rw [View.read_writes_eq_canon _ _ _ (scover0_B_1 c i arg2 harg2 arg3 harg3 arg4 harg4 arg5 harg5 arg6 harg6 arg7 harg7 hc0 hc1 x0 x1 xs0 xs1)]
  unfold kernelRun0_B
  dsimp only
  sl_unfold_words
  rw [View.canon_unit_zero hz2]
  simp only [View.readAt_eq_ld, harg2.read_unread, harg3.read_unread, harg6.read_unread, harg7.read_unread,
    View.ld_unit_zero (S := S1x81) hz2, View.ld_unit_zero (S := S4096x82) hz2]

theorem sout_C_0 (c : Dev nD) (i : grid0.Coords) (arg2 : Memref sig .tc .vmem S4096x82 .f32) (harg2 : arg2.IsWhole) (arg3 : Memref sig .tc .vmem S1x81 .f32) (harg3 : arg3.IsWhole) (arg4 : Memref sig .tc .vmem S1x1x81 .f32) (harg4 : arg4.IsWhole) (arg5 : Memref sig .tc .vmem S1x1x81 .f32) (harg5 : arg5.IsWhole) (arg6 : Memref sig .tc .vmem S1x81 .f32) (harg6 : arg6.IsWhole) (arg7 : Memref sig .tc .vmem S1x81 .f32) (harg7 : arg7.IsWhole) (hc0 : ¬cond0_0 i) (hc1 : cond0_1 i)
    (x0 : Vec F S4096x82 .f32) (x1 : Vec F S1x81 .f32) (xs0 xs1 : Vec F S1x81 .f32) :
    sout0_C_0 c i arg2 harg2 arg3 harg3 arg4 harg4 arg5 harg5 arg6 harg6 arg7 harg7 hc0 hc1 x0 x1 xs0 xs1 = k0_pay1 (k0_pay10 x0 x1) xs0 := by
  unfold sout0_C_0
  rw [View.read_writes_eq_canon _ _ _ (scover0_C_0 c i arg2 harg2 arg3 harg3 arg4 harg4 arg5 harg5 arg6 harg6 arg7 harg7 hc0 hc1 x0 x1 xs0 xs1)]
  unfold kernelRun0_C
  dsimp only
  sl_unfold_words
  rw [View.canon_unit_zero hz2]
  simp only [View.readAt_eq_ld, harg2.read_unread, harg3.read_unread, harg6.read_unread, harg7.read_unread,
    View.ld_unit_zero (S := S1x81) hz2, View.ld_unit_zero (S := S4096x82) hz2]

theorem sout_C_1 (c : Dev nD) (i : grid0.Coords) (arg2 : Memref sig .tc .vmem S4096x82 .f32) (harg2 : arg2.IsWhole) (arg3 : Memref sig .tc .vmem S1x81 .f32) (harg3 : arg3.IsWhole) (arg4 : Memref sig .tc .vmem S1x1x81 .f32) (harg4 : arg4.IsWhole) (arg5 : Memref sig .tc .vmem S1x1x81 .f32) (harg5 : arg5.IsWhole) (arg6 : Memref sig .tc .vmem S1x81 .f32) (harg6 : arg6.IsWhole) (arg7 : Memref sig .tc .vmem S1x81 .f32) (harg7 : arg7.IsWhole) (hc0 : ¬cond0_0 i) (hc1 : cond0_1 i)
    (x0 : Vec F S4096x82 .f32) (x1 : Vec F S1x81 .f32) (xs0 xs1 : Vec F S1x81 .f32) :
    sout0_C_1 c i arg2 harg2 arg3 harg3 arg4 harg4 arg5 harg5 arg6 harg6 arg7 harg7 hc0 hc1 x0 x1 xs0 xs1 = k0_pay2 (k0_pay9 x0) (k0_pay11 x0 x1) (k0_pay12 x0) (k0_pay13 x0) xs1 := by
  unfold sout0_C_1
  rw [View.read_writes_eq_canon _ _ _ (scover0_C_1 c i arg2 harg2 arg3 harg3 arg4 harg4 arg5 harg5 arg6 harg6 arg7 harg7 hc0 hc1 x0 x1 xs0 xs1)]
  unfold kernelRun0_C
  dsimp only
  sl_unfold_words
  rw [View.canon_unit_zero hz2]
  simp only [View.readAt_eq_ld, harg2.read_unread, harg3.read_unread, harg6.read_unread, harg7.read_unread,
    View.ld_unit_zero (S := S1x81) hz2, View.ld_unit_zero (S := S4096x82) hz2]

theorem out_C_2 (c : Dev nD) (i : grid0.Coords) (arg2 : Memref sig .tc .vmem S4096x82 .f32) (harg2 : arg2.IsWhole) (arg3 : Memref sig .tc .vmem S1x81 .f32) (harg3 : arg3.IsWhole) (arg4 : Memref sig .tc .vmem S1x1x81 .f32) (harg4 : arg4.IsWhole) (arg5 : Memref sig .tc .vmem S1x1x81 .f32) (harg5 : arg5.IsWhole) (arg6 : Memref sig .tc .vmem S1x81 .f32) (harg6 : arg6.IsWhole) (arg7 : Memref sig .tc .vmem S1x81 .f32) (harg7 : arg7.IsWhole) (hc0 : ¬cond0_0 i) (hc1 : cond0_1 i)
    (x0 : Vec F S4096x82 .f32) (x1 : Vec F S1x81 .f32) (xs0 xs1 : Vec F S1x81 .f32) :
    out0_C_2 c i arg2 harg2 arg3 harg3 arg4 harg4 arg5 harg5 arg6 harg6 arg7 harg7 hc0 hc1 x0 x1 xs0 xs1 = k0_pay3 (k0_pay1 (k0_pay10 x0 x1) xs0) := by
  unfold out0_C_2
  rw [View.read_writes_eq_canon _ _ _ (cover0_C_2 c i arg2 harg2 arg3 harg3 arg4 harg4 arg5 harg5 arg6 harg6 arg7 harg7 hc0 hc1 x0 x1 xs0 xs1)]
  unfold kernelRun0_C
  dsimp only
  sl_unfold_words
  rw [View.canon_unit_zero hz3, View.readCov_unit_zero (S := S1x81) _ hz2]
  simp only [View.readAt_eq_ld, harg2.read_unread, harg3.read_unread, harg6.read_unread, harg7.read_unread,
    View.ld_unit_zero (S := S1x81) hz2, View.ld_unit_zero (S := S4096x82) hz2]

theorem out_C_3 (c : Dev nD) (i : grid0.Coords) (arg2 : Memref sig .tc .vmem S4096x82 .f32) (harg2 : arg2.IsWhole) (arg3 : Memref sig .tc .vmem S1x81 .f32) (harg3 : arg3.IsWhole) (arg4 : Memref sig .tc .vmem S1x1x81 .f32) (harg4 : arg4.IsWhole) (arg5 : Memref sig .tc .vmem S1x1x81 .f32) (harg5 : arg5.IsWhole) (arg6 : Memref sig .tc .vmem S1x81 .f32) (harg6 : arg6.IsWhole) (arg7 : Memref sig .tc .vmem S1x81 .f32) (harg7 : arg7.IsWhole) (hc0 : ¬cond0_0 i) (hc1 : cond0_1 i)
    (x0 : Vec F S4096x82 .f32) (x1 : Vec F S1x81 .f32) (xs0 xs1 : Vec F S1x81 .f32) :
    out0_C_3 c i arg2 harg2 arg3 harg3 arg4 harg4 arg5 harg5 arg6 harg6 arg7 harg7 hc0 hc1 x0 x1 xs0 xs1 = k0_pay4 (k0_pay2 (k0_pay9 x0) (k0_pay11 x0 x1) (k0_pay12 x0) (k0_pay13 x0) xs1) := by
  unfold out0_C_3
  rw [View.read_writes_eq_canon _ _ _ (cover0_C_3 c i arg2 harg2 arg3 harg3 arg4 harg4 arg5 harg5 arg6 harg6 arg7 harg7 hc0 hc1 x0 x1 xs0 xs1)]
  unfold kernelRun0_C
  dsimp only
  sl_unfold_words
  rw [View.canon_unit_zero hz3, View.readCov_unit_zero (S := S1x81) _ hz2]
  simp only [View.readAt_eq_ld, harg2.read_unread, harg3.read_unread, harg6.read_unread, harg7.read_unread,
    View.ld_unit_zero (S := S1x81) hz2, View.ld_unit_zero (S := S4096x82) hz2]

end Cert.KernelIdeal.Region
end
-- ==== Proof.KAccum.lean ====
/-
  The two accumulators after each tile, and the two output blocks after a core's last tile.

  The grid's 150 points are (core q, tile j) = point 75·q + j.  At a core's first tile the body zeroes both accumulators and
  adds the tile's column sums; at every later tile it adds the tile's column sums to what the tile before left; at the
  core's last tile (j = 74) it also copies the accumulators into the core's row of the two outputs.  So after point
  75·q + j accumulator 0 holds, in column k,  ∑ s ≤ j of the column sum of tile 75·q + s,  and likewise accumulator 1.
-/
import proofs.«110382_j58110907515691_2_alg».proof.Proof.KPieces
import Idealize.ShloMosaic.Lib.Pipeline.Value
import Idealize.ShloMosaic.PureOps.Ideal.Laws

noncomputable section

open Idealize.ShloMosaic Idealize.ShloMosaic.TcCoe Idealize.SL.Sem
open Idealize.ShloMosaic.Pipeline (Dat)

namespace Cert.KernelIdeal.Region

open Cert.KernelIdeal Cert.KernelIdeal.Gen

variable {F : FTy → Type} [FloatOps F]
variable (m : (ℓ : Loc nD τ sig) → Buf (Elt F) ℓ)

/-- One tile's step on accumulator 0 (the per-class counts) and on accumulator 1 (the per-class losses): the body's own
    arithmetic of the tile's block of rows and of the class weights, added to what the accumulator held. -/
abbrev step0 (c : Dev nD) (n : ℕ) (h : n < cfg0.N) (s : Vec F S1x81 .f32) : Vec F S1x81 .f32 :=
  k0_pay1 (k0_pay10 (iblk m c 0 ⟨n, h⟩) (iblk m c 1 ⟨n, h⟩)) s
abbrev step1 (c : Dev nD) (n : ℕ) (h : n < cfg0.N) (s : Vec F S1x81 .f32) : Vec F S1x81 .f32 :=
  k0_pay2 (k0_pay9 (iblk m c 0 ⟨n, h⟩)) (k0_pay11 (iblk m c 0 ⟨n, h⟩) (iblk m c 1 ⟨n, h⟩)) (k0_pay12 (iblk m c 0 ⟨n, h⟩))
    (k0_pay13 (iblk m c 0 ⟨n, h⟩)) s

theorem hN : cfg0.N = 150 := N_0

/-- At a core's first tile the accumulators are the step applied to the zero row. -/
theorem acc_first (c : Dev nD) (n : ℕ) (h : n < cfg0.N) (h0 : n % 75 = 0) :
    (outsAt0 m c n h).2.2.1 = step0 m c n h (k0_pay5 (F := F)) ∧ (outsAt0 m c n h).2.2.2 = step1 m c n h (k0_pay6 (F := F)) := by
  have h1 : ¬n % 75 = 74 := by omega
  have e := outsAt0_A m c ⟨n, h⟩ h0 h1
  have e' : outsAt0 m c n h = _ := e
  rw [e']
  refine ⟨?_, ?_⟩
  · exact sout_A_0 c (grid0.coords ⟨n, h⟩) (ms0_0 ⟨n, h⟩) (hs0_0 ⟨n, h⟩) (ms0_1 ⟨n, h⟩) (hs0_1 ⟨n, h⟩) (ms0_2 ⟨n, h⟩) (hs0_2 ⟨n, h⟩) (ms0_3 ⟨n, h⟩) (hs0_3 ⟨n, h⟩) scM0_0 (Memref.isWhole_whole _) scM0_1 (Memref.isWhole_whole _) ((hcond0_0 ⟨n, h⟩).mpr h0) (fun hh => h1 ((hcond0_1 ⟨n, h⟩).mp hh)) (iblk m c 0 ⟨n, h⟩) (iblk m c 1 ⟨n, h⟩)
  · exact sout_A_1 c (grid0.coords ⟨n, h⟩) (ms0_0 ⟨n, h⟩) (hs0_0 ⟨n, h⟩) (ms0_1 ⟨n, h⟩) (hs0_1 ⟨n, h⟩) (ms0_2 ⟨n, h⟩) (hs0_2 ⟨n, h⟩) (ms0_3 ⟨n, h⟩) (hs0_3 ⟨n, h⟩) scM0_0 (Memref.isWhole_whole _) scM0_1 (Memref.isWhole_whole _) ((hcond0_0 ⟨n, h⟩).mpr h0) (fun hh => h1 ((hcond0_1 ⟨n, h⟩).mp hh)) (iblk m c 0 ⟨n, h⟩) (iblk m c 1 ⟨n, h⟩)

/-- At every other tile they are the step applied to what the tile before left. -/
theorem acc_next (c : Dev nD) (n : ℕ) (h : n + 1 < cfg0.N) (h0 : ¬(n + 1) % 75 = 0) :
    (outsAt0 m c (n + 1) h).2.2.1 = step0 m c (n + 1) h (outsAt0 m c n (Nat.lt_of_succ_lt h)).2.2.1
    ∧ (outsAt0 m c (n + 1) h).2.2.2 = step1 m c (n + 1) h (outsAt0 m c n (Nat.lt_of_succ_lt h)).2.2.2 := by
  by_cases h1 : (n + 1) % 75 = 74
  · have e : outsAt0 m c (n + 1) h =
        (out0_C_2 c (grid0.coords ⟨n + 1, h⟩) (ms0_0 ⟨n + 1, h⟩) (hs0_0 ⟨n + 1, h⟩) (ms0_1 ⟨n + 1, h⟩) (hs0_1 ⟨n + 1, h⟩) (ms0_2 ⟨n + 1, h⟩) (hs0_2 ⟨n + 1, h⟩) (ms0_3 ⟨n + 1, h⟩) (hs0_3 ⟨n + 1, h⟩) scM0_0 (Memref.isWhole_whole _) scM0_1 (Memref.isWhole_whole _) (fun hh => h0 ((hcond0_0 ⟨n + 1, h⟩).mp hh)) ((hcond0_1 ⟨n + 1, h⟩).mpr h1) (iblk m c 0 ⟨n + 1, h⟩) (iblk m c 1 ⟨n + 1, h⟩) (outsAt0 m c n (Nat.lt_of_succ_lt h)).2.2.1 (outsAt0 m c n (Nat.lt_of_succ_lt h)).2.2.2,
        out0_C_3 c (grid0.coords ⟨n + 1, h⟩) (ms0_0 ⟨n + 1, h⟩) (hs0_0 ⟨n + 1, h⟩) (ms0_1 ⟨n + 1, h⟩) (hs0_1 ⟨n + 1, h⟩) (ms0_2 ⟨n + 1, h⟩) (hs0_2 ⟨n + 1, h⟩) (ms0_3 ⟨n + 1, h⟩) (hs0_3 ⟨n + 1, h⟩) scM0_0 (Memref.isWhole_whole _) scM0_1 (Memref.isWhole_whole _) (fun hh => h0 ((hcond0_0 ⟨n + 1, h⟩).mp hh)) ((hcond0_1 ⟨n + 1, h⟩).mpr h1) (iblk m c 0 ⟨n + 1, h⟩) (iblk m c 1 ⟨n + 1, h⟩) (outsAt0 m c n (Nat.lt_of_succ_lt h)).2.2.1 (outsAt0 m c n (Nat.lt_of_succ_lt h)).2.2.2,
        sout0_C_0 c (grid0.coords ⟨n + 1, h⟩) (ms0_0 ⟨n + 1, h⟩) (hs0_0 ⟨n + 1, h⟩) (ms0_1 ⟨n + 1, h⟩) (hs0_1 ⟨n + 1, h⟩) (ms0_2 ⟨n + 1, h⟩) (hs0_2 ⟨n + 1, h⟩) (ms0_3 ⟨n + 1, h⟩) (hs0_3 ⟨n + 1, h⟩) scM0_0 (Memref.isWhole_whole _) scM0_1 (Memref.isWhole_whole _) (fun hh => h0 ((hcond0_0 ⟨n + 1, h⟩).mp hh)) ((hcond0_1 ⟨n + 1, h⟩).mpr h1) (iblk m c 0 ⟨n + 1, h⟩) (iblk m c 1 ⟨n + 1, h⟩) (outsAt0 m c n (Nat.lt_of_succ_lt h)).2.2.1 (outsAt0 m c n (Nat.lt_of_succ_lt h)).2.2.2,
        sout0_C_1 c (grid0.coords ⟨n + 1, h⟩) (ms0_0 ⟨n + 1, h⟩) (hs0_0 ⟨n + 1, h⟩) (ms0_1 ⟨n + 1, h⟩) (hs0_1 ⟨n + 1, h⟩) (ms0_2 ⟨n + 1, h⟩) (hs0_2 ⟨n + 1, h⟩) (ms0_3 ⟨n + 1, h⟩) (hs0_3 ⟨n + 1, h⟩) scM0_0 (Memref.isWhole_whole _) scM0_1 (Memref.isWhole_whole _) (fun hh => h0 ((hcond0_0 ⟨n + 1, h⟩).mp hh)) ((hcond0_1 ⟨n + 1, h⟩).mpr h1) (iblk m c 0 ⟨n + 1, h⟩) (iblk m c 1 ⟨n + 1, h⟩) (outsAt0 m c n (Nat.lt_of_succ_lt h)).2.2.1 (outsAt0 m c n (Nat.lt_of_succ_lt h)).2.2.2) :=
      (dif_neg h0).trans ((dif_pos h1).trans rfl)
    rw [e]
    refine ⟨?_, ?_⟩
    · exact sout_C_0 c (grid0.coords ⟨n + 1, h⟩) (ms0_0 ⟨n + 1, h⟩) (hs0_0 ⟨n + 1, h⟩) (ms0_1 ⟨n + 1, h⟩) (hs0_1 ⟨n + 1, h⟩) (ms0_2 ⟨n + 1, h⟩) (hs0_2 ⟨n + 1, h⟩) (ms0_3 ⟨n + 1, h⟩) (hs0_3 ⟨n + 1, h⟩) scM0_0 (Memref.isWhole_whole _) scM0_1 (Memref.isWhole_whole _) (fun hh => h0 ((hcond0_0 ⟨n + 1, h⟩).mp hh)) ((hcond0_1 ⟨n + 1, h⟩).mpr h1) (iblk m c 0 ⟨n + 1, h⟩) (iblk m c 1 ⟨n + 1, h⟩) (outsAt0 m c n (Nat.lt_of_succ_lt h)).2.2.1 (outsAt0 m c n (Nat.lt_of_succ_lt h)).2.2.2
    · exact sout_C_1 c (grid0.coords ⟨n + 1, h⟩) (ms0_0 ⟨n + 1, h⟩) (hs0_0 ⟨n + 1, h⟩) (ms0_1 ⟨n + 1, h⟩) (hs0_1 ⟨n + 1, h⟩) (ms0_2 ⟨n + 1, h⟩) (hs0_2 ⟨n + 1, h⟩) (ms0_3 ⟨n + 1, h⟩) (hs0_3 ⟨n + 1, h⟩) scM0_0 (Memref.isWhole_whole _) scM0_1 (Memref.isWhole_whole _) (fun hh => h0 ((hcond0_0 ⟨n + 1, h⟩).mp hh)) ((hcond0_1 ⟨n + 1, h⟩).mpr h1) (iblk m c 0 ⟨n + 1, h⟩) (iblk m c 1 ⟨n + 1, h⟩) (outsAt0 m c n (Nat.lt_of_succ_lt h)).2.2.1 (outsAt0 m c n (Nat.lt_of_succ_lt h)).2.2.2
  · have e : outsAt0 m c (n + 1) h =
        (out0_B_2 c (grid0.coords ⟨n + 1, h⟩) (ms0_0 ⟨n + 1, h⟩) (hs0_0 ⟨n + 1, h⟩) (ms0_1 ⟨n + 1, h⟩) (hs0_1 ⟨n + 1, h⟩) (ms0_2 ⟨n + 1, h⟩) (hs0_2 ⟨n + 1, h⟩) (ms0_3 ⟨n + 1, h⟩) (hs0_3 ⟨n + 1, h⟩) scM0_0 (Memref.isWhole_whole _) scM0_1 (Memref.isWhole_whole _) (fun hh => h0 ((hcond0_0 ⟨n + 1, h⟩).mp hh)) (fun hh => h1 ((hcond0_1 ⟨n + 1, h⟩).mp hh)) (iblk m c 0 ⟨n + 1, h⟩) (iblk m c 1 ⟨n + 1, h⟩) (outsAt0 m c n (Nat.lt_of_succ_lt h)).2.2.1 (outsAt0 m c n (Nat.lt_of_succ_lt h)).2.2.2,
        out0_B_3 c (grid0.coords ⟨n + 1, h⟩) (ms0_0 ⟨n + 1, h⟩) (hs0_0 ⟨n + 1, h⟩) (ms0_1 ⟨n + 1, h⟩) (hs0_1 ⟨n + 1, h⟩) (ms0_2 ⟨n + 1, h⟩) (hs0_2 ⟨n + 1, h⟩) (ms0_3 ⟨n + 1, h⟩) (hs0_3 ⟨n + 1, h⟩) scM0_0 (Memref.isWhole_whole _) scM0_1 (Memref.isWhole_whole _) (fun hh => h0 ((hcond0_0 ⟨n + 1, h⟩).mp hh)) (fun hh => h1 ((hcond0_1 ⟨n + 1, h⟩).mp hh)) (iblk m c 0 ⟨n + 1, h⟩) (iblk m c 1 ⟨n + 1, h⟩) (outsAt0 m c n (Nat.lt_of_succ_lt h)).2.2.1 (outsAt0 m c n (Nat.lt_of_succ_lt h)).2.2.2,
        sout0_B_0 c (grid0.coords ⟨n + 1, h⟩) (ms0_0 ⟨n + 1, h⟩) (hs0_0 ⟨n + 1, h⟩) (ms0_1 ⟨n + 1, h⟩) (hs0_1 ⟨n + 1, h⟩) (ms0_2 ⟨n + 1, h⟩) (hs0_2 ⟨n + 1, h⟩) (ms0_3 ⟨n + 1, h⟩) (hs0_3 ⟨n + 1, h⟩) scM0_0 (Memref.isWhole_whole _) scM0_1 (Memref.isWhole_whole _) (fun hh => h0 ((hcond0_0 ⟨n + 1, h⟩).mp hh)) (fun hh => h1 ((hcond0_1 ⟨n + 1, h⟩).mp hh)) (iblk m c 0 ⟨n + 1, h⟩) (iblk m c 1 ⟨n + 1, h⟩) (outsAt0 m c n (Nat.lt_of_succ_lt h)).2.2.1 (outsAt0 m c n (Nat.lt_of_succ_lt h)).2.2.2,
        sout0_B_1 c (grid0.coords ⟨n + 1, h⟩) (ms0_0 ⟨n + 1, h⟩) (hs0_0 ⟨n + 1, h⟩) (ms0_1 ⟨n + 1, h⟩) (hs0_1 ⟨n + 1, h⟩) (ms0_2 ⟨n + 1, h⟩) (hs0_2 ⟨n + 1, h⟩) (ms0_3 ⟨n + 1, h⟩) (hs0_3 ⟨n + 1, h⟩) scM0_0 (Memref.isWhole_whole _) scM0_1 (Memref.isWhole_whole _) (fun hh => h0 ((hcond0_0 ⟨n + 1, h⟩).mp hh)) (fun hh => h1 ((hcond0_1 ⟨n + 1, h⟩).mp hh)) (iblk m c 0 ⟨n + 1, h⟩) (iblk m c 1 ⟨n + 1, h⟩) (outsAt0 m c n (Nat.lt_of_succ_lt h)).2.2.1 (outsAt0 m c n (Nat.lt_of_succ_lt h)).2.2.2) :=
      (dif_neg h0).trans ((dif_neg h1).trans rfl)
    rw [e]
    refine ⟨?_, ?_⟩
    · exact sout_B_0 c (grid0.coords ⟨n + 1, h⟩) (ms0_0 ⟨n + 1, h⟩) (hs0_0 ⟨n + 1, h⟩) (ms0_1 ⟨n + 1, h⟩) (hs0_1 ⟨n + 1, h⟩) (ms0_2 ⟨n + 1, h⟩) (hs0_2 ⟨n + 1, h⟩) (ms0_3 ⟨n + 1, h⟩) (hs0_3 ⟨n + 1, h⟩) scM0_0 (Memref.isWhole_whole _) scM0_1 (Memref.isWhole_whole _) (fun hh => h0 ((hcond0_0 ⟨n + 1, h⟩).mp hh)) (fun hh => h1 ((hcond0_1 ⟨n + 1, h⟩).mp hh)) (iblk m c 0 ⟨n + 1, h⟩) (iblk m c 1 ⟨n + 1, h⟩) (outsAt0 m c n (Nat.lt_of_succ_lt h)).2.2.1 (outsAt0 m c n (Nat.lt_of_succ_lt h)).2.2.2
    · exact sout_B_1 c (grid0.coords ⟨n + 1, h⟩) (ms0_0 ⟨n + 1, h⟩) (hs0_0 ⟨n + 1, h⟩) (ms0_1 ⟨n + 1, h⟩) (hs0_1 ⟨n + 1, h⟩) (ms0_2 ⟨n + 1, h⟩) (hs0_2 ⟨n + 1, h⟩) (ms0_3 ⟨n + 1, h⟩) (hs0_3 ⟨n + 1, h⟩) scM0_0 (Memref.isWhole_whole _) scM0_1 (Memref.isWhole_whole _) (fun hh => h0 ((hcond0_0 ⟨n + 1, h⟩).mp hh)) (fun hh => h1 ((hcond0_1 ⟨n + 1, h⟩).mp hh)) (iblk m c 0 ⟨n + 1, h⟩) (iblk m c 1 ⟨n + 1, h⟩) (outsAt0 m c n (Nat.lt_of_succ_lt h)).2.2.1 (outsAt0 m c n (Nat.lt_of_succ_lt h)).2.2.2

/-- At a core's last tile the output blocks are the accumulators, copied. -/
theorem out_last (c : Dev nD) (n : ℕ) (h : n < cfg0.N) (h1 : n % 75 = 74) :
    (outsAt0 m c n h).1 = k0_pay3 (outsAt0 m c n h).2.2.1 ∧ (outsAt0 m c n h).2.1 = k0_pay4 (outsAt0 m c n h).2.2.2 := by
  have h0 : ¬n % 75 = 0 := by omega
  have e : outsAt0 m c n h = _ := outsAt0_C m c ⟨n, h⟩ h0 h1
  rw [e]
  dsimp only
  rw [out_C_2, out_C_3, sout_C_0, sout_C_1]
  exact ⟨rfl, rfl⟩

end Cert.KernelIdeal.Region
end
-- ==== Proof.KPayload.lean ====
/-
  The arithmetic of one tile of the tiled focal-loss program, read entry by entry over the extended reals.

  A tile is 4096 padded rows of 82 numbers: 81 class scores and the label.  The tile's two contributions are
  column sums over its rows: of the per-row class weights (the count) and of the per-row loss entries.  Each
  layout operation of the body (slice, broadcast, shape cast, lane and column sums, row maximum) is read at an
  index, after which the body agrees with the scalar spelling of the row mathematics operation by operation.
-/
import proofs.«110382_j58110907515691_2_alg».proof.Proof.Gen.KernelIdeal.Skeleton
import proofs.«110382_j58110907515691_2_alg».proof.Proof.RowSpec
import Idealize.ShloMosaic.Lib.Pipeline.Value
import Idealize.ShloMosaic.Lib.ValueIdx
import Idealize.ShloMosaic.Lib.ValueLayout
import Idealize.ShloMosaic.PureOps.Ideal.Laws

noncomputable section

namespace Cert.KernelIdeal.Payload

open Cert.KernelIdeal Cert.KernelIdeal.Gen Cert.Focal Idealize.ShloMosaic Idealize.ShloMosaic.ValueIdx

/-- row r of the tile: its scores, its label; the weights -/
def tScores (x0 : Vec Ideal S4096x82 .f32) (r : Fin 4096) (k : Fin 81) : EReal := x0 (ix2 r (⟨k.val, by omega⟩ : Fin 82))
def tLabel (x0 : Vec Ideal S4096x82 .f32) (r : Fin 4096) : EReal := x0 (ix2 r (⟨81, by decide⟩ : Fin 82))
def tAlpha (x1 : Vec Ideal S1x81 .f32) (k : Fin 81) : EReal := x1 (ix2 (0 : Fin 1) k)

/-! ### Layout operations at an index -/

section Layout
variable {α : Type}

/-- A column `[a, 1]` broadcast to `[a, b]` reads, at `(p, c)`, the column at row `p`. -/
theorem broadcastTo_a1_ab_apply {a b : ℕ} (v : (⟨2, ![a, 1]⟩ : Shape).Idx → α)
    (h : (⟨2, ![a, 1]⟩ : Shape).Broadcasts ⟨2, ![a, b]⟩) (p : Fin a) (c : Fin b) :
    broadcastTo ⟨2, ![a, b]⟩ v h (ix2 p c) = v (ix2 p (0 : Fin 1)) := by
  refine broadcastTo_apply v h (ix2 p c) (ix2 p (0 : Fin 1)) fun ax => ?_
  match ax with
  | ⟨0, _⟩ =>
    show p.val = if a = 1 then 0 else p.val
    split
    · have := p.isLt; omega
    · rfl
  | ⟨1, _⟩ => rfl

/-- An `[a]` array cast to the column `[a, 1]` reads, at `(i, u)`, the operand at `i`. -/
theorem shapeCast_a_a1_apply {a : ℕ} (x : (⟨1, ![a]⟩ : Shape).Idx → α) (h : (⟨1, ![a]⟩ : Shape).ShapeCasts ⟨2, ![a, 1]⟩)
    (i : Fin a) (u : Fin 1) : shapeCast ⟨2, ![a, 1]⟩ x h (ix2 i u) = x (ix1 i) :=
  shapeCast_apply x h _ _ (by
    have hu : u.val = 0 := by omega
    rw [Shape.rowMajor_val_two, Shape.rowMajor_val_one]
    show i.val = i.val * 1 + u.val
    rw [hu, Nat.mul_one, Nat.add_zero])

end Layout

/-- A sum along the lanes of a `[4096, 81]` array, at row `r`: the sum over the 81 columns. -/
theorem laneSum_apply (v : FVec Ideal S4096x81 .f32) (r : Fin 4096) :
    multiReduction .add [1] S4096 v 0x00000000#32 reduces_S4096x81_S4096 (.inl rfl) rfl (ix1 r)
      = ∑ k : Fin 81, v (ix2 r k) := by
  refine (Ideal.multiReduction_add_single v _ reduces_S4096x81_S4096 _ _ (ix1 r)).trans ?_
  exact Finset.sum_congr rfl fun k _ => congrArg v (funext fun a => Fin.ext (by
    match a with
    | ⟨0, _⟩ => rfl
    | ⟨1, _⟩ => rfl))

/-- A sum down the rows of a `[4096, 81]` array, at column `j`: the sum over the 4096 rows. -/
theorem colSum_apply (v : FVec Ideal S4096x81 .f32) (j : Fin 81) :
    multiReduction .add [0] S81 v 0x00000000#32 reduces_S4096x81_S81 (.inl rfl) rfl (ix1 j)
      = ∑ r : Fin 4096, v (ix2 r j) := by
  refine (Ideal.multiReduction_add_single v _ reduces_S4096x81_S81 _ _ (ix1 j)).trans ?_
  exact Finset.sum_congr rfl fun r _ => congrArg v (funext fun a => Fin.ext (by
    match a with
    | ⟨0, _⟩ => rfl
    | ⟨1, _⟩ => rfl))

/-- The greatest entry along the lanes of a `[4096, 81]` array, at row `r`. -/
theorem laneMax_apply (v : FVec Ideal S4096x81 .f32) (r : Fin 4096) :
    multiReduction .maximumf [1] S4096 v 0xFF800000#32 reduces_S4096x81_S4096 (.inl rfl) rfl (ix1 r)
      = rowMax fun k => v (ix2 r k) := by
  refine (Ideal.multiReduction_maximumf_single v _ reduces_S4096x81_S4096 _ _ (ix1 r)).trans ?_
  unfold rowMax
  exact congrArg (fun f => (Finset.univ : Finset (Fin 81)).fold max ninfW f) (funext fun k => congrArg v (funext fun a => Fin.ext (by
    match a with
    | ⟨0, _⟩ => rfl
    | ⟨1, _⟩ => rfl)))

/-! ### The constant payloads and the final copies -/

theorem pay5_apply (i : S1x81.Idx) : k0_pay5 (F := Ideal) i = 0 := by
  unfold k0_pay5
  rw [shapeCast_self]
  exact Ideal.ofBits_zero_f32

theorem pay6_apply (i : S1x81.Idx) : k0_pay6 (F := Ideal) i = 0 := by
  unfold k0_pay6
  rw [shapeCast_self]
  exact Ideal.ofBits_zero_f32

theorem pay3_apply (v : Vec Ideal S1x81 .f32) (j : Fin 81) :
    k0_pay3 v (ix3 (0 : Fin 1) (0 : Fin 1) j) = v (ix2 (0 : Fin 1) j) := by
  unfold k0_pay3
  exact shapeCast_ab_1ab_apply v _ (0 : Fin 1) (0 : Fin 1) j

theorem pay4_apply (v : Vec Ideal S1x81 .f32) (j : Fin 81) :
    k0_pay4 v (ix3 (0 : Fin 1) (0 : Fin 1) j) = v (ix2 (0 : Fin 1) j) := by
  unfold k0_pay4
  exact shapeCast_ab_1ab_apply v _ (0 : Fin 1) (0 : Fin 1) j

/-! ### The label column, the class indicator and the per-row class weight -/

/-- The label column of the tile. -/
theorem lab_apply (x0 : Vec Ideal S4096x82 .f32) (r : Fin 4096) :
    k0_pay8 x0 (ix2 r (0 : Fin 1)) = tLabel x0 r := by
  unfold k0_pay8 k0_pay7
  rw [shapeCast_self]
  exact slice2_axis1_apply 81 x0 _ r (0 : Fin 1) (⟨81, by decide⟩ : Fin 82) rfl

/-- The indicator of the label's class: 1 in the column of  trunc (max l 0). -/
theorem hot_apply (x0 : Vec Ideal S4096x82 .f32) (r : Fin 4096) (k : Fin 81) :
    k0_pay9 x0 (ix2 r k) = kHot (tLabel x0 r) k := by
  have e1 := iota_single_apply .tc S4096x81 32 (1 : Fin 2) iota_S4096x81_d1_w32 (ix2 r k)
  have e2 := broadcastTo_a1_ab_apply
    (fptosi 32 (maximumf (k0_pay8 x0) (broadcast S4096x1 (Scalar.ofBits (F := Ideal) .f32 0x00000000#32))))
    broadcasts_S4096x1_S4096x81 r k
  unfold k0_pay9 kHot
  show ((((IntOp.cmpi .eq (iota .tc S4096x81 32 [1] iota_S4096x81_d1_w32 (ix2 r k))
      (broadcastTo S4096x81
        (fptosi 32 (maximumf (k0_pay8 x0) (broadcast S4096x1 (Scalar.ofBits (F := Ideal) .f32 0x00000000#32))))
        broadcasts_S4096x1_S4096x81 (ix2 r k))).setWidth 32).toInt : ℝ) : EReal) = _
  rw [e1, e2, ← lab_apply x0 r]
  rfl

/-- The class weight in the label's column of a valid row, 0 elsewhere. -/
theorem onehot_apply (x0 : Vec Ideal S4096x82 .f32) (x1 : Vec Ideal S1x81 .f32) (r : Fin 4096) (k : Fin 81) :
    k0_pay10 x0 x1 (ix2 r k) = kOnehot (tLabel x0 r) (tAlpha x1) k := by
  have e1 := broadcastTo_1b_ab_apply (shapeCast S1x81 x1 shapeCasts_S1x81_S1x81) broadcasts_S1x81_S4096x81 r k
  have e2 := broadcastTo_a1_ab_apply
    (sitofp (F := Ideal) .f32 (extui 32 (cmpf .oge (k0_pay8 x0) (broadcast S4096x1 (Scalar.ofBits (F := Ideal) .f32 0x00000000#32))) natLt_1_32))
    broadcasts_S4096x1_S4096x81 r k
  unfold k0_pay10 kOnehot
  show (k0_pay9 x0 (ix2 r k)
        * broadcastTo S4096x81 (shapeCast S1x81 x1 shapeCasts_S1x81_S1x81) broadcasts_S1x81_S4096x81 (ix2 r k))
      * broadcastTo S4096x81
          (sitofp (F := Ideal) .f32 (extui 32 (cmpf .oge (k0_pay8 x0) (broadcast S4096x1 (Scalar.ofBits (F := Ideal) .f32 0x00000000#32))) natLt_1_32))
          broadcasts_S4096x1_S4096x81 (ix2 r k) = _
  rw [e1, e2, shapeCast_self, hot_apply, ← lab_apply x0 r]
  rfl

/-! ### The count accumulator's step -/

/-- What the count accumulator holds after a tile: what it held plus the column sums of the tile's entries. -/
theorem pay1_apply (v : FVec Ideal S4096x81 .f32) (s : Vec Ideal S1x81 .f32) (j : Fin 81) :
    k0_pay1 v s (ix2 (0 : Fin 1) j) = s (ix2 (0 : Fin 1) j) + ∑ r : Fin 4096, v (ix2 r j) := by
  unfold k0_pay1
  rw [shapeCast_self]
  show s (ix2 (0 : Fin 1) j)
      + shapeCast S1x81 (multiReduction .add [0] S81 v 0x00000000#32 reduces_S4096x81_S81 (.inl rfl) rfl)
          shapeCasts_S81_S1x81 (ix2 (0 : Fin 1) j) = _
  rw [shapeCast_a_1a_apply, colSum_apply]

theorem count_step (x0 : Vec Ideal S4096x82 .f32) (x1 : Vec Ideal S1x81 .f32) (s : Vec Ideal S1x81 .f32) (j : Fin 81) :
    k0_pay1 (k0_pay10 x0 x1) s (ix2 (0 : Fin 1) j)
      = s (ix2 0 j) + ∑ r : Fin 4096, kOnehot (tLabel x0 r) (tAlpha x1) j :=
  (pay1_apply (k0_pay10 x0 x1) s j).trans
    (congrArg (fun t => s (ix2 (0 : Fin 1) j) + t) (Finset.sum_congr rfl fun r _ => onehot_apply x0 x1 r j))

/-! ### The log-softmax of a row, and the row collapsed to its label column -/

/-- A lane sum kept as a column: at `(r, 0)` the sum over the 81 columns of row `r`. -/
theorem laneSumCol_apply (v : FVec Ideal S4096x81 .f32) (r : Fin 4096) (u : Fin 1) :
    shapeCast S4096x1 (multiReduction .add [1] S4096 v 0x00000000#32 reduces_S4096x81_S4096 (.inl rfl) rfl)
        shapeCasts_S4096_S4096x1 (ix2 r u) = ∑ k : Fin 81, v (ix2 r k) := by
  rw [shapeCast_a_a1_apply, laneSum_apply]

/-- A lane maximum kept as a column: at `(r, 0)` the greatest entry of row `r`. -/
theorem laneMaxCol_apply (v : FVec Ideal S4096x81 .f32) (r : Fin 4096) (u : Fin 1) :
    shapeCast S4096x1 (multiReduction .maximumf [1] S4096 v 0xFF800000#32 reduces_S4096x81_S4096 (.inl rfl) rfl)
        shapeCasts_S4096_S4096x1 (ix2 r u) = rowMax fun k => v (ix2 r k) := by
  rw [shapeCast_a_a1_apply, laneMax_apply]

/-- The scores block of the tile. -/
def scoresV (x0 : Vec Ideal S4096x82 .f32) : FVec Ideal S4096x81 .f32 :=
  extractStridedSlice S4096x81 ![0, 0] (k0_pay7 x0) slices_S4096x82_o0_0_S4096x81

theorem scoresV_apply (x0 : Vec Ideal S4096x82 .f32) (r : Fin 4096) (k : Fin 81) :
    scoresV x0 (ix2 r k) = tScores x0 r k := by
  unfold scoresV k0_pay7
  rw [shapeCast_self]
  exact slice2_axis1_apply 0 x0 _ r k (⟨k.val, by omega⟩ : Fin 82) (Nat.zero_add _).symm

/-- Every row shifted by its greatest entry. -/
def shiftV (v : FVec Ideal S4096x81 .f32) : FVec Ideal S4096x81 .f32 :=
  subf v (broadcastTo S4096x81
    (shapeCast S4096x1 (multiReduction .maximumf [1] S4096 v 0xFF800000#32 reduces_S4096x81_S4096 (.inl rfl) rfl)
      shapeCasts_S4096_S4096x1) broadcasts_S4096x1_S4096x81)

theorem shiftV_apply (v : FVec Ideal S4096x81 .f32) (r : Fin 4096) (k : Fin 81) :
    shiftV v (ix2 r k) = v (ix2 r k) - rowMax fun k => v (ix2 r k) := by
  unfold shiftV
  show v (ix2 r k) - broadcastTo S4096x81
    (shapeCast S4096x1 (multiReduction .maximumf [1] S4096 v 0xFF800000#32 reduces_S4096x81_S4096 (.inl rfl) rfl)
      shapeCasts_S4096_S4096x1) broadcasts_S4096x1_S4096x81 (ix2 r k) = _
  rw [broadcastTo_a1_ab_apply, laneMaxCol_apply]

/-- Every row less the logarithm of the sum of its exponentials. -/
def lseV (w : FVec Ideal S4096x81 .f32) : FVec Ideal S4096x81 .f32 :=
  subf w (broadcastTo S4096x81
    (log (shapeCast S4096x1 (multiReduction .add [1] S4096 (exp w) 0x00000000#32 reduces_S4096x81_S4096 (.inl rfl) rfl)
      shapeCasts_S4096_S4096x1)) broadcasts_S4096x1_S4096x81)

theorem lseV_apply (w : FVec Ideal S4096x81 .f32) (r : Fin 4096) (k : Fin 81) :
    lseV w (ix2 r k) = w (ix2 r k) - Ideal.log (∑ k' : Fin 81, Ideal.exp (w (ix2 r k'))) := by
  unfold lseV
  show w (ix2 r k) - broadcastTo S4096x81
    (log (shapeCast S4096x1 (multiReduction .add [1] S4096 (exp w) 0x00000000#32 reduces_S4096x81_S4096 (.inl rfl) rfl)
      shapeCasts_S4096_S4096x1)) broadcasts_S4096x1_S4096x81 (ix2 r k) = _
  rw [broadcastTo_a1_ab_apply]
  show w (ix2 r k) - Ideal.log (shapeCast S4096x1
    (multiReduction .add [1] S4096 (exp w) 0x00000000#32 reduces_S4096x81_S4096 (.inl rfl) rfl)
      shapeCasts_S4096_S4096x1 (ix2 r (0 : Fin 1))) = _
  rw [laneSumCol_apply]
  rfl

/-- The log-softmax of row `r` of the tile at class `k`. -/
theorem lsm_apply (x0 : Vec Ideal S4096x82 .f32) (r : Fin 4096) (k : Fin 81) :
    lseV (shiftV (scoresV x0)) (ix2 r k) = lsm (tScores x0 r) k := by
  have hrow : (fun k => scoresV x0 (ix2 r k)) = tScores x0 r := funext fun k => scoresV_apply x0 r k
  have hs : ∀ k' : Fin 81, shiftV (scoresV x0) (ix2 r k') = tScores x0 r k' - rowMax (tScores x0 r) := fun k' => by
    rw [shiftV_apply, hrow, scoresV_apply]
  rw [lseV_apply]
  unfold lsm
  rw [hs k]
  exact congrArg (fun t => (tScores x0 r k - rowMax (tScores x0 r)) - Ideal.log t)
    (Finset.sum_congr rfl fun k' _ => congrArg Ideal.exp (hs k'))

/-- The body's log-probability column is the lane sum of indicator times log-softmax. -/
theorem pay12_eq (x0 : Vec Ideal S4096x82 .f32) :
    k0_pay12 x0 = shapeCast S4096x1
      (multiReduction .add [1] S4096 (mulf (k0_pay9 x0) (lseV (shiftV (scoresV x0)))) 0x00000000#32
        reduces_S4096x81_S4096 (.inl rfl) rfl) shapeCasts_S4096_S4096x1 := rfl

/-- The row's log-probability at its label. -/
theorem logptLab_apply (x0 : Vec Ideal S4096x82 .f32) (r : Fin 4096) :
    k0_pay12 x0 (ix2 r (0 : Fin 1)) = kLogptLab (tScores x0 r) (tLabel x0 r) := by
  rw [pay12_eq, laneSumCol_apply]
  unfold kLogptLab
  refine Finset.sum_congr rfl fun k _ => ?_
  show k0_pay9 x0 (ix2 r k) * lseV (shiftV (scoresV x0)) (ix2 r k) = _
  rw [hot_apply, lsm_apply]

/-- The row's class weight at its label (0 for an ignored row). -/
theorem alphaLab_apply (x0 : Vec Ideal S4096x82 .f32) (x1 : Vec Ideal S1x81 .f32) (r : Fin 4096) :
    k0_pay11 x0 x1 (ix2 r (0 : Fin 1)) = kAlphaLab (tLabel x0 r) (tAlpha x1) := by
  unfold k0_pay11
  rw [laneSumCol_apply]
  unfold kAlphaLab
  exact Finset.sum_congr rfl fun k _ => onehot_apply x0 x1 r k

/-- The focal factor of a row:  (1 - exp L)²  with L its log-probability at the label. -/
theorem focal_apply (x0 : Vec Ideal S4096x82 .f32) (r : Fin 4096) :
    k0_pay13 x0 (ix2 r (0 : Fin 1))
      = (oneW - Ideal.exp (kLogptLab (tScores x0 r) (tLabel x0 r)))
        * (oneW - Ideal.exp (kLogptLab (tScores x0 r) (tLabel x0 r))) := by
  rw [← logptLab_apply]
  rfl

/-! ### The loss accumulator's step -/

/-- What the loss accumulator holds after a tile: what it held plus the column sums of indicator times the row's
    signed, weighted focal term. -/
theorem pay2_apply (v18 : FVec Ideal S4096x81 .f32) (v36 v39 v43 : FVec Ideal S4096x1 .f32) (s : Vec Ideal S1x81 .f32)
    (j : Fin 81) :
    k0_pay2 v18 v36 v39 v43 s (ix2 (0 : Fin 1) j)
      = s (ix2 (0 : Fin 1) j) + ∑ r : Fin 4096, v18 (ix2 r j)
          * (zeroW - (v43 (ix2 r (0 : Fin 1)) * v36 (ix2 r (0 : Fin 1))) * v39 (ix2 r (0 : Fin 1))) := by
  unfold k0_pay2
  rw [shapeCast_self]
  show s (ix2 (0 : Fin 1) j)
      + shapeCast S1x81 (multiReduction .add [0] S81
          (mulf v18 (broadcastTo S4096x81
            (subf (broadcast S4096x1 (Scalar.ofBits (F := Ideal) .f32 0x00000000#32)) (mulf (mulf v43 v36) v39))
            broadcasts_S4096x1_S4096x81))
          0x00000000#32 reduces_S4096x81_S81 (.inl rfl) rfl) shapeCasts_S81_S1x81 (ix2 (0 : Fin 1) j) = _
  rw [shapeCast_a_1a_apply, colSum_apply]
  refine congrArg (fun t => s (ix2 (0 : Fin 1) j) + t) (Finset.sum_congr rfl fun r _ => ?_)
  show v18 (ix2 r j) * broadcastTo S4096x81
      (subf (broadcast S4096x1 (Scalar.ofBits (F := Ideal) .f32 0x00000000#32)) (mulf (mulf v43 v36) v39))
      broadcasts_S4096x1_S4096x81 (ix2 r j) = _
  rw [broadcastTo_a1_ab_apply]
  rfl

theorem loss_step (x0 : Vec Ideal S4096x82 .f32) (x1 : Vec Ideal S1x81 .f32) (s : Vec Ideal S1x81 .f32) (j : Fin 81) :
    k0_pay2 (k0_pay9 x0) (k0_pay11 x0 x1) (k0_pay12 x0) (k0_pay13 x0) s (ix2 (0 : Fin 1) j)
      = s (ix2 0 j) + ∑ r : Fin 4096, kElem (tScores x0 r) (tLabel x0 r) (tAlpha x1) j := by
  refine (pay2_apply (k0_pay9 x0) (k0_pay11 x0 x1) (k0_pay12 x0) (k0_pay13 x0) s j).trans ?_
  refine congrArg (fun t => s (ix2 (0 : Fin 1) j) + t) (Finset.sum_congr rfl fun r _ => ?_)
  rw [hot_apply, focal_apply, alphaLab_apply, logptLab_apply]
  rfl

end Cert.KernelIdeal.Payload

end
-- ==== Proof.KSums.lean ====
/-
  The two accumulators as running sums over a core's tiles, and what the two output arrays hold after the run.

  With  cnt n k  the column sum (class k) of the per-row counts of tile n, and  los n k  that of the per-row losses:
  after point 75·q + j accumulator 0 holds  ∑ s ≤ j, cnt (75·q + s) k  in column k and accumulator 1 the same sum of `los`;
  the pipeline writes a core's output block back once, after the core's last tile (j = 74), and the blocks of the two
  cores tile the [2, 1, 81] output arrays, so output 0 ends holding  ∑ s < 75, cnt (75·q + s) k  at (q, 0, k), output 1
  the same sum of `los`.
-/
import proofs.«110382_j58110907515691_2_alg».proof.Proof.KAccum
import proofs.«110382_j58110907515691_2_alg».proof.Proof.KPayload
import Idealize.ShloMosaic.Lib.Pipeline.Value

noncomputable section

open Idealize.ShloMosaic Idealize.ShloMosaic.TcCoe Idealize.SL.Sem
open Idealize.ShloMosaic.Pipeline (Dat)

namespace Cert.KernelIdeal.Region

open Cert.KernelIdeal Cert.KernelIdeal.Gen Cert.KernelIdeal.Payload Cert.Focal Idealize.ShloMosaic.ValueIdx

variable (m : (ℓ : Loc nD τ sig) → Buf (Elt Ideal) ℓ) (c : Dev nD)

/-- Tile n's column sums of the per-row counts and of the per-row losses (0 past the grid). -/
def cnt (n : ℕ) (j : Fin 81) : EReal :=
  if h : n < cfg0.N then ∑ r : Fin 4096, kOnehot (tLabel (iblk m c 0 ⟨n, h⟩) r) (tAlpha (iblk m c 1 ⟨n, h⟩)) j else 0
def los (n : ℕ) (j : Fin 81) : EReal :=
  if h : n < cfg0.N then ∑ r : Fin 4096, kElem (tScores (iblk m c 0 ⟨n, h⟩) r) (tLabel (iblk m c 0 ⟨n, h⟩) r) (tAlpha (iblk m c 1 ⟨n, h⟩)) j else 0

/-- A tile's step adds its column sums. -/
theorem step0_apply (n : ℕ) (h : n < cfg0.N) (s : Vec Ideal S1x81 .f32) (j : Fin 81) :
    step0 m c n h s (ix2 (0 : Fin 1) j) = s (ix2 (0 : Fin 1) j) + cnt m c n j := by
  unfold cnt; rw [dif_pos h]
  exact count_step (iblk m c 0 ⟨n, h⟩) (iblk m c 1 ⟨n, h⟩) s j
theorem step1_apply (n : ℕ) (h : n < cfg0.N) (s : Vec Ideal S1x81 .f32) (j : Fin 81) :
    step1 m c n h s (ix2 (0 : Fin 1) j) = s (ix2 (0 : Fin 1) j) + los m c n j := by
  unfold los; rw [dif_pos h]
  exact loss_step (iblk m c 0 ⟨n, h⟩) (iblk m c 1 ⟨n, h⟩) s j

/-- After tile j of core q the count accumulator holds the sum of the column sums of tiles 0 … j of that core. -/
theorem acc0_eq (q : ℕ) : ∀ (jj : ℕ) (hj : jj < 75) (h : 75 * q + jj < cfg0.N) (j : Fin 81),
    (outsAt0 m c (75 * q + jj) h).2.2.1 (ix2 (0 : Fin 1) j) = ∑ s ∈ Finset.range (jj + 1), cnt m c (75 * q + s) j
  | 0, _, h, j => by
    rw [(acc_first m c (75 * q + 0) h (by omega)).1, step0_apply, pay5_apply, zero_add, Finset.sum_range_one]
  | jj + 1, hj, h, j => by
    have h' : 75 * q + jj + 1 < cfg0.N := h
    have e := (acc_next m c (75 * q + jj) h' (by omega)).1
    show (outsAt0 m c (75 * q + jj + 1) h').2.2.1 (ix2 (0 : Fin 1) j) = _
    rw [e, step0_apply, acc0_eq q jj (by omega) (Nat.lt_of_succ_lt h') j, Finset.sum_range_succ _ (jj + 1)]
    rfl
/-- And the loss accumulator the same sum of the tiles' loss column sums. -/
theorem acc1_eq (q : ℕ) : ∀ (jj : ℕ) (hj : jj < 75) (h : 75 * q + jj < cfg0.N) (j : Fin 81),
    (outsAt0 m c (75 * q + jj) h).2.2.2 (ix2 (0 : Fin 1) j) = ∑ s ∈ Finset.range (jj + 1), los m c (75 * q + s) j
  | 0, _, h, j => by
    rw [(acc_first m c (75 * q + 0) h (by omega)).2, step1_apply, pay6_apply, zero_add, Finset.sum_range_one]
  | jj + 1, hj, h, j => by
    have h' : 75 * q + jj + 1 < cfg0.N := h
    have e := (acc_next m c (75 * q + jj) h' (by omega)).2
    show (outsAt0 m c (75 * q + jj + 1) h').2.2.2 (ix2 (0 : Fin 1) j) = _
    rw [e, step1_apply, acc1_eq q jj (by omega) (Nat.lt_of_succ_lt h') j, Finset.sum_range_succ _ (jj + 1)]
    rfl

/-! ### The output arrays after the run -/

theorem idx2 : ∀ t : Fin cfg0.N, win0_2.index t 0 = t.val / 75 ∧ win0_2.index t 1 = 0 ∧ win0_2.index t 2 = 0 :=
  (by decide +kernel : ∀ t : Fin grid0.N, win0_2.index t 0 = t.val / 75 ∧ win0_2.index t 1 = 0 ∧ win0_2.index t 2 = 0)
theorem idx3 : ∀ t : Fin cfg0.N, win0_3.index t 0 = t.val / 75 ∧ win0_3.index t 1 = 0 ∧ win0_3.index t 2 = 0 :=
  (by decide +kernel : ∀ t : Fin grid0.N, win0_3.index t 0 = t.val / 75 ∧ win0_3.index t 1 = 0 ∧ win0_3.index t 2 = 0)
theorem xs2 : ∀ t : Fin cfg0.N, win0_2.xsize (grid0.coords t) 0 = 1 ∧ win0_2.xsize (grid0.coords t) 1 = 1 ∧ win0_2.xsize (grid0.coords t) 2 = 81 :=
  (by decide +kernel : ∀ t : Fin grid0.N, win0_2.xsize (grid0.coords t) 0 = 1 ∧ win0_2.xsize (grid0.coords t) 1 = 1 ∧ win0_2.xsize (grid0.coords t) 2 = 81)
theorem xs3 : ∀ t : Fin cfg0.N, win0_3.xsize (grid0.coords t) 0 = 1 ∧ win0_3.xsize (grid0.coords t) 1 = 1 ∧ win0_3.xsize (grid0.coords t) 2 = 81 :=
  (by decide +kernel : ∀ t : Fin grid0.N, win0_3.xsize (grid0.coords t) 0 = 1 ∧ win0_3.xsize (grid0.coords t) 1 = 1 ∧ win0_3.xsize (grid0.coords t) 2 = 81)

/-- The class an index of a [2, 1, 81] array points at. -/
def colOf (i : S2x1x81.Idx) : Fin 81 := ⟨(i 2).val, (i 2).isLt⟩

/-- What output 0 (the counts) and output 1 (the losses) end holding: at (q, 0, k) the sum over core q's 75 tiles. -/
def G2 : Buf (Elt Ideal) ((c.tc : Thread nD τ).loc main_v10_0) :=
  (fun (i : S2x1x81.Idx) => (∑ s ∈ Finset.range 75, cnt m c (75 * (i 0).val + s) (colOf i) : EReal) : S2x1x81.Idx → EReal)
def G3 : Buf (Elt Ideal) ((c.tc : Thread nD τ).loc main_v10_1) :=
  (fun (i : S2x1x81.Idx) => (∑ s ∈ Finset.range 75, los m c (75 * (i 0).val + s) (colOf i) : EReal) : S2x1x81.Idx → EReal)

theorem same_pt (u : ℕ) (hu : u < cfg0.N) (t : Fin cfg0.N) (e : u = t.val) : outsAt0 m c u hu = outsAt0 m c t.val t.isLt := by
  subst e; rfl

/-- The write-back after a core's last tile writes that core's block of `G2`. -/
theorem flushed2 (t : Fin cfg0.N) (hf : (cfg0.win 2).flush t = true) :
    (dats m 0 c).flushed 2 t = ((cfg0.win 2).blk t).view.read (Elt Ideal) (G2 m c) := by
  have hN : cfg0.N = 150 := N_0
  have h74 : t.val % 75 = 74 := (flush0_2 t).mp hf
  have ht := t.isLt
  funext y
  rw [View.read_apply]
  show (cfg0.win 2).cut (grid0.coords t) ((dats m 0 c).after 2 t) y = _
  rw [after0_2, cast_eq, (out_last m c t.val t.isLt h74).1]
  have h0 : (y 0).val < win0_2.xsize (grid0.coords t) 0 := (y 0).isLt
  have h1 : (y 1).val < win0_2.xsize (grid0.coords t) 1 := (y 1).isLt
  have h2 : (y 2).val < win0_2.xsize (grid0.coords t) 2 := (y 2).isLt
  rw [(xs2 t).1] at h0; rw [(xs2 t).2.1] at h1; rw [(xs2 t).2.2] at h2
  have hz : (cfg0.win 2).xinj (grid0.coords t) y = ix3 (0 : Fin 1) (0 : Fin 1) (⟨(y 2).val, h2⟩ : Fin 81) :=
    funext fun a => Fin.ext (by
      match a with
      | ⟨0, _⟩ => show (y 0).val = 0; omega
      | ⟨1, _⟩ => show (y 1).val = 0; omega
      | ⟨2, _⟩ => rfl)
  show k0_pay3 _ ((cfg0.win 2).xinj (grid0.coords t) y) = _
  rw [hz, pay3_apply]
  have hq : 75 * (t.val / 75) + 74 = t.val := by omega
  have hlt : 75 * (t.val / 75) + 74 < cfg0.N := by omega
  rw [← same_pt m c (75 * (t.val / 75) + 74) hlt t hq, acc0_eq m c (t.val / 75) 74 (by omega) hlt]
  have he : ∀ a, ((((cfg0.win 2).blk t).view.emb y) a : Nat) = win0_2.index t a * win0_2.size a + (y a : Nat) :=
    fun a => Pipeline.Window.rect_emb_val win0_2 t y a
  have hs0 : win0_2.size 0 = 1 := rfl
  have hs2 : win0_2.size 2 = 81 := rfl
  have hi0 : ((((cfg0.win 2).blk t).view.emb y) 0).val = t.val / 75 := by
    have := he 0; rw [(idx2 t).1, hs0] at this; omega
  have hi2 : colOf (((cfg0.win 2).blk t).view.emb y) = (⟨(y 2).val, h2⟩ : Fin 81) := Fin.ext (by
    have := he 2; rw [(idx2 t).2.2, hs2] at this; show ((((cfg0.win 2).blk t).view.emb y) 2).val = (y 2).val; omega)
  show _ = (∑ s ∈ Finset.range 75, _ : EReal)
  rw [hi0, hi2]

/-- Every index of the output lies in the block written back after its core's last tile. -/
theorem cover2 (i : ((cfg0.win 2).arr.view.loc (c.tc : Thread nD τ)).2.ty.Idx) : ∃ t : Fin cfg0.N, (cfg0.win 2).flush t = true ∧ i ∈ ((cfg0.win 2).blk t).view.set := by
  have hN : cfg0.N = 150 := N_0
  have h0 : (i 0 : Nat) < 2 := (i 0).isLt
  have h1 : (i 1 : Nat) < 1 := (i 1).isLt
  have h2 : (i 2 : Nat) < 81 := (i 2).isLt
  have hlt : 75 * (i 0).val + 74 < cfg0.N := by omega
  refine ⟨⟨75 * (i 0).val + 74, hlt⟩, (flush0_2 _).mpr (by show (75 * (i 0).val + 74) % 75 = 74; omega), ?_⟩
  show i ∈ ((View.whole main_v10_0).slice (win0_2.rect ⟨75 * (i 0).val + 74, hlt⟩)).set
  rw [View.set_slice_whole, Rect.mem_set_unit]
  intro a
  have hs0 : win0_2.size 0 = 1 := rfl
  have hs1 : win0_2.size 1 = 1 := rfl
  have hs2 : win0_2.size 2 = 81 := rfl
  match a with
  | ⟨0, _⟩ =>
    show win0_2.index _ 0 * win0_2.size 0 ≤ (i 0 : Nat) ∧ (i 0 : Nat) < win0_2.index _ 0 * win0_2.size 0 + win0_2.xsize (grid0.coords _) 0
    rw [(idx2 _).1, (xs2 _).1, hs0]; show (75 * (i 0).val + 74) / 75 * 1 ≤ (i 0 : Nat) ∧ (i 0 : Nat) < (75 * (i 0).val + 74) / 75 * 1 + 1; omega
  | ⟨1, _⟩ =>
    show win0_2.index _ 1 * win0_2.size 1 ≤ (i 1 : Nat) ∧ (i 1 : Nat) < win0_2.index _ 1 * win0_2.size 1 + win0_2.xsize (grid0.coords _) 1
    rw [(idx2 _).2.1, (xs2 _).2.1, hs1]; omega
  | ⟨2, _⟩ =>
    show win0_2.index _ 2 * win0_2.size 2 ≤ (i 2 : Nat) ∧ (i 2 : Nat) < win0_2.index _ 2 * win0_2.size 2 + win0_2.xsize (grid0.coords _) 2
    rw [(idx2 _).2.2, (xs2 _).2.2, hs2]; omega

/-- So the output array ends holding `G2`. -/
theorem final2 : (dats m 0 c).arrAt 2 cfg0.N = G2 m c :=
  (dats m 0 c).arrAt_eq_of_cover 2 (G2 m c) (flushed2 m c) (cover2 c)

/-- The write-back after a core's last tile writes that core's block of `G3`. -/
theorem flushed3 (t : Fin cfg0.N) (hf : (cfg0.win 3).flush t = true) :
    (dats m 0 c).flushed 3 t = ((cfg0.win 3).blk t).view.read (Elt Ideal) (G3 m c) := by
  have hN : cfg0.N = 150 := N_0
  have h74 : t.val % 75 = 74 := (flush0_3 t).mp hf
  have ht := t.isLt
  funext y
  rw [View.read_apply]
  show (cfg0.win 3).cut (grid0.coords t) ((dats m 0 c).after 3 t) y = _
  rw [after0_3, cast_eq, (out_last m c t.val t.isLt h74).2]
  have h0 : (y 0).val < win0_3.xsize (grid0.coords t) 0 := (y 0).isLt
  have h1 : (y 1).val < win0_3.xsize (grid0.coords t) 1 := (y 1).isLt
  have h2 : (y 2).val < win0_3.xsize (grid0.coords t) 2 := (y 2).isLt
  rw [(xs3 t).1] at h0; rw [(xs3 t).2.1] at h1; rw [(xs3 t).2.2] at h2
  have hz : (cfg0.win 3).xinj (grid0.coords t) y = ix3 (0 : Fin 1) (0 : Fin 1) (⟨(y 2).val, h2⟩ : Fin 81) :=
    funext fun a => Fin.ext (by
      match a with
      | ⟨0, _⟩ => show (y 0).val = 0; omega
      | ⟨1, _⟩ => show (y 1).val = 0; omega
      | ⟨2, _⟩ => rfl)
  show k0_pay4 _ ((cfg0.win 3).xinj (grid0.coords t) y) = _
  rw [hz, pay4_apply]
  have hq : 75 * (t.val / 75) + 74 = t.val := by omega
  have hlt : 75 * (t.val / 75) + 74 < cfg0.N := by omega
  rw [← same_pt m c (75 * (t.val / 75) + 74) hlt t hq, acc1_eq m c (t.val / 75) 74 (by omega) hlt]
  have he : ∀ a, ((((cfg0.win 3).blk t).view.emb y) a : Nat) = win0_3.index t a * win0_3.size a + (y a : Nat) :=
    fun a => Pipeline.Window.rect_emb_val win0_3 t y a
  have hs0 : win0_3.size 0 = 1 := rfl
  have hs2 : win0_3.size 2 = 81 := rfl
  have hi0 : ((((cfg0.win 3).blk t).view.emb y) 0).val = t.val / 75 := by
    have := he 0; rw [(idx3 t).1, hs0] at this; omega
  have hi2 : colOf (((cfg0.win 3).blk t).view.emb y) = (⟨(y 2).val, h2⟩ : Fin 81) := Fin.ext (by
    have := he 2; rw [(idx3 t).2.2, hs2] at this; show ((((cfg0.win 3).blk t).view.emb y) 2).val = (y 2).val; omega)
  show _ = (∑ s ∈ Finset.range 75, _ : EReal)
  rw [hi0, hi2]

/-- Every index of the output lies in the block written back after its core's last tile. -/
theorem cover3 (i : ((cfg0.win 3).arr.view.loc (c.tc : Thread nD τ)).2.ty.Idx) : ∃ t : Fin cfg0.N, (cfg0.win 3).flush t = true ∧ i ∈ ((cfg0.win 3).blk t).view.set := by
  have hN : cfg0.N = 150 := N_0
  have h0 : (i 0 : Nat) < 2 := (i 0).isLt
  have h1 : (i 1 : Nat) < 1 := (i 1).isLt
  have h2 : (i 2 : Nat) < 81 := (i 2).isLt
  have hlt : 75 * (i 0).val + 74 < cfg0.N := by omega
  refine ⟨⟨75 * (i 0).val + 74, hlt⟩, (flush0_3 _).mpr (by show (75 * (i 0).val + 74) % 75 = 74; omega), ?_⟩
  show i ∈ ((View.whole main_v10_1).slice (win0_3.rect ⟨75 * (i 0).val + 74, hlt⟩)).set
  rw [View.set_slice_whole, Rect.mem_set_unit]
  intro a
  have hs0 : win0_3.size 0 = 1 := rfl
  have hs1 : win0_3.size 1 = 1 := rfl
  have hs2 : win0_3.size 2 = 81 := rfl
  match a with
  | ⟨0, _⟩ =>
    show win0_3.index _ 0 * win0_3.size 0 ≤ (i 0 : Nat) ∧ (i 0 : Nat) < win0_3.index _ 0 * win0_3.size 0 + win0_3.xsize (grid0.coords _) 0
    rw [(idx3 _).1, (xs3 _).1, hs0]; show (75 * (i 0).val + 74) / 75 * 1 ≤ (i 0 : Nat) ∧ (i 0 : Nat) < (75 * (i 0).val + 74) / 75 * 1 + 1; omega
  | ⟨1, _⟩ =>
    show win0_3.index _ 1 * win0_3.size 1 ≤ (i 1 : Nat) ∧ (i 1 : Nat) < win0_3.index _ 1 * win0_3.size 1 + win0_3.xsize (grid0.coords _) 1
    rw [(idx3 _).2.1, (xs3 _).2.1, hs1]; omega
  | ⟨2, _⟩ =>
    show win0_3.index _ 2 * win0_3.size 2 ≤ (i 2 : Nat) ∧ (i 2 : Nat) < win0_3.index _ 2 * win0_3.size 2 + win0_3.xsize (grid0.coords _) 2
    rw [(idx3 _).2.2, (xs3 _).2.2, hs2]; omega

/-- So the output array ends holding `G3`. -/
theorem final3 : (dats m 0 c).arrAt 3 cfg0.N = G3 m c :=
  (dats m 0 c).arrAt_eq_of_cover 3 (G3 m c) (flushed3 m c) (cover3 c)

end Cert.KernelIdeal.Region
end
-- ==== Proof.KHead.lean ====
/-
  The array the tiled program's kernel reads, row by row.

  Before the kernel starts, the scores are laid out as [613800, 81] (row n = batch n / 76725, anchor n % 76725),
  the label column targets[..., 4] as [613800, 1], the two are put side by side as [613800, 82], and 600 rows of
  81 zeros and a label -1 are appended, giving [614400, 82].  Column k < 81 of row n is therefore row n's score
  for class k (zero on a padding row) and column 81 is row n's label (-1 on a padding row).  The class weights
  are passed as a [1, 81] array.
-/
import proofs.«110382_j58110907515691_2_alg».proof.Proof.Gen.KernelIdeal.Frame
import proofs.«110382_j58110907515691_2_alg».proof.Proof.Rows
import Idealize.ShloMosaic.Lib.Pipeline.Value
import Idealize.ShloMosaic.Lib.StableHlo.Run
import Idealize.ShloMosaic.Lib.ValueIdx

noncomputable section

namespace Cert.KernelIdeal.Head

open Cert.KernelIdeal Cert.KernelIdeal.Gen Cert.Focal Idealize.ShloMosaic Idealize.ShloMosaic.ValueIdx

variable (m : (ℓ : Loc nD τ sig) → Buf (Elt Ideal) ℓ) (c : Dev nD)

/-- The class weights as the tiled program's [1, 81] array: alpha with a unit axis in front. -/
theorem v9_eq : (V m c main_v9 : S1x81.Idx → EReal)
    = shapeCast S1x81 (m ((c.tc : Thread nD τ).loc main_arg3) : S81.Idx → EReal) shapeCasts_S81_S1x81 := by
  show StableHlo.after hostOps0 (fun b => m (c, b)) (Proc.devRef .tc main_v9) = _
  after_results; rfl

theorem alpha_row (k : Fin 81) :
    V m c main_v9 (ix2 (0 : Fin 1) k) = alpha (m ((c.tc : Thread nD τ).loc main_arg3)) k := by
  show (V m c main_v9 : S1x81.Idx → EReal) (ix2 (0 : Fin 1) k) = _
  rw [v9_eq m c]
  unfold alpha
  exact shapeCast_apply _ shapeCasts_S81_S1x81 (ix2 (0 : Fin 1) k) (ix1 k)
    (by rw [Shape.rowMajor_val_one, Shape.rowMajor_val_two]; show k.val = 0 * 81 + k.val; omega)

/-! ### The pieces the padded array is glued from -/

/-- Row n of the scores laid out as [613800, 81] is row n's scores. -/
theorem confRows_apply (x1 : FVec Ideal S8x76725x81 .f32) (n : Fin 613800) (k : Fin 81) :
    shapeCast S613800x81 x1 shapeCasts_S8x76725x81_S613800x81 (ix2 n k) = conf x1 n k := by
  unfold conf
  have hn := n.isLt
  exact shapeCast_apply x1 shapeCasts_S8x76725x81_S613800x81 (ix2 n k) (ix3 (rowB n) (rowA n) k)
    (by rewrite [Shape.rowMajor_val_three, Shape.rowMajor_val_two]
        show ((n.val / 76725) * 76725 + n.val % 76725) * 81 + k.val = n.val * 81 + k.val
        omega)

/-- Row n of the label column (targets[..., 4:5] laid out as [613800, 1]) is row n's label. -/
theorem labCol_apply (x2 : FVec Ideal S8x76725x5 .f32) (n : Fin 613800) :
    shapeCast S613800x1
        (shapeCast S8x76725 (extractStridedSlice S8x76725x1 ![0, 0, 4] x2 slices_S8x76725x5_S8x76725x1_0_0_4)
          shapeCasts_S8x76725x1_S8x76725)
        shapeCasts_S8x76725_S613800x1 (ix2 n (0 : Fin 1)) = lab x2 n := by
  unfold lab
  have hn := n.isLt
  refine (shapeCast_apply _ shapeCasts_S8x76725_S613800x1 (ix2 n (0 : Fin 1)) (ix2 (rowB n) (rowA n)) ?_).trans ?_
  · rewrite [Shape.rowMajor_val_two, Shape.rowMajor_val_two]
    show (n.val / 76725) * 76725 + n.val % 76725 = n.val * 1 + 0
    omega
  refine (shapeCast_apply _ shapeCasts_S8x76725x1_S8x76725 (ix2 (rowB n) (rowA n)) (ix3 (rowB n) (rowA n) (0 : Fin 1)) ?_).trans ?_
  · rewrite [Shape.rowMajor_val_three, Shape.rowMajor_val_two]
    show ((n.val / 76725) * 76725 + n.val % 76725) * 1 + 0 = (n.val / 76725) * 76725 + n.val % 76725
    omega
  exact extractStridedSlice_apply ![0, 0, 4] x2 slices_S8x76725x5_S8x76725x1_0_0_4
    (ix3 (rowB n) (rowA n) (0 : Fin 1)) (ix3 (rowB n) (rowA n) (4 : Fin 5)) (fun a => match a with
      | ⟨0, _⟩ => by show n.val / 76725 = 0 + n.val / 76725; omega
      | ⟨1, _⟩ => by show n.val % 76725 = 0 + n.val % 76725; omega
      | ⟨2, _⟩ => rfl)

/-- The 613800 real rows: 81 scores, then the label. -/
def realRows (x1 : FVec Ideal S8x76725x81 .f32) (x2 : FVec Ideal S8x76725x5 .f32) : S613800x82.Idx → EReal :=
  concatenate S613800x82 1
    [⟨S613800x81, shapeCast S613800x81 x1 shapeCasts_S8x76725x81_S613800x81⟩,
     ⟨S613800x1, shapeCast S613800x1
        (shapeCast S8x76725 (extractStridedSlice S8x76725x1 ![0, 0, 4] x2 slices_S8x76725x5_S8x76725x1_0_0_4)
          shapeCasts_S8x76725x1_S8x76725)
        shapeCasts_S8x76725_S613800x1⟩]
    concatenates_S613800x81_S613800x1_S613800x82_d1

/-- The 600 padding rows: 81 zeros, then -1. -/
def padRows : S600x82.Idx → EReal :=
  concatenate S600x82 1
    [⟨S600x81, broadcastInDim S600x81 ![] bcast_S_S600x81 (constant (F := Ideal) S_ .f32 0x00000000#32)⟩,
     ⟨S600x1, broadcastInDim S600x1 ![] bcast_S_S600x1 (constant (F := Ideal) S_ .f32 0xBF800000#32)⟩]
    concatenates_S600x81_S600x1_S600x82_d1

theorem realRows_conf (x1 : FVec Ideal S8x76725x81 .f32) (x2 : FVec Ideal S8x76725x5 .f32) (n : Fin 613800) (k : Fin 81) :
    realRows x1 x2 (ix2 n (⟨k.val, by omega⟩ : Fin 82)) = conf x1 n k := by
  unfold realRows
  refine (concatenate_pair_apply_left _ _ _ concatenates_S613800x81_S613800x1_S613800x82_d1
    (ix2 n (⟨k.val, by omega⟩ : Fin 82)) rfl (ix2 n k) (fun b => match b with | ⟨0, _⟩ => rfl | ⟨1, _⟩ => rfl)).trans ?_
  exact confRows_apply x1 n k

theorem realRows_lab (x1 : FVec Ideal S8x76725x81 .f32) (x2 : FVec Ideal S8x76725x5 .f32) (n : Fin 613800) :
    realRows x1 x2 (ix2 n (⟨81, by decide⟩ : Fin 82)) = lab x2 n := by
  unfold realRows
  refine (concatenate_pair_apply_right _ _ _ concatenates_S613800x81_S613800x1_S613800x82_d1
    (ix2 n (⟨81, by decide⟩ : Fin 82)) rfl rfl (ix2 n (0 : Fin 1))
    (fun b => match b with | ⟨0, _⟩ => fun _ => rfl | ⟨1, _⟩ => fun hb => (hb rfl).elim) rfl).trans ?_
  exact labCol_apply x2 n

theorem padRows_conf (r : Fin 600) (k : Fin 81) : padRows (ix2 r (⟨k.val, by omega⟩ : Fin 82)) = zeroW := by
  unfold padRows
  refine (concatenate_pair_apply_left _ _ _ concatenates_S600x81_S600x1_S600x82_d1
    (ix2 r (⟨k.val, by omega⟩ : Fin 82)) rfl (ix2 r k) (fun b => match b with | ⟨0, _⟩ => rfl | ⟨1, _⟩ => rfl)).trans ?_
  exact broadcastInDim_apply _ bcast_S_S600x81 _ (ix2 r k) ix0 (fun a => a.elim0)

theorem padRows_lab (r : Fin 600) : padRows (ix2 r (⟨81, by decide⟩ : Fin 82)) = negOneW := by
  unfold padRows
  refine (concatenate_pair_apply_right _ _ _ concatenates_S600x81_S600x1_S600x82_d1
    (ix2 r (⟨81, by decide⟩ : Fin 82)) rfl rfl (ix2 r (0 : Fin 1))
    (fun b => match b with | ⟨0, _⟩ => fun _ => rfl | ⟨1, _⟩ => fun hb => (hb rfl).elim) rfl).trans ?_
  exact broadcastInDim_apply _ bcast_S_S600x1 _ (ix2 r (0 : Fin 1)) ix0 (fun a => a.elim0)

/-! ### The array the kernel's first window is cut from -/

/-- The padded [614400, 82] array: the real rows on top of the padding rows. -/
theorem v8_eq : (V m c main_v8 : S614400x82.Idx → EReal)
    = concatenate S614400x82 0
        [⟨S613800x82, realRows (m ((c.tc : Thread nD τ).loc main_arg1)) (m ((c.tc : Thread nD τ).loc main_arg2))⟩,
         ⟨S600x82, padRows⟩]
        concatenates_S613800x82_S600x82_S614400x82_d0 := by
  show StableHlo.after hostOps0 (fun b => m (c, b)) (Proc.devRef .tc main_v8) = _
  after_results; rfl

theorem cat_conf (n : Fin 614400) (k : Fin 81) :
    V m c main_v8 (ix2 n (⟨k.val, by omega⟩ : Fin 82)) = padConf (m ((c.tc : Thread nD τ).loc main_arg1)) n k := by
  show (V m c main_v8 : S614400x82.Idx → EReal) (ix2 n (⟨k.val, by omega⟩ : Fin 82)) = _
  rw [v8_eq m c]
  have hn := n.isLt
  unfold padConf
  by_cases h : n.val < 613800
  · rw [dif_pos h]
    refine (concatenate_pair_apply_left _ _ _ concatenates_S613800x82_S600x82_S614400x82_d0
      (ix2 n (⟨k.val, by omega⟩ : Fin 82)) rfl (ix2 (⟨n.val, h⟩ : Fin 613800) (⟨k.val, by omega⟩ : Fin 82))
      (fun b => match b with | ⟨0, _⟩ => rfl | ⟨1, _⟩ => rfl)).trans ?_
    exact realRows_conf _ _ ⟨n.val, h⟩ k
  · rw [dif_neg h]
    refine (concatenate_pair_apply_right _ _ _ concatenates_S613800x82_S600x82_S614400x82_d0
      (ix2 n (⟨k.val, by omega⟩ : Fin 82)) rfl rfl (ix2 (⟨n.val - 613800, by omega⟩ : Fin 600) (⟨k.val, by omega⟩ : Fin 82))
      (fun b => match b with | ⟨0, _⟩ => fun hb => (hb rfl).elim | ⟨1, _⟩ => fun _ => rfl)
      (by show (n.val - 613800) + 613800 = n.val; omega)).trans ?_
    exact padRows_conf ⟨n.val - 613800, by omega⟩ k

theorem cat_lab (n : Fin 614400) :
    V m c main_v8 (ix2 n (⟨81, by decide⟩ : Fin 82)) = padLab (m ((c.tc : Thread nD τ).loc main_arg2)) n := by
  show (V m c main_v8 : S614400x82.Idx → EReal) (ix2 n (⟨81, by decide⟩ : Fin 82)) = _
  rw [v8_eq m c]
  have hn := n.isLt
  unfold padLab
  by_cases h : n.val < 613800
  · rw [dif_pos h]
    refine (concatenate_pair_apply_left _ _ _ concatenates_S613800x82_S600x82_S614400x82_d0
      (ix2 n (⟨81, by decide⟩ : Fin 82)) rfl (ix2 (⟨n.val, h⟩ : Fin 613800) (⟨81, by decide⟩ : Fin 82))
      (fun b => match b with | ⟨0, _⟩ => rfl | ⟨1, _⟩ => rfl)).trans ?_
    exact realRows_lab _ _ ⟨n.val, h⟩
  · rw [dif_neg h]
    refine (concatenate_pair_apply_right _ _ _ concatenates_S613800x82_S600x82_S614400x82_d0
      (ix2 n (⟨81, by decide⟩ : Fin 82)) rfl rfl (ix2 (⟨n.val - 613800, by omega⟩ : Fin 600) (⟨81, by decide⟩ : Fin 82))
      (fun b => match b with | ⟨0, _⟩ => fun hb => (hb rfl).elim | ⟨1, _⟩ => fun _ => rfl)
      (by show (n.val - 613800) + 613800 = n.val; omega)).trans ?_
    exact padRows_lab ⟨n.val - 613800, by omega⟩

end Cert.KernelIdeal.Head

end
-- ==== Proof.KTile.lean ====
/-
  What the tiled program's two input windows hold at a grid point, in the vocabulary of the rows.

  The grid has 150 points; point t = 75·q + jj is tile jj of core q.  The first window's block at t is rows
  4096·t … 4096·t + 4095 of the padded [614400, 82] array, so its row r is padded row (q·75 + jj)·4096 + r: 81
  scores and the label.  The second window's block is the whole [1, 81] array of class weights at every point.
  Hence the column sums of a tile's per-row terms are the per-tile totals of the padded rows.
-/
import proofs.«110382_j58110907515691_2_alg».proof.Proof.KHead
import proofs.«110382_j58110907515691_2_alg».proof.Proof.KPayload
import Idealize.ShloMosaic.Lib.Pipeline.Value

noncomputable section

namespace Cert.KernelIdeal.Tile

open Cert.KernelIdeal Cert.KernelIdeal.Gen Cert.KernelIdeal.Payload Cert.Focal Idealize.ShloMosaic Idealize.ShloMosaic.ValueIdx

variable (m : (ℓ : Loc nD τ sig) → Buf (Elt Ideal) ℓ) (c : Dev nD)

/-- The first window's block at point t is block row t, block column 0. -/
theorem idx0 : ∀ t : Fin cfg0.N, win0_0.index t 0 = t.val ∧ win0_0.index t 1 = 0 :=
  (by decide +kernel : ∀ t : Fin grid0.N, win0_0.index t 0 = t.val ∧ win0_0.index t 1 = 0)

/-- The second window's block is block (0, 0) at every point. -/
theorem idx1 : ∀ t : Fin cfg0.N, win0_1.index t 0 = 0 ∧ win0_1.index t 1 = 0 :=
  (by decide +kernel : ∀ t : Fin grid0.N, win0_1.index t 0 = 0 ∧ win0_1.index t 1 = 0)

/-- The first window's block at point t is rows 4096·t … 4096·t + 4095 of the padded array. -/
theorem iblk0_apply (t : Fin cfg0.N) (x : S4096x82.Idx) (k : S614400x82.Idx)
    (hk0 : (k 0).val = 4096 * t.val + (x 0).val) (hk1 : (k 1).val = (x 1).val) :
    (iblk m c 0 t : Vec Ideal S4096x82 .f32) x = V m c main_v8 k := by
  unfold iblk
  rw [View.read_apply]
  show V m c main_v8 _ = V m c main_v8 k
  refine congrArg (V m c main_v8) ?_
  funext a
  apply Fin.ext
  match a with
  | ⟨0, _⟩ => show win0_0.index t 0 * 4096 + 1 * (x 0).val = (k 0).val; rw [(idx0 t).1, hk0]; omega
  | ⟨1, _⟩ => show win0_0.index t 1 * 82 + 1 * (x 1).val = (k 1).val; rw [(idx0 t).2, hk1]; omega

/-- The second window's block at any point is the whole array of class weights. -/
theorem iblk1_apply (t : Fin cfg0.N) (x : S1x81.Idx) :
    (iblk m c 1 t : Vec Ideal S1x81 .f32) x = V m c main_v9 x := by
  unfold iblk
  rw [View.read_apply]
  show V m c main_v9 _ = V m c main_v9 x
  refine congrArg (V m c main_v9) ?_
  funext a
  apply Fin.ext
  match a with
  | ⟨0, _⟩ => show win0_1.index t 0 * 1 + 1 * (x 0).val = (x 0).val; rw [(idx1 t).1]; omega
  | ⟨1, _⟩ => show win0_1.index t 1 * 81 + 1 * (x 1).val = (x 1).val; rw [(idx1 t).2]; omega

/-- Row r of tile jj of core q carries padded row (q·75 + jj)·4096 + r's label. -/
theorem tile_label (t : Fin cfg0.N) (q : Fin 2) (jj : Fin 75) (ht : t.val = 75 * q.val + jj.val) (r : Fin 4096) :
    tLabel (iblk m c 0 t) r = padLab (m ((c.tc : Thread nD τ).loc main_arg2)) (tileRow q jj r) := by
  have hN : cfg0.N = 150 := N_0
  have htl := t.isLt
  have hr := r.isLt
  unfold tLabel
  refine (iblk0_apply m c t (ix2 r (⟨81, by decide⟩ : Fin 82))
    (ix2 (⟨4096 * t.val + r.val, by omega⟩ : Fin 614400) (⟨81, by decide⟩ : Fin 82)) rfl rfl).trans ?_
  refine (Head.cat_lab m c ⟨4096 * t.val + r.val, by omega⟩).trans ?_
  exact congrArg (padLab _) (Fin.ext (by
    show 4096 * t.val + r.val = (q.val * 75 + jj.val) * 4096 + r.val
    omega))

/-- … and its 81 scores. -/
theorem tile_scores (t : Fin cfg0.N) (q : Fin 2) (jj : Fin 75) (ht : t.val = 75 * q.val + jj.val) (r : Fin 4096)
    (k : Fin 81) :
    tScores (iblk m c 0 t) r k = padConf (m ((c.tc : Thread nD τ).loc main_arg1)) (tileRow q jj r) k := by
  have hN : cfg0.N = 150 := N_0
  have htl := t.isLt
  have hr := r.isLt
  unfold tScores
  refine (iblk0_apply m c t (ix2 r (⟨k.val, by omega⟩ : Fin 82))
    (ix2 (⟨4096 * t.val + r.val, by omega⟩ : Fin 614400) (⟨k.val, by omega⟩ : Fin 82)) rfl rfl).trans ?_
  refine (Head.cat_conf m c ⟨4096 * t.val + r.val, by omega⟩ k).trans ?_
  exact congrArg (fun n => padConf _ n k) (Fin.ext (by
    show 4096 * t.val + r.val = (q.val * 75 + jj.val) * 4096 + r.val
    omega))

/-- The class weights a tile sees are alpha. -/
theorem tile_alpha (t : Fin cfg0.N) (k : Fin 81) :
    tAlpha (iblk m c 1 t) k = alpha (m ((c.tc : Thread nD τ).loc main_arg3)) k := by
  unfold tAlpha
  exact (iblk1_apply m c t (ix2 (0 : Fin 1) k)).trans (Head.alpha_row m c k)

theorem tile_alpha_fun (t : Fin cfg0.N) :
    tAlpha (iblk m c 1 t) = alpha (m ((c.tc : Thread nD τ).loc main_arg3)) :=
  funext fun k => tile_alpha m c t k

theorem tile_scores_fun (t : Fin cfg0.N) (q : Fin 2) (jj : Fin 75) (ht : t.val = 75 * q.val + jj.val) (r : Fin 4096) :
    tScores (iblk m c 0 t) r = padConf (m ((c.tc : Thread nD τ).loc main_arg1)) (tileRow q jj r) :=
  funext fun k => tile_scores m c t q jj ht r k

/-- The column sums of a tile's per-row class weights are the tile's count totals over the padded rows. -/
theorem tile_count (t : Fin cfg0.N) (q : Fin 2) (jj : Fin 75) (ht : t.val = 75 * q.val + jj.val) (j : Fin 81) :
    (∑ r : Fin 4096, kOnehot (tLabel (iblk m c 0 t) r) (tAlpha (iblk m c 1 t)) j)
      = tileOnehot (m ((c.tc : Thread nD τ).loc main_arg2)) (m ((c.tc : Thread nD τ).loc main_arg3)) q jj j := by
  unfold tileOnehot
  refine Finset.sum_congr rfl fun r _ => ?_
  rw [tile_label m c t q jj ht r, tile_alpha_fun m c t]

/-- The column sums of a tile's per-row loss entries are the tile's loss totals over the padded rows. -/
theorem tile_loss (t : Fin cfg0.N) (q : Fin 2) (jj : Fin 75) (ht : t.val = 75 * q.val + jj.val) (j : Fin 81) :
    (∑ r : Fin 4096, kElem (tScores (iblk m c 0 t) r) (tLabel (iblk m c 0 t) r) (tAlpha (iblk m c 1 t)) j)
      = tileLoss (m ((c.tc : Thread nD τ).loc main_arg1)) (m ((c.tc : Thread nD τ).loc main_arg2))
          (m ((c.tc : Thread nD τ).loc main_arg3)) q jj j := by
  unfold tileLoss
  refine Finset.sum_congr rfl fun r _ => ?_
  rw [tile_scores_fun m c t q jj ht r, tile_label m c t q jj ht r, tile_alpha_fun m c t]

end Cert.KernelIdeal.Tile

end
-- ==== Proof.KConf.lean ====
/-
  The two output arrays, class by class, in the vocabulary of the rows: core q's block of the counts holds at class j the
  sum over the core's 75 tiles of the tile's count total, and the two cores' blocks add up to the total over all padded
  rows; likewise the losses.
-/
import proofs.«110382_j58110907515691_2_alg».proof.Proof.KSums
import proofs.«110382_j58110907515691_2_alg».proof.Proof.KTile

noncomputable section

open Idealize.ShloMosaic Idealize.ShloMosaic.TcCoe Idealize.SL.Sem
open Idealize.ShloMosaic.Pipeline (Dat)

namespace Cert.KernelIdeal.Region

open Cert.KernelIdeal Cert.KernelIdeal.Gen Cert.KernelIdeal.Payload Cert.Focal Idealize.ShloMosaic.ValueIdx

variable (m : (ℓ : Loc nD τ sig) → Buf (Elt Ideal) ℓ) (c : Dev nD)

/-- The two final arrays as vectors of extended reals (the same functions, at the vector type). -/
abbrev G2v : FVec Ideal S2x1x81 .f32 := G2 m c
abbrev G3v : FVec Ideal S2x1x81 .f32 := G3 m c

/-- Core q's block of the count output holds, at class j, the sum over the core's tiles of the tile's count total. -/
theorem G2_apply (q : Fin 2) (j : Fin 81) :
    G2 m c (ix3 q (0 : Fin 1) j) = ∑ jj : Fin 75, tileOnehot (m ((c.tc : Thread nD τ).loc main_arg2)) (m ((c.tc : Thread nD τ).loc main_arg3)) q jj j := by
  have hN : cfg0.N = 150 := N_0
  show (∑ s ∈ Finset.range 75, cnt m c (75 * q.val + s) j : EReal) = _
  rw [Finset.sum_range]
  refine Finset.sum_congr rfl fun jj _ => ?_
  have hlt : 75 * q.val + jj.val < cfg0.N := by have := q.isLt; have := jj.isLt; omega
  unfold cnt
  rw [dif_pos hlt]
  exact Tile.tile_count m c ⟨75 * q.val + jj.val, hlt⟩ q jj rfl j

/-- The two cores' count blocks together hold the count total over all padded rows. -/
theorem G2_total (j : Fin 81) :
    G2v m c (ix3 (0 : Fin 2) (0 : Fin 1) j) + G2v m c (ix3 (1 : Fin 2) (0 : Fin 1) j) = kTotOnehot (m ((c.tc : Thread nD τ).loc main_arg2)) (m ((c.tc : Thread nD τ).loc main_arg3)) j := by
  dsimp only [G2v]
  rw [G2_apply, G2_apply]
  unfold kTotOnehot
  rw [Fin.sum_univ_two]

/-- Core q's block of the loss output holds, at class j, the sum over the core's tiles of the tile's loss total. -/
theorem G3_apply (q : Fin 2) (j : Fin 81) :
    G3 m c (ix3 q (0 : Fin 1) j) = ∑ jj : Fin 75, tileLoss (m ((c.tc : Thread nD τ).loc main_arg1)) (m ((c.tc : Thread nD τ).loc main_arg2)) (m ((c.tc : Thread nD τ).loc main_arg3)) q jj j := by
  have hN : cfg0.N = 150 := N_0
  show (∑ s ∈ Finset.range 75, los m c (75 * q.val + s) j : EReal) = _
  rw [Finset.sum_range]
  refine Finset.sum_congr rfl fun jj _ => ?_
  have hlt : 75 * q.val + jj.val < cfg0.N := by have := q.isLt; have := jj.isLt; omega
  unfold los
  rw [dif_pos hlt]
  exact Tile.tile_loss m c ⟨75 * q.val + jj.val, hlt⟩ q jj rfl j

/-- The two cores' loss blocks together hold the loss total over all padded rows. -/
theorem G3_total (j : Fin 81) :
    G3v m c (ix3 (0 : Fin 2) (0 : Fin 1) j) + G3v m c (ix3 (1 : Fin 2) (0 : Fin 1) j) = kTotLoss (m ((c.tc : Thread nD τ).loc main_arg1)) (m ((c.tc : Thread nD τ).loc main_arg2)) (m ((c.tc : Thread nD τ).loc main_arg3)) j := by
  dsimp only [G3v]
  rw [G3_apply, G3_apply]
  unfold kTotLoss
  rw [Fin.sum_univ_two]

end Cert.KernelIdeal.Region
end
-- ==== Proof.KValue.lean ====
/-
  The tiled program's classification loss: what the host operations after the kernel launch compute from the two output
  arrays is the loss over the per-class totals of all padded rows.
-/
import proofs.«110382_j58110907515691_2_alg».proof.Proof.KConf
import proofs.«110382_j58110907515691_2_alg».proof.Proof.KRun
import proofs.«110382_j58110907515691_2_alg».proof.Proof.KTail

noncomputable section

open Idealize.ShloMosaic Idealize.ShloMosaic.TcCoe Idealize.SL.Sem
open Idealize.ShloMosaic.Pipeline (Dat)

namespace Cert.KernelIdeal.Region

open Cert.KernelIdeal Cert.KernelIdeal.Gen Cert.Focal Idealize.ShloMosaic.ValueIdx

variable (m : (ℓ : Loc nD τ sig) → Buf (Elt Ideal) ℓ) (c : Dev nD)

theorem kernel_conf :
    TL m c main_v17 = fun _ => confLoss (kTotOnehot (m ((c.tc : Thread nD τ).loc main_arg2)) (m ((c.tc : Thread nD τ).loc main_arg3))) (kTotLoss (m ((c.tc : Thread nD τ).loc main_arg1)) (m ((c.tc : Thread nD τ).loc main_arg2)) (m ((c.tc : Thread nD τ).loc main_arg3))) := by
  have e2 : Tail.out2 m c = G2v m c := final2 m c
  have e3 : Tail.out3 m c = G3v m c := final3 m c
  refine (Tail.tail_conf m c).trans ?_
  rw [e2, e3]
  funext _
  exact congrArg₂ confLoss (funext fun j => G2_total m c j) (funext fun j => G3_total m c j)

end Cert.KernelIdeal.Region
end
-- ==== Proof.RefRunV58.lean ====
/-
  The reference's result `main_v58`, after its 98 host operations run from ANY buffer contents `V`, is the last stage of
  the read-at-an-index ladder applied to `V`'s contents of the arguments: the operations' results are composed (each
  typed reference's cast, an identity, removed as it appears), and the two composed terms are one.
-/
import proofs.«110382_j58110907515691_2_alg».proof.Proof.RefRun
import proofs.«110382_j58110907515691_2_alg».proof.Proof.RefRead

noncomputable section

namespace Cert.ReferenceIdeal.RunV

open Cert.ReferenceIdeal Cert.ReferenceIdeal.Gen Cert.ReferenceIdeal.ValueP Cert.ReferenceIdeal.ReadP
open Idealize.ShloMosaic Idealize.ShloMosaic.TcCoe Idealize.SL.Sem Idealize.ShloMosaic.StableHlo

variable {F : FTy → Type} [FloatOps F]

set_option maxRecDepth 65536 in
set_option maxHeartbeats 40000000 in
theorem v58_val (V : Valuation τ sig (Elt F)) :
    after (ops (F := F)) V (Proc.tc.devRef main_v58)
      = val_main_v58 (F := F) (V (Proc.tc.devRef main_arg0)) (V (Proc.tc.devRef main_arg2)) := by
  simp (disch := decide) only [after_cons, after_nil, nullary_result', unary_result', binary_result', ternary_result', quaternary_result', reshape_result', nary4_result', nary_result', unaryIndexed_result', binaryIndexed_result', nullary_result_ne', unary_result_ne', binary_result_ne', ternary_result_ne', quaternary_result_ne', reshape_result_ne', nary_result_ne', unaryIndexed_result_ne', binaryIndexed_result_ne', cast_eq]
  rfl

theorem v58_eq (m : (ℓ : Loc nD τ sig) → Buf (Elt F) ℓ) (c : Dev nD) :
    after (ops (F := F)) (launchContents m c) (Proc.tc.devRef main_v58)
      = val_main_v58 (F := F) (launchContents m c (Proc.tc.devRef main_arg0)) (launchContents m c (Proc.tc.devRef main_arg2)) :=
  v58_val (launchContents m c)

end Cert.ReferenceIdeal.RunV

end
-- ==== Proof.RefRunV33.lean ====
/-
  The reference's result `main_v33`, after its 98 host operations run from ANY buffer contents `V`, is the last stage of
  the read-at-an-index ladder applied to `V`'s contents of the arguments: the operations' results are composed (each
  typed reference's cast, an identity, removed as it appears), and the two composed terms are one.
-/
import proofs.«110382_j58110907515691_2_alg».proof.Proof.RefRun
import proofs.«110382_j58110907515691_2_alg».proof.Proof.RefRead

noncomputable section

namespace Cert.ReferenceIdeal.RunV

open Cert.ReferenceIdeal Cert.ReferenceIdeal.Gen Cert.ReferenceIdeal.ValueP Cert.ReferenceIdeal.ReadP
open Idealize.ShloMosaic Idealize.ShloMosaic.TcCoe Idealize.SL.Sem Idealize.ShloMosaic.StableHlo

variable {F : FTy → Type} [FloatOps F]

set_option maxRecDepth 65536 in
set_option maxHeartbeats 40000000 in
theorem v33_val (V : Valuation τ sig (Elt F)) :
    after (ops (F := F)) V (Proc.tc.devRef main_v33)
      = val_main_v33 (F := F) (V (Proc.tc.devRef main_arg1)) (V (Proc.tc.devRef main_arg2)) (V (Proc.tc.devRef main_arg3)) := by
  simp (disch := decide) only [after_cons, after_nil, nullary_result', unary_result', binary_result', ternary_result', quaternary_result', reshape_result', nary4_result', nary_result', unaryIndexed_result', binaryIndexed_result', nullary_result_ne', unary_result_ne', binary_result_ne', ternary_result_ne', quaternary_result_ne', reshape_result_ne', nary_result_ne', unaryIndexed_result_ne', binaryIndexed_result_ne', cast_eq]
  rfl

theorem v33_eq (m : (ℓ : Loc nD τ sig) → Buf (Elt F) ℓ) (c : Dev nD) :
    after (ops (F := F)) (launchContents m c) (Proc.tc.devRef main_v33)
      = val_main_v33 (F := F) (launchContents m c (Proc.tc.devRef main_arg1)) (launchContents m c (Proc.tc.devRef main_arg2)) (launchContents m c (Proc.tc.devRef main_arg3)) :=
  v33_val (launchContents m c)

end Cert.ReferenceIdeal.RunV

end
-- ==== Proof.RefRunV.lean ====
/-
  The reference's run: every weakly fair execution of its 98 host operations terminates with the two results at the last
  stages of the read-at-an-index ladder (RefRead.lean) applied to the arguments' launch contents, the arguments unchanged.
-/
import proofs.«110382_j58110907515691_2_alg».proof.Proof.RefRunV58
import proofs.«110382_j58110907515691_2_alg».proof.Proof.RefRunV33

noncomputable section

namespace Cert.ReferenceIdeal.RunV

open Cert.ReferenceIdeal Cert.ReferenceIdeal.Gen Cert.ReferenceIdeal.ValueP Cert.ReferenceIdeal.ReadP
open Idealize.ShloMosaic Idealize.ShloMosaic.TcCoe Idealize.SL.Sem Idealize.ShloMosaic.StableHlo

variable {F : FTy → Type} [FloatOps F]

set_option maxRecDepth 65536 in
set_option maxHeartbeats 40000000 in
theorem run (m : (ℓ : Loc nD τ sig) → Buf (Elt F) ℓ) (ρ : Dev nD → PrngReg) :
    θ_run defs (onTc (τ := τ) (main (F := F))) ⟨m, fun _ => 0, ρ⟩ fun r => ∀ c : Dev nD,
      r.2.mem ((c.tc : Thread nD τ).loc main_v58) = val_main_v58 (F := F) (m ((c.tc : Thread nD τ).loc main_arg0)) (m ((c.tc : Thread nD τ).loc main_arg2))
      ∧ r.2.mem ((c.tc : Thread nD τ).loc main_v33) = val_main_v33 (F := F) (m ((c.tc : Thread nD τ).loc main_arg1)) (m ((c.tc : Thread nD τ).loc main_arg2)) (m ((c.tc : Thread nD τ).loc main_arg3))
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3) :=
  (θ_run defs _ _).mono (fun _ h c => ⟨(h c main_v58).trans (v58_eq m c), (h c main_v33).trans (v33_eq m c),
      (h c main_arg0).trans (by after_results_simp <;> rfl),
      (h c main_arg1).trans (by after_results_simp <;> rfl),
      (h c main_arg2).trans (by after_results_simp <;> rfl),
      (h c main_arg3).trans (by after_results_simp <;> rfl)⟩)
    (run_seq scopedRefs_eq scopedSems_eq defs main (fun _ => ops) main_eq (fun _ => ops_sub) m ρ)

end Cert.ReferenceIdeal.RunV

end
-- ==== Proof.Assemble.lean ====
/-
  The two programs compute the same two losses.

  Both results of the tiled program are read as functions of the argument arrays: the classification loss is
  ∑ⱼ loss j / max 1 (count j) with the per-class totals taken core by core, tile by tile over the padded rows and
  validity decided on the float label; the box loss is the smooth-L1 sum over the positive rows divided by
  max (4 · #positive) 1.  The reference computes the same two expressions row by row with the label truncated to a
  32-bit integer.  Under the precondition every label is an integer value and every score is finite, so the float
  and the integer decisions agree row by row, a padding row adds 0, and regrouping a finite sum of extended reals
  by cores and tiles does not change it: the totals, hence both losses, are equal.
-/
import proofs.«110382_j58110907515691_2_alg».proof.Defs
import proofs.«110382_j58110907515691_2_alg».proof.Proof.Gen.Kernel
import proofs.«110382_j58110907515691_2_alg».proof.Proof.Gen.Kernel.Frame
import proofs.«110382_j58110907515691_2_alg».proof.Proof.Gen.KernelIdeal
import proofs.«110382_j58110907515691_2_alg».proof.Proof.Gen.KernelIdeal.Frame
import proofs.«110382_j58110907515691_2_alg».proof.Proof.Gen.ReferenceIdeal
import proofs.«110382_j58110907515691_2_alg».proof.Proof.Gen.Pre_finite_inputs
import proofs.«110382_j58110907515691_2_alg».proof.Proof.RefRead
import proofs.«110382_j58110907515691_2_alg».proof.Proof.RowSpec
import proofs.«110382_j58110907515691_2_alg».proof.Proof.Rows
import proofs.«110382_j58110907515691_2_alg».proof.Proof.Bridge
import proofs.«110382_j58110907515691_2_alg».proof.Proof.PreFacts
import proofs.«110382_j58110907515691_2_alg».proof.Proof.RefSide
import proofs.«110382_j58110907515691_2_alg».proof.Proof.KRun
import proofs.«110382_j58110907515691_2_alg».proof.Proof.KTail
import proofs.«110382_j58110907515691_2_alg».proof.Proof.KValue
import proofs.«110382_j58110907515691_2_alg».proof.Proof.RefRunV
import Idealize.ShloMosaic.Adequacy
import Idealize.ShloMosaic.Init

noncomputable section

open Idealize.ShloMosaic Idealize.ShloMosaic.TcCoe Idealize.SL.Sem

namespace Cert.Proof.Assemble

open Cert.Focal Idealize.ShloMosaic.ValueIdx

/-! ## The two results, kernel against reference, on the same argument arrays -/

section Values
open Cert.KernelIdeal Cert.KernelIdeal.Gen

variable (m : (ℓ : Loc nD τ sig) → Buf (Elt Ideal) ℓ) (c : Dev nD)

/-- The box loss: for the same positivity mask the two programs apply the same operations. -/
theorem loc_same (p : IVec S613800 1) (x0 : FVec Ideal S8x76725x4 .f32) (x2 : FVec Ideal S8x76725x5 .f32) :
    Cert.ReferenceIdeal.Side.rLocTerm p x0 x2 = Cert.KernelIdeal.Tail.locTerm p x0 x2 := by
  unfold Cert.ReferenceIdeal.Side.rLocTerm Cert.KernelIdeal.Tail.locTerm Cert.KernelIdeal.Tail.locTail Cert.KernelIdeal.Tail.absDiff
  rfl

/-- The box loss: the reference's mask (label truncated, > 0) is the kernel's (float label > 0) on integer labels. -/
theorem loc_eq
    (hpre : Cert.Pre_finite_inputs.fn (F := Ideal) (m ((c.tc : Thread nD τ).loc main_arg0)) (m ((c.tc : Thread nD τ).loc main_arg1)) (m ((c.tc : Thread nD τ).loc main_arg2)) (m ((c.tc : Thread nD τ).loc main_arg3)) = fun _ => 1#1) :
    Cert.ReferenceIdeal.ReadP.val_main_v58 (F := Ideal) (m ((c.tc : Thread nD τ).loc main_arg0)) (m ((c.tc : Thread nD τ).loc main_arg2))
      = Cert.KernelIdeal.Region.TL m c main_v48 := by
  refine (Cert.ReferenceIdeal.Side.ref_loc _ _).trans ?_
  refine Eq.trans ?_ (Cert.KernelIdeal.Tail.tail_loc m c).symm
  have hmask : Cert.ReferenceIdeal.ReadP.val_main_v35 (F := Ideal) (m ((c.tc : Thread nD τ).loc main_arg2))
      = Cert.KernelIdeal.Tail.posMask (m ((c.tc : Thread nD τ).loc main_arg2)) := by
    funext i
    obtain ⟨n, rfl⟩ : ∃ n : Fin 613800, i = ix1 n := ⟨i 0, eq_ix1 i⟩
    rw [Cert.ReferenceIdeal.Side.ref_pos, Cert.KernelIdeal.Tail.posMask_apply]
    exact (kPos_eq (pre_int_label _ _ _ _ hpre n)).symm
  rw [hmask]
  exact loc_same _ _ _

/-- The classification loss: the tiled totals over the padded rows are the row-by-row totals. -/
theorem conf_eq
    (hpre : Cert.Pre_finite_inputs.fn (F := Ideal) (m ((c.tc : Thread nD τ).loc main_arg0)) (m ((c.tc : Thread nD τ).loc main_arg1)) (m ((c.tc : Thread nD τ).loc main_arg2)) (m ((c.tc : Thread nD τ).loc main_arg3)) = fun _ => 1#1) :
    Cert.ReferenceIdeal.ReadP.val_main_v33 (F := Ideal) (m ((c.tc : Thread nD τ).loc main_arg1)) (m ((c.tc : Thread nD τ).loc main_arg2)) (m ((c.tc : Thread nD τ).loc main_arg3))
      = Cert.KernelIdeal.Region.TL m c main_v17 := by
  rw [Cert.ReferenceIdeal.Side.ref_conf, Cert.KernelIdeal.Region.kernel_conf]
  have hint := pre_int_label _ _ _ _ hpre
  have hfin := pre_finite_conf _ _ _ _ hpre
  have h1 : totOnehot (m ((c.tc : Thread nD τ).loc main_arg2)) (m ((c.tc : Thread nD τ).loc main_arg3)) = kTotOnehot (m ((c.tc : Thread nD τ).loc main_arg2)) (m ((c.tc : Thread nD τ).loc main_arg3)) :=
    funext fun j => (kTotOnehot_eq _ _ j hint).symm
  have h2 : totLoss (m ((c.tc : Thread nD τ).loc main_arg1)) (m ((c.tc : Thread nD τ).loc main_arg2)) (m ((c.tc : Thread nD τ).loc main_arg3))
      = kTotLoss (m ((c.tc : Thread nD τ).loc main_arg1)) (m ((c.tc : Thread nD τ).loc main_arg2)) (m ((c.tc : Thread nD τ).loc main_arg3)) :=
    funext fun j => (kTotLoss_eq _ _ _ j hint hfin).symm
  rw [h1, h2]
  rfl

end Values

/-! ## The claims -/

theorem frame_k : Cert.frame_Kernel := fun m ρ _ => Cert.Kernel.Gen.frame m ρ
theorem frame_ki : Cert.frame_KernelIdeal := fun m ρ _ => Cert.KernelIdeal.Gen.frame m ρ
theorem frame_ri : Cert.frame_ReferenceIdeal := fun m ρ _ =>
  (θ_run Cert.ReferenceIdeal.defs _ _).mono (fun _ h c => (h c).2.2) (Cert.ReferenceIdeal.RunV.run (F := Ideal) m ρ)
theorem preserves : Cert.preserves_Kernel_KernelIdeal := trivial

/-- From argument arrays that agree, both programs run and end with equal results. -/
theorem algebraic : Cert.algebraic_KernelIdeal_ReferenceIdeal := by
  intro m ρ m' ρ' hpre hagree
  refine ⟨fun c => Cert.KernelIdeal.Region.TL m c Cert.KernelIdeal.main_v48,
    fun c => Cert.KernelIdeal.Region.TL m c Cert.KernelIdeal.main_v17, Cert.KernelIdeal.Region.kernel_run m ρ, ?_⟩
  refine (θ_run Cert.ReferenceIdeal.defs _ _).mono (fun _ h c => ⟨(h c).1.trans ?_, (h c).2.1.trans ?_, (h c).2.2⟩)
    (Cert.ReferenceIdeal.RunV.run (F := Ideal) m' ρ')
  · rw [(hagree c).1, (hagree c).2.2.1]
    exact loc_eq m c (hpre c)
  · rw [(hagree c).2.1, (hagree c).2.2.1, (hagree c).2.2.2]
    exact conf_eq m c (hpre c)

end Cert.Proof.Assemble

end
-- ==== Proof.lean ====
/- The proof of `Cert.Claim`.
   What is proved: over the extended reals, under the precondition (every input finite, every label an integer
   value), the tiled focal-loss and smooth-L1 program and the reference end with equal results — the box loss and the
   classification loss — and unchanged arguments; each program's frame is its run with the results dropped.
   By which law: the tiled program's per-class column sums over the padded tiles are re-indexed to the rows (a padding
   row, zero scores and label -1, adds 0; a sum regrouped by cores and tiles is the same sum), and the float-label
   and the truncated-label spellings of validity, class indicator and positivity agree on integer-valued labels
   with finite scores. -/
import proofs.«110382_j58110907515691_2_alg».proof.Defs
import proofs.«110382_j58110907515691_2_alg».proof.Proof.Gen.Kernel
import proofs.«110382_j58110907515691_2_alg».proof.Proof.Gen.Kernel.Skeleton
import proofs.«110382_j58110907515691_2_alg».proof.Proof.Gen.Kernel.Launch
import proofs.«110382_j58110907515691_2_alg».proof.Proof.Gen.Kernel.Points
import proofs.«110382_j58110907515691_2_alg».proof.Proof.Gen.Kernel.Frame
import proofs.«110382_j58110907515691_2_alg».proof.Proof.Gen.KernelIdeal
import proofs.«110382_j58110907515691_2_alg».proof.Proof.Gen.KernelIdeal.Skeleton
import proofs.«110382_j58110907515691_2_alg».proof.Proof.Gen.KernelIdeal.Launch
import proofs.«110382_j58110907515691_2_alg».proof.Proof.Gen.KernelIdeal.Points
import proofs.«110382_j58110907515691_2_alg».proof.Proof.Gen.KernelIdeal.Frame
import proofs.«110382_j58110907515691_2_alg».proof.Proof.Gen.ReferenceIdeal
import proofs.«110382_j58110907515691_2_alg».proof.Proof.Gen.Pre_finite_inputs
import proofs.«110382_j58110907515691_2_alg».proof.Proof.RefRun
import proofs.«110382_j58110907515691_2_alg».proof.Proof.RefRead
import proofs.«110382_j58110907515691_2_alg».proof.Proof.RowSpec
import Idealize.ShloMosaic.Adequacy
import Idealize.ShloMosaic.Init
import proofs.«110382_j58110907515691_2_alg».proof.Proof.Assemble

noncomputable section

namespace Cert.Proof

open Idealize.ShloMosaic Idealize.SL.Sem Cert.Kernel

theorem claim : Cert.Claim := ⟨Cert.Kernel.Gen.facts, Cert.KernelIdeal.Gen.facts, Cert.ReferenceIdeal.Gen.facts, Cert.Pre_finite_inputs.Gen.facts,
  Assemble.frame_k, Assemble.frame_ki, Assemble.frame_ri, Assemble.preserves, Assemble.algebraic⟩

end Cert.Proof

end
